-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S512x40x32 .f32
  ∧ IdealRules.sign_bit.Statement Cert.KernelIdeal.S600x40x32 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1500x1280 : Shape := ⟨3, ![8, 1500, 1280]⟩
abbrev S5120x1280 : Shape := ⟨2, ![5120, 1280]⟩
abbrev S5120 : Shape := ⟨1, ![5120]⟩
abbrev S_ : Shape := ⟨0, ![]⟩

class Facts : Prop where
  bcast_S_S8x1500x1280 : S_.BroadcastsInDim S8x1500x1280 (![] : Fin 0 → Fin S8x1500x1280.rank)
  reducesTo_S8x1500x1280_S_d0_1_2 : S8x1500x1280.ReducesTo [0, 1, 2] S_
  h_S_ : 0 < S_.numel
  bcast_S_S5120x1280 : S_.BroadcastsInDim S5120x1280 (![] : Fin 0 → Fin S5120x1280.rank)
  reducesTo_S5120x1280_S_d0_1 : S5120x1280.ReducesTo [0, 1] S_
  bcast_S_S5120 : S_.BroadcastsInDim S5120 (![] : Fin 0 → Fin S5120.rank)
  reducesTo_S5120_S_d0 : S5120.ReducesTo [0] S_

variable [Facts]

def fn {F : FTy → Type} [FloatOps F] (main_arg0 : FVec F S8x1500x1280 .f32) (main_arg1 : FVec F S5120x1280 .f32) (main_arg2 : FVec F S5120 .f32) : IVec S_ 1 :=
  let main_v0 : FVec F S8x1500x1280 .f32 := Host.absf main_arg0
  let main_cst : FVec F S_ .f32 := constant S_ .f32 0x7F800000#32
  let main_v1 : FVec F S8x1500x1280 .f32 := broadcastInDim S8x1500x1280 ![] bcast_S_S8x1500x1280 main_cst
  let main_v2 : IVec S8x1500x1280 1 := cmpf .olt main_v0 main_v1
  let main_c : IVec S_ 1 := constantI S_ 1 1#1
  let main_v3 : IVec S_ 1 := (fun x v => Host.reduce IntOp.andi x v reducesTo_S8x1500x1280_S_d0_1_2 h_S_) main_v2 main_c
  let main_v4 : FVec F S5120x1280 .f32 := Host.absf main_arg1
  let main_cst_0 : FVec F S_ .f32 := constant S_ .f32 0x7F800000#32
  let main_v5 : FVec F S5120x1280 .f32 := broadcastInDim S5120x1280 ![] bcast_S_S5120x1280 main_cst_0
  let main_v6 : IVec S5120x1280 1 := cmpf .olt main_v4 main_v5
  let main_c_1 : IVec S_ 1 := constantI S_ 1 1#1
  let main_v7 : IVec S_ 1 := (fun x v => Host.reduce IntOp.andi x v reducesTo_S5120x1280_S_d0_1 h_S_) main_v6 main_c_1
  let main_v8 : IVec S_ 1 := andi main_v3 main_v7
  let main_v9 : FVec F S5120 .f32 := Host.absf main_arg2
  let main_cst_2 : FVec F S_ .f32 := constant S_ .f32 0x7F800000#32
  let main_v10 : FVec F S5120 .f32 := broadcastInDim S5120 ![] bcast_S_S5120 main_cst_2
  let main_v11 : IVec S5120 1 := cmpf .olt main_v9 main_v10
  let main_c_3 : IVec S_ 1 := constantI S_ 1 1#1
  let main_v12 : IVec S_ 1 := (fun x v => Host.reduce IntOp.andi x v reducesTo_S5120_S_d0 h_S_) main_v11 main_c_3
  let main_v13 : IVec S_ 1 := andi main_v8 main_v12
  main_v13
-- ==== Kernel.lean ====
abbrev S8x1500x1280 : Shape := ⟨3, ![8, 1500, 1280]⟩
abbrev S5120x1280 : Shape := ⟨2, ![5120, 1280]⟩
abbrev S5120 : Shape := ⟨1, ![5120]⟩
abbrev S5120x40 : Shape := ⟨2, ![5120, 40]⟩
abbrev S512x1280 : Shape := ⟨2, ![512, 1280]⟩
abbrev S512x40 : Shape := ⟨2, ![512, 40]⟩
abbrev S512x40x32 : Shape := ⟨3, ![512, 40, 32]⟩
abbrev S512x40x1 : Shape := ⟨3, ![512, 40, 1]⟩
abbrev S12000x1280 : Shape := ⟨2, ![12000, 1280]⟩
abbrev S12000x5120 : Shape := ⟨2, ![12000, 5120]⟩
abbrev S600x1280 : Shape := ⟨2, ![600, 1280]⟩
abbrev S512 : Shape := ⟨1, ![512]⟩
abbrev S600x512 : Shape := ⟨2, ![600, 512]⟩
abbrev S600x40x32 : Shape := ⟨3, ![600, 40, 32]⟩
abbrev S600x40 : Shape := ⟨2, ![600, 40]⟩
abbrev S600x40x1 : Shape := ⟨3, ![600, 40, 1]⟩
abbrev S1x512 : Shape := ⟨2, ![1, 512]⟩
abbrev S8x1500x5120 : Shape := ⟨3, ![8, 1500, 5120]⟩

abbrev nBuf : Space → Nat
  | .hbm => 8
  | .vmem => 14
  | .smem => 0
  | _ => 0

abbrev bufTy : (tb : Table) → Fin (tcTables nBuf tb) → BufTy
  | .hbm, ⟨0, _⟩ => ⟨S8x1500x1280, .f32⟩
  | .hbm, ⟨1, _⟩ => ⟨S5120x1280, .f32⟩
  | .hbm, ⟨2, _⟩ => ⟨S5120, .f32⟩
  | .hbm, ⟨3, _⟩ => ⟨S5120x1280, .bf16⟩
  | .hbm, ⟨4, _⟩ => ⟨S5120x40, .f32⟩
  | .hbm, ⟨5, _⟩ => ⟨S12000x1280, .f32⟩
  | .hbm, ⟨6, _⟩ => ⟨S12000x5120, .f32⟩
  | .hbm, ⟨7, _⟩ => ⟨S8x1500x5120, .f32⟩
  | .local _ .vmem, ⟨0, _⟩ => ⟨S512x1280, .f32⟩
  | .local _ .vmem, ⟨1, _⟩ => ⟨S512x1280, .f32⟩
  | .local _ .vmem, ⟨2, _⟩ => ⟨S512x1280, .bf16⟩
  | .local _ .vmem, ⟨3, _⟩ => ⟨S512x1280, .bf16⟩
  | .local _ .vmem, ⟨4, _⟩ => ⟨S512x40, .f32⟩
  | .local _ .vmem, ⟨5, _⟩ => ⟨S512x40, .f32⟩
  | .local _ .vmem, ⟨6, _⟩ => ⟨S600x1280, .f32⟩
  | .local _ .vmem, ⟨7, _⟩ => ⟨S600x1280, .f32⟩
  | .local _ .vmem, ⟨8, _⟩ => ⟨S512x1280, .bf16⟩
  | .local _ .vmem, ⟨9, _⟩ => ⟨S512x1280, .bf16⟩
  | .local _ .vmem, ⟨10, _⟩ => ⟨S512, .f32⟩
  | .local _ .vmem, ⟨11, _⟩ => ⟨S512, .f32⟩
  | .local _ .vmem, ⟨12, _⟩ => ⟨S600x512, .f32⟩
  | .local _ .vmem, ⟨13, _⟩ => ⟨S600x512, .f32⟩
  | _, _ => ⟨S8x1500x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [BitOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x40 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![20, 10], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S600x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S600x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S512x1280_S512x1280_0_0 : ∀ a, (![0, 0] : Fin 2 → Nat) a + S512x1280.size a ≤ S512x1280.size a
  h_S512x1280 : 0 < S512x1280.numel
  shapeCasts_S512x1280_S512x40x32 : S512x1280.ShapeCasts S512x40x32
  reduces_S512x40x32_S512x40 : S512x40x32.Reduces [2] S512x40
  shapeCasts_S512x40_S512x40x1 : S512x40.ShapeCasts S512x40x1
  broadcasts_S512x40x1_S512x40x32 : S512x40x1.Broadcasts S512x40x32
  shapeCasts_S512x40x32_S512x1280 : S512x40x32.ShapeCasts S512x1280
  bitsLt_bf16_f32 : FTy.bits .bf16 < FTy.bits .f32
  packedbf16_S512x1280_S512x1280_0_0 : (Rect.unit (s := S512x1280) ![0, 0] S512x1280.size inb_S512x1280_S512x1280_0_0).PackedRows (EltTy.packing .bf16)
  shapeCasts_S512x40x1_S512x40 : S512x40x1.ShapeCasts S512x40
  inb_S512x40_S512x40_0_0 : ∀ a, (![0, 0] : Fin 2 → Nat) a + S512x40.size a ≤ S512x40.size a
  h_S512x40 : 0 < S512x40.numel
  shapeCasts_S8x1500x1280_S12000x1280 : S8x1500x1280.ShapeCasts S12000x1280
  inb_S600x1280_S600x1280_0_0 : ∀ a, (![0, 0] : Fin 2 → Nat) a + S600x1280.size a ≤ S600x1280.size a
  h_S600x1280 : 0 < S600x1280.numel
  shapeCasts_S600x1280_S600x1280 : S600x1280.ShapeCasts S600x1280
  shapeCasts_S600x1280_S600x40x32 : S600x1280.ShapeCasts S600x40x32
  reduces_S600x40x32_S600x40 : S600x40x32.Reduces [2] S600x40
  shapeCasts_S600x40_S600x40x1 : S600x40.ShapeCasts S600x40x1
  broadcasts_S600x40x1_S600x40x32 : S600x40x1.Broadcasts S600x40x32
  shapeCasts_S600x40x32_S600x1280 : S600x40x32.ShapeCasts S600x1280
  shapeCasts_S512x1280_S512x1280 : S512x1280.ShapeCasts S512x1280
  inb_S512_S512_0 : ∀ a, (![0] : Fin 1 → Nat) a + S512.size a ≤ S512.size a
  h_S512 : 0 < S512.numel
  shapeCasts_S512_S1x512 : S512.ShapeCasts S1x512
  broadcasts_S1x512_S600x512 : S1x512.Broadcasts S600x512
  inb_S600x512_S600x512_0_0 : ∀ a, (![0, 0] : Fin 2 → Nat) a + S600x512.size a ≤ S600x512.size a
  h_S600x512 : 0 < S600x512.numel
  shapeCasts_S12000x5120_S8x1500x5120 : S12000x5120.ShapeCasts S8x1500x5120
  dot_S600x1280_S512x1280_S600x512_1_1_0_0_n_n_wf : DotDims.WF S600x1280 S512x1280 S600x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1280.size a ≤ S5120x1280.size a
  hwx0_0 : ∀ i : grid0.Coords, EltTy.bits .f32 = 32 ∨ (Rect.block (s := S5120x1280) S512x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1280.size a ≤ S5120x1280.size a
  hwx0_1 : ∀ i : grid0.Coords, EltTy.bits .bf16 = 32 ∨ (Rect.block (s := S5120x1280) S512x1280.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x40.size a ≤ S5120x40.size a
  hwx0_2 : ∀ i : grid0.Coords, EltTy.bits .f32 = 32 ∨ (Rect.block (s := S5120x40) S512x40.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S600x1280.size a ≤ S12000x1280.size a
  hwx1_0 : ∀ i : grid1.Coords, EltTy.bits .f32 = 32 ∨ (Rect.block (s := S12000x1280) S600x1280.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1280.size a ≤ S5120x1280.size a
  hwx1_1 : ∀ i : grid1.Coords, EltTy.bits .bf16 = 32 ∨ (Rect.block (s := S5120x1280) S512x1280.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S5120.size a
  hwx1_2 : ∀ i : grid1.Coords, EltTy.bits .f32 = 32 ∨ (Rect.block (s := S5120) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S600x512.size a ≤ S12000x5120.size a
  hwx1_3 : ∀ i : grid1.Coords, EltTy.bits .f32 = 32 ∨ (Rect.block (s := S12000x5120) S600x512.size (cc1_transform_3 i) (hinb1_3 i)).WholeWords (EltTy.packing .f32)

variable [Facts₀]

def dot_S600x1280_S512x1280_S600x512_1_1_0_0_n_n : DotDims S600x1280 S512x1280 S600x512 where
  lhsContracting := [1]
  rhsContracting := [1]
  lhsNonContracting := [0]
  rhsNonContracting := [0]
  lhsBatch := []
  rhsBatch := []
  wf := dot_S600x1280_S512x1280_S600x512_1_1_0_0_n_n_wf

abbrev win0_0 : Pipeline.Window sig grid0 :=
  Pipeline.Window.ofSpec (Memref.whole main_arg1) S512x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x1280.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x40.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S600x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S512x1280.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S600x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x1500x1280 : Shape := ⟨3, ![8, 1500, 1280]⟩
abbrev S5120x1280 : Shape := ⟨2, ![5120, 1280]⟩
abbrev S5120 : Shape := ⟨1, ![5120]⟩
abbrev S7 : Shape := ⟨1, ![7]⟩
abbrev S8 : Shape := ⟨1, ![8]⟩
abbrev S8x1500x40x32 : Shape := ⟨4, ![8, 1500, 40, 32]⟩
abbrev S_ : Shape := ⟨0, ![]⟩
abbrev S8x1500x40 : Shape := ⟨3, ![8, 1500, 40]⟩
abbrev S8x1500x40x1 : Shape := ⟨4, ![8, 1500, 40, 1]⟩
abbrev S8x1500x40x32x1 : Shape := ⟨5, ![8, 1500, 40, 32, 1]⟩
abbrev S1x1x1x1x7 : Shape := ⟨5, ![1, 1, 1, 1, 7]⟩
abbrev S8x1500x40x32x7 : Shape := ⟨5, ![8, 1500, 40, 32, 7]⟩
abbrev S5120x40x32 : Shape := ⟨3, ![5120, 40, 32]⟩
abbrev S5120x40 : Shape := ⟨2, ![5120, 40]⟩
abbrev S5120x40x1 : Shape := ⟨3, ![5120, 40, 1]⟩
abbrev S5120x40x32x1 : Shape := ⟨4, ![5120, 40, 32, 1]⟩
abbrev S1x1x1x7 : Shape := ⟨4, ![1, 1, 1, 7]⟩
abbrev S5120x40x32x7 : Shape := ⟨4, ![5120, 40, 32, 7]⟩
abbrev S8x1500x5120 : Shape := ⟨3, ![8, 1500, 5120]⟩
abbrev S1x1x5120 : Shape := ⟨3, ![1, 1, 5120]⟩

abbrev nBuf : Space → Nat
  | .hbm => 83
  | .vmem => 0
  | .smem => 0
  | _ => 0

abbrev bufTy : (tb : Table) → Fin (tcTables nBuf tb) → BufTy
  | .hbm, ⟨0, _⟩ => ⟨S8x1500x1280, .f32⟩
  | .hbm, ⟨1, _⟩ => ⟨S5120x1280, .f32⟩
  | .hbm, ⟨2, _⟩ => ⟨S5120, .f32⟩
  | .hbm, ⟨3, _⟩ => ⟨S7, .f32⟩
  | .hbm, ⟨4, _⟩ => ⟨S8, .f32⟩
  | .hbm, ⟨5, _⟩ => ⟨S8x1500x40x32, .f32⟩
  | .hbm, ⟨6, _⟩ => ⟨S8x1500x40x32, .f32⟩
  | .hbm, ⟨7, _⟩ => ⟨S_, .f32⟩
  | .hbm, ⟨8, _⟩ => ⟨S8x1500x40, .f32⟩
  | .hbm, ⟨9, _⟩ => ⟨S8x1500x40x1, .f32⟩
  | .hbm, ⟨10, _⟩ => ⟨S_, .f32⟩
  | .hbm, ⟨11, _⟩ => ⟨S8x1500x40x1, .f32⟩
  | .hbm, ⟨12, _⟩ => ⟨S8x1500x40x1, .f32⟩
  | .hbm, ⟨13, _⟩ => ⟨S_, .f32⟩
  | .hbm, ⟨14, _⟩ => ⟨S8x1500x40x1, .f32⟩
  | .hbm, ⟨15, _⟩ => ⟨S8x1500x40x1, .f32⟩
  | .hbm, ⟨16, _⟩ => ⟨S8x1500x40x32, .f32⟩
  | .hbm, ⟨17, _⟩ => ⟨S8x1500x40x32, .f32⟩
  | .hbm, ⟨18, _⟩ => ⟨S8x1500x40x32, .f32⟩
  | .hbm, ⟨19, _⟩ => ⟨S8x1500x40x32x1, .f32⟩
  | .hbm, ⟨20, _⟩ => ⟨S1x1x1x1x7, .f32⟩
  | .hbm, ⟨21, _⟩ => ⟨S8x1500x40x32x7, .f32⟩
  | .hbm, ⟨22, _⟩ => ⟨S8x1500x40x32x7, .f32⟩
  | .hbm, ⟨23, _⟩ => ⟨S8x1500x40x32x7, .i1⟩
  | .hbm, ⟨24, _⟩ => ⟨S8x1500x40x32x7, .i32⟩
  | .hbm, ⟨25, _⟩ => ⟨S_, .i32⟩
  | .hbm, ⟨26, _⟩ => ⟨S8x1500x40x32, .i32⟩
  | .hbm, ⟨27, _⟩ => ⟨S8x1500x40x32, .f32⟩
  | .hbm, ⟨28, _⟩ => ⟨S_, .i32⟩
  | .hbm, ⟨29, _⟩ => ⟨S8x1500x40x32, .i32⟩
  | .hbm, ⟨30, _⟩ => ⟨S8x1500x40x32, .i1⟩
  | .hbm, ⟨31, _⟩ => ⟨S_, .i32⟩
  | .hbm, ⟨32, _⟩ => ⟨S8x1500x40x32, .i32⟩
  | .hbm, ⟨33, _⟩ => ⟨S8x1500x40x32, .i32⟩
  | .hbm, ⟨34, _⟩ => ⟨S8x1500x40x32, .i32⟩
  | .hbm, ⟨35, _⟩ => ⟨S8x1500x40x32x1, .i32⟩
  | .hbm, ⟨36, _⟩ => ⟨S8x1500x40x32, .f32⟩
  | .hbm, ⟨37, _⟩ => ⟨S8x1500x40x32, .f32⟩
  | .hbm, ⟨38, _⟩ => ⟨S8x1500x40x32, .f32⟩
  | .hbm, ⟨39, _⟩ => ⟨S8x1500x40x32, .f32⟩
  | .hbm, ⟨40, _⟩ => ⟨S8x1500x1280, .f32⟩
  | .hbm, ⟨41, _⟩ => ⟨S8x1500x40, .f32⟩
  | .hbm, ⟨42, _⟩ => ⟨S5120x40x32, .f32⟩
  | .hbm, ⟨43, _⟩ => ⟨S5120x40x32, .f32⟩
  | .hbm, ⟨44, _⟩ => ⟨S_, .f32⟩
  | .hbm, ⟨45, _⟩ => ⟨S5120x40, .f32⟩
  | .hbm, ⟨46, _⟩ => ⟨S5120x40x1, .f32⟩
  | .hbm, ⟨47, _⟩ => ⟨S_, .f32⟩
  | .hbm, ⟨48, _⟩ => ⟨S5120x40x1, .f32⟩
  | .hbm, ⟨49, _⟩ => ⟨S5120x40x1, .f32⟩
  | .hbm, ⟨50, _⟩ => ⟨S_, .f32⟩
  | .hbm, ⟨51, _⟩ => ⟨S5120x40x1, .f32⟩
  | .hbm, ⟨52, _⟩ => ⟨S5120x40x1, .f32⟩
  | .hbm, ⟨53, _⟩ => ⟨S5120x40x32, .f32⟩
  | .hbm, ⟨54, _⟩ => ⟨S5120x40x32, .f32⟩
  | .hbm, ⟨55, _⟩ => ⟨S5120x40x32, .f32⟩
  | .hbm, ⟨56, _⟩ => ⟨S5120x40x32x1, .f32⟩
  | .hbm, ⟨57, _⟩ => ⟨S1x1x1x7, .f32⟩
  | .hbm, ⟨58, _⟩ => ⟨S5120x40x32x7, .f32⟩
  | .hbm, ⟨59, _⟩ => ⟨S5120x40x32x7, .f32⟩
  | .hbm, ⟨60, _⟩ => ⟨S5120x40x32x7, .i1⟩
  | .hbm, ⟨61, _⟩ => ⟨S5120x40x32x7, .i32⟩
  | .hbm, ⟨62, _⟩ => ⟨S_, .i32⟩
  | .hbm, ⟨63, _⟩ => ⟨S5120x40x32, .i32⟩
  | .hbm, ⟨64, _⟩ => ⟨S5120x40x32, .f32⟩
  | .hbm, ⟨65, _⟩ => ⟨S_, .i32⟩
  | .hbm, ⟨66, _⟩ => ⟨S5120x40x32, .i32⟩
  | .hbm, ⟨67, _⟩ => ⟨S5120x40x32, .i1⟩
  | .hbm, ⟨68, _⟩ => ⟨S_, .i32⟩
  | .hbm, ⟨69, _⟩ => ⟨S5120x40x32, .i32⟩
  | .hbm, ⟨70, _⟩ => ⟨S5120x40x32, .i32⟩
  | .hbm, ⟨71, _⟩ => ⟨S5120x40x32, .i32⟩
  | .hbm, ⟨72, _⟩ => ⟨S5120x40x32x1, .i32⟩
  | .hbm, ⟨73, _⟩ => ⟨S5120x40x32, .f32⟩
  | .hbm, ⟨74, _⟩ => ⟨S5120x40x32, .f32⟩
  | .hbm, ⟨75, _⟩ => ⟨S5120x40x32, .f32⟩
  | .hbm, ⟨76, _⟩ => ⟨S5120x40x32, .f32⟩
  | .hbm, ⟨77, _⟩ => ⟨S5120x1280, .f32⟩
  | .hbm, ⟨78, _⟩ => ⟨S5120x40, .f32⟩
  | .hbm, ⟨79, _⟩ => ⟨S8x1500x5120, .f32⟩
  | .hbm, ⟨80, _⟩ => ⟨S1x1x5120, .f32⟩
  | .hbm, ⟨81, _⟩ => ⟨S8x1500x5120, .f32⟩
  | .hbm, ⟨82, _⟩ => ⟨S8x1500x5120, .f32⟩
  | _, _ => ⟨S8x1500x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_9 : Ref sig .tc := ⟨.hbm, 62, rfl⟩
abbrev main_v48 : Ref sig .tc := ⟨.hbm, 63, rfl⟩
abbrev main_v49 : Ref sig .tc := ⟨.hbm, 64, rfl⟩
abbrev main_c_10 : Ref sig .tc := ⟨.hbm, 65, rfl⟩
abbrev main_v50 : Ref sig .tc := ⟨.hbm, 66, rfl⟩
abbrev main_v51 : Ref sig .tc := ⟨.hbm, 67, rfl⟩
abbrev main_c_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]

class Facts₀ : Prop where
  shapeCasts_S8x1500x1280_S8x1500x40x32 : S8x1500x1280.ShapeCasts S8x1500x40x32
  reducesTo_S8x1500x40x32_S8x1500x40_d3 : S8x1500x40x32.ReducesTo [3] S8x1500x40
  h_S_ : 0 < S_.numel
  bcast_S8x1500x40_S8x1500x40x1_0_1_2 : S8x1500x40.BroadcastsInDim S8x1500x40x1 (![0, 1, 2] : Fin 3 → Fin S8x1500x40x1.rank)
  bcast_S_S8x1500x40x1 : S_.BroadcastsInDim S8x1500x40x1 (![] : Fin 0 → Fin S8x1500x40x1.rank)
  bcast_S8x1500x40x1_S8x1500x40x32_0_1_2_3 : S8x1500x40x1.BroadcastsInDim S8x1500x40x32 (![0, 1, 2, 3] : Fin 4 → Fin S8x1500x40x32.rank)
  bcast_S8x1500x40x32_S8x1500x40x32x1_0_1_2_3 : S8x1500x40x32.BroadcastsInDim S8x1500x40x32x1 (![0, 1, 2, 3] : Fin 4 → Fin S8x1500x40x32x1.rank)
  bcast_S7_S1x1x1x1x7_4 : S7.BroadcastsInDim S1x1x1x1x7 (![4] : Fin 1 → Fin S1x1x1x1x7.rank)
  bcast_S8x1500x40x32x1_S8x1500x40x32x7_0_1_2_3_4 : S8x1500x40x32x1.BroadcastsInDim S8x1500x40x32x7 (![0, 1, 2, 3, 4] : Fin 5 → Fin S8x1500x40x32x7.rank)
  bcast_S1x1x1x1x7_S8x1500x40x32x7_0_1_2_3_4 : S1x1x1x1x7.BroadcastsInDim S8x1500x40x32x7 (![0, 1, 2, 3, 4] : Fin 5 → Fin S8x1500x40x32x7.rank)
  natLt_1_32 : 1 < 32
  reducesTo_S8x1500x40x32x7_S8x1500x40x32_d4 : S8x1500x40x32x7.ReducesTo [4] S8x1500x40x32
  bcast_S_S8x1500x40x32 : S_.BroadcastsInDim S8x1500x40x32 (![] : Fin 0 → Fin S8x1500x40x32.rank)
  shapeCasts_S8x1500x40x32_S8x1500x1280 : S8x1500x40x32.ShapeCasts S8x1500x1280
  shapeCasts_S8x1500x40x1_S8x1500x40 : S8x1500x40x1.ShapeCasts S8x1500x40
  shapeCasts_S5120x1280_S5120x40x32 : S5120x1280.ShapeCasts S5120x40x32
  reducesTo_S5120x40x32_S5120x40_d2 : S5120x40x32.ReducesTo [2] S5120x40
  bcast_S5120x40_S5120x40x1_0_1 : S5120x40.BroadcastsInDim S5120x40x1 (![0, 1] : Fin 2 → Fin S5120x40x1.rank)
  bcast_S_S5120x40x1 : S_.BroadcastsInDim S5120x40x1 (![] : Fin 0 → Fin S5120x40x1.rank)
  bcast_S5120x40x1_S5120x40x32_0_1_2 : S5120x40x1.BroadcastsInDim S5120x40x32 (![0, 1, 2] : Fin 3 → Fin S5120x40x32.rank)
  bcast_S5120x40x32_S5120x40x32x1_0_1_2 : S5120x40x32.BroadcastsInDim S5120x40x32x1 (![0, 1, 2] : Fin 3 → Fin S5120x40x32x1.rank)
  bcast_S7_S1x1x1x7_3 : S7.BroadcastsInDim S1x1x1x7 (![3] : Fin 1 → Fin S1x1x1x7.rank)
  bcast_S5120x40x32x1_S5120x40x32x7_0_1_2_3 : S5120x40x32x1.BroadcastsInDim S5120x40x32x7 (![0, 1, 2, 3] : Fin 4 → Fin S5120x40x32x7.rank)
  bcast_S1x1x1x7_S5120x40x32x7_0_1_2_3 : S1x1x1x7.BroadcastsInDim S5120x40x32x7 (![0, 1, 2, 3] : Fin 4 → Fin S5120x40x32x7.rank)
  reducesTo_S5120x40x32x7_S5120x40x32_d3 : S5120x40x32x7.ReducesTo [3] S5120x40x32
  bcast_S_S5120x40x32 : S_.BroadcastsInDim S5120x40x32 (![] : Fin 0 → Fin S5120x40x32.rank)
  shapeCasts_S5120x40x32_S5120x1280 : S5120x40x32.ShapeCasts S5120x1280
  shapeCasts_S5120x40x1_S5120x40 : S5120x40x1.ShapeCasts S5120x40
  bcast_S5120_S1x1x5120_2 : S5120.BroadcastsInDim S1x1x5120 (![2] : Fin 1 → Fin S1x1x5120.rank)
  bcast_S1x1x5120_S8x1500x5120_0_1_2 : S1x1x5120.BroadcastsInDim S8x1500x5120 (![0, 1, 2] : Fin 3 → Fin S8x1500x5120.rank)
  gather_S8_S8x1500x40x32x1_S8x1500x40x32_n_0_n_n_0_4_1_wf : GatherDims.WF S8 S8x1500x40x32x1 S8x1500x40x32 [] [0] [] [0] [] 4 ![1]
  gather_S8_S5120x40x32x1_S5120x40x32_n_0_n_n_0_3_1_wf : GatherDims.WF S8 S5120x40x32x1 S5120x40x32 [] [0] [] [0] [] 3 ![1]
  dot_S8x1500x1280_S5120x1280_S8x1500x5120_2_1_01_0_n_n_wf : DotDims.WF S8x1500x1280 S5120x1280 S8x1500x5120 [2] [1] [0, 1] [0] [] []

variable [Facts₀]

def gather_S8_S8x1500x40x32x1_S8x1500x40x32_n_0_n_n_0_4_1 : GatherDims S8 S8x1500x40x32x1 S8x1500x40x32 where
  offsetDims := []
  collapsedSliceDims := [0]
  operandBatchingDims := []
  startIndicesBatchingDims := []
  startIndexMap := [0]
  indexVectorDim := 4
  sliceSizes := ![1]
  wf := gather_S8_S8x1500x40x32x1_S8x1500x40x32_n_0_n_n_0_4_1_wf
def gather_S8_S5120x40x32x1_S5120x40x32_n_0_n_n_0_3_1 : GatherDims S8 S5120x40x32x1 S5120x40x32 where
  offsetDims := []
  collapsedSliceDims := [0]
  operandBatchingDims := []
  startIndicesBatchingDims := []
  startIndexMap := [0]
  indexVectorDim := 3
  sliceSizes := ![1]
  wf := gather_S8_S5120x40x32x1_S5120x40x32_n_0_n_n_0_3_1_wf
def dot_S8x1500x1280_S5120x1280_S8x1500x5120_2_1_01_0_n_n : DotDims S8x1500x1280 S5120x1280 S8x1500x5120 where
  lhsContracting := [2]
  rhsContracting := [1]
  lhsNonContracting := [0, 1]
  rhsNonContracting := [0]
  lhsBatch := []
  rhsBatch := []
  wf := dot_S8x1500x1280_S5120x1280_S8x1500x5120_2_1_01_0_n_n_wf

class Facts : Prop extends Facts₀ where

variable [Facts]
-- ==== Proof.KernelRun.lean ====
/-
  The kernel program's run with its two results named: every weakly fair execution ends with the two result buffers
  holding what the last segment boundary's contents give them (the fold of the host reshapes and the two regions'
  write-backs from the launch memory), and with the three arguments as launched.
-/
import proofs.«125756_j635655160006_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its four segments (region, reshape, region, reshape), read at the two result buffers
    and the three arguments: the final state holds every unscoped buffer at the last boundary's contents. -/
theorem run_boundary : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_v0_1) = W4 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       h c _ (mem_uc main_v0_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.RunValue

end
-- ==== Proof.Spec.lean ====
/-
  The common value of the two programs, element by element on the extended reals.

  A row of 1280 entries is cut into 40 groups of 32.  A group's SCALE is its largest absolute value (the maximum taken
  from -∞) divided by 6 and floored at the literal 1e-12.  An entry x of a group with scale s is QUANTIZED to
  sign(x/s) · level(|x/s|) · s, where level(a) walks the seven thresholds 0.25 < 0.75 < 1.25 < 1.75 < 2.5 < 3.5 < 5 upwards
  and keeps the value 0.5, 1, 1.5, 2, 3, 4, 6 of the last threshold that a exceeds (0 when it exceeds none).
  The linear layer is the matrix product of the quantized activations with the transposed quantized weights, plus the bias.
  Every float literal is kept as the word both programs print.
-/
import Idealize.ShloMosaic.PureOps.Ideal
import Idealize.ShloMosaic.PureOps.Ideal.Laws
import Idealize.ShloMosaic.Lib.ValueIdx

noncomputable section

open scoped BigOperators

namespace Cert.Quant

open Idealize.ShloMosaic Idealize.ShloMosaic.ValueIdx

/-- The extended real a 32-bit float word denotes. -/
abbrev lit (b : BitVec 32) : EReal := Ideal.ofBits .f32 b

/-- The absolute value on the extended reals. -/
def eabs (a : EReal) : EReal := max a (-a)

/-- A group's scale: its largest absolute value (from -∞), over 6, floored at 1e-12. -/
def gscale (f : Fin 32 → EReal) : EReal :=
  max (Ideal.div ((Finset.univ : Finset (Fin 32)).fold max (lit 0xFF800000#32) (fun e => eabs (f e))) (lit 0x40C00000#32))
    (lit 0x2B8CBCCC#32)

/-- The magnitude level: the value of the last threshold exceeded, 0 if none. -/
def level (a : EReal) : EReal :=
  Scalar.select (Ideal.cmp .ogt a (lit 0x40A00000#32)) (lit 0x40C00000#32)
  (Scalar.select (Ideal.cmp .ogt a (lit 0x40600000#32)) (lit 0x40800000#32)
  (Scalar.select (Ideal.cmp .ogt a (lit 0x40200000#32)) (lit 0x40400000#32)
  (Scalar.select (Ideal.cmp .ogt a (lit 0x3FE00000#32)) (lit 0x40000000#32)
  (Scalar.select (Ideal.cmp .ogt a (lit 0x3FA00000#32)) (lit 0x3FC00000#32)
  (Scalar.select (Ideal.cmp .ogt a (lit 0x3F400000#32)) (lit 0x3F800000#32)
  (Scalar.select (Ideal.cmp .ogt a (lit 0x3E800000#32)) (lit 0x3F000000#32) (lit 0x00000000#32)))))))

/-- An entry `x` of a group with scale `s`, quantized and scaled back. -/
def qelem (x s : EReal) : EReal := Ideal.sign (Ideal.div x s) * level (eabs (Ideal.div x s)) * s

/-- Group `g` of row `r` of an array of `n` rows of 1280 entries. -/
def grp {n : Nat} (a : (⟨2, ![n, 1280]⟩ : Shape).Idx → EReal) (r : Fin n) (g : Fin 40) : Fin 32 → EReal :=
  fun e => a (ix2 r ⟨32 * g.val + e.val, by omega⟩)

/-- The scales of all groups of all rows. -/
def scales {n : Nat} (a : (⟨2, ![n, 1280]⟩ : Shape).Idx → EReal) : (⟨2, ![n, 40]⟩ : Shape).Idx → EReal :=
  fun i => gscale (grp a ⟨(i 0).val, idx2_lt0 i⟩ ⟨(i 1).val, idx2_lt1 i⟩)

/-- The array quantized entry by entry, each entry with its group's scale. -/
def quant {n : Nat} (a : (⟨2, ![n, 1280]⟩ : Shape).Idx → EReal) : (⟨2, ![n, 1280]⟩ : Shape).Idx → EReal :=
  fun i => qelem (a i) (gscale (grp a ⟨(i 0).val, idx2_lt0 i⟩ ⟨(i 1).val / 32, by have := idx2_lt1 i; omega⟩))

/-- `xq · wqᵀ + b`: entry (r, o) is the sum over the 1280 features of `xq (r, k) · wq (o, k)`, plus `b o`. -/
def lin {p q : Nat} (xq : (⟨2, ![p, 1280]⟩ : Shape).Idx → EReal) (wq : (⟨2, ![q, 1280]⟩ : Shape).Idx → EReal)
    (b : (⟨1, ![q]⟩ : Shape).Idx → EReal) : (⟨2, ![p, q]⟩ : Shape).Idx → EReal :=
  fun i => (∑ k : Fin 1280, xq (ix2 ⟨(i 0).val, idx2_lt0 i⟩ k) * wq (ix2 ⟨(i 1).val, idx2_lt1 i⟩ k)) + b (ix1 ⟨(i 1).val, idx2_lt1 i⟩)

/-- The activations [8, 1500, 1280] as 12000 rows, row-major. -/
def flat (x : (⟨3, ![8, 1500, 1280]⟩ : Shape).Idx → EReal) : (⟨2, ![12000, 1280]⟩ : Shape).Idx → EReal :=
  fun i => x (ix3 ⟨(i 0).val / 1500, by have := idx2_lt0 i; omega⟩ ⟨(i 0).val % 1500, Nat.mod_lt _ (by omega)⟩ ⟨(i 1).val, idx2_lt1 i⟩)

/-- The first result: the linear layer of the quantized activations and weights, as [8, 1500, 5120]. -/
def out (x : (⟨3, ![8, 1500, 1280]⟩ : Shape).Idx → EReal) (w : (⟨2, ![5120, 1280]⟩ : Shape).Idx → EReal)
    (b : (⟨1, ![5120]⟩ : Shape).Idx → EReal) : (⟨3, ![8, 1500, 5120]⟩ : Shape).Idx → EReal :=
  fun i => lin (quant (flat x)) (quant w) b
    (ix2 (⟨1500 * (i 0).val + (i 1).val, by have := (i 0).isLt; have := (i 1).isLt; simp only [Matrix.cons_val_zero, Matrix.cons_val_one] at *; omega⟩ : Fin 12000)
      (⟨(i 2).val, (i 2).isLt⟩ : Fin 5120))

/-- The second result: the weights' scales. -/
def scaleW (w : (⟨2, ![5120, 1280]⟩ : Shape).Idx → EReal) : (⟨2, ![5120, 40]⟩ : Shape).Idx → EReal := scales w

end Cert.Quant

end
-- ==== Proof.SpecBlocks.lean ====
/-
  The specification is local in the rows: a group's scale and a quantized entry depend only on the entry's own row, and an
  entry of the linear layer only on one row of each factor and one bias entry.  So a block of rows of an array is
  quantized as the whole array is, and a tile of the product is the product of the two row blocks.
-/
import proofs.«125756_j635655160006_1_alg».proof.Proof.Spec

noncomputable section

open scoped BigOperators

namespace Cert.Quant

open Idealize.ShloMosaic Idealize.ShloMosaic.ValueIdx

/-- Two arrays that agree along a row have the same groups on that row. -/
theorem grp_of_row {n n' : Nat} (x : (⟨2, ![n, 1280]⟩ : Shape).Idx → EReal) (A : (⟨2, ![n', 1280]⟩ : Shape).Idx → EReal)
    (r : Fin n) (r' : Fin n') (h : ∀ k : Fin 1280, x (ix2 r k) = A (ix2 r' k)) (g : Fin 40) : grp x r g = grp A r' g :=
  funext fun _ => h _

/-- The scales of a row are those of the same row in any array that agrees with it there. -/
theorem scales_of_row {n n' : Nat} (x : (⟨2, ![n, 1280]⟩ : Shape).Idx → EReal) (A : (⟨2, ![n', 1280]⟩ : Shape).Idx → EReal)
    (y : (⟨2, ![n, 40]⟩ : Shape).Idx) (i : (⟨2, ![n', 40]⟩ : Shape).Idx)
    (h : ∀ k : Fin 1280, x (ix2 ⟨(y 0).val, idx2_lt0 y⟩ k) = A (ix2 ⟨(i 0).val, idx2_lt0 i⟩ k)) (hg : (y 1).val = (i 1).val) :
    scales x y = scales A i := by
  unfold scales
  rw [grp_of_row x A _ _ h]
  exact congrArg (fun g => gscale (grp A _ g)) (Fin.ext hg)

/-- A quantized entry is the same in any array that agrees with its row. -/
theorem quant_of_row {n n' : Nat} (x : (⟨2, ![n, 1280]⟩ : Shape).Idx → EReal) (A : (⟨2, ![n', 1280]⟩ : Shape).Idx → EReal)
    (y : (⟨2, ![n, 1280]⟩ : Shape).Idx) (i : (⟨2, ![n', 1280]⟩ : Shape).Idx)
    (h : ∀ k : Fin 1280, x (ix2 ⟨(y 0).val, idx2_lt0 y⟩ k) = A (ix2 ⟨(i 0).val, idx2_lt0 i⟩ k)) (hk : (y 1).val = (i 1).val) :
    quant x y = quant A i := by
  unfold quant
  rw [grp_of_row x A _ _ h]
  have e : x y = A i := by
    have := h ⟨(y 1).val, idx2_lt1 y⟩
    rw [show y = ix2 ⟨(y 0).val, idx2_lt0 y⟩ ⟨(y 1).val, idx2_lt1 y⟩ from eq_ix2 y,
      show i = ix2 ⟨(i 0).val, idx2_lt0 i⟩ ⟨(i 1).val, idx2_lt1 i⟩ from eq_ix2 i]
    rw [this]
    exact congrArg (fun k => A (ix2 _ k)) (Fin.ext hk)
  rw [e]
  exact congrArg (fun g => qelem (A i) (gscale (grp A _ g))) (Fin.ext (by show (y 1).val / 32 = (i 1).val / 32; rw [hk]))

/-- An entry of the linear layer from one row of each factor and one bias entry. -/
theorem lin_of_rows {p q p' q' : Nat} (xq : (⟨2, ![p, 1280]⟩ : Shape).Idx → EReal) (wq : (⟨2, ![q, 1280]⟩ : Shape).Idx → EReal)
    (b : (⟨1, ![q]⟩ : Shape).Idx → EReal) (xq' : (⟨2, ![p', 1280]⟩ : Shape).Idx → EReal) (wq' : (⟨2, ![q', 1280]⟩ : Shape).Idx → EReal)
    (b' : (⟨1, ![q']⟩ : Shape).Idx → EReal) (y : (⟨2, ![p, q]⟩ : Shape).Idx) (i : (⟨2, ![p', q']⟩ : Shape).Idx)
    (hx : ∀ k : Fin 1280, xq (ix2 ⟨(y 0).val, idx2_lt0 y⟩ k) = xq' (ix2 ⟨(i 0).val, idx2_lt0 i⟩ k))
    (hw : ∀ k : Fin 1280, wq (ix2 ⟨(y 1).val, idx2_lt1 y⟩ k) = wq' (ix2 ⟨(i 1).val, idx2_lt1 i⟩ k))
    (hb : b (ix1 ⟨(y 1).val, idx2_lt1 y⟩) = b' (ix1 ⟨(i 1).val, idx2_lt1 i⟩)) :
    lin xq wq b y = lin xq' wq' b' i := by
  unfold lin
  rw [hb]
  exact congrArg (· + _) (Finset.sum_congr rfl fun k _ => by rw [hx k, hw k])

end Cert.Quant

end
-- ==== Proof.Region0.lean ====
/-
  The first region's two result arrays.  Grid point t stages rows 512·t … 512·t+511 of the weights and writes back
  the same rows of the quantized weights and of the scales; since the specification is local in the rows, each written
  block is the block of the whole array's quantization, and the ten blocks tile the 5120 rows.
-/
import proofs.«125756_j635655160006_1_alg».proof.Proof.Gen.KernelIdeal.Frame
import proofs.«125756_j635655160006_1_alg».proof.Proof.SpecBlocks
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.Facts₀ Cert.KernelIdeal.Facts

variable (V : (c : Dev nD) → (b : Ref sig .tc) → Buf (Elt Ideal) ((c : Thread nD τ).loc b))

/-- The three windows move together: block row `t`, block column 0. -/
theorem idx_facts : ∀ t : Fin cfg0.N, win0_0.index t (0 : Fin 2) = win0_1.index t (0 : Fin 2)
    ∧ win0_0.index t (0 : Fin 2) = win0_2.index t (0 : Fin 2)
    ∧ win0_0.index t (1 : Fin 2) = 0 ∧ win0_1.index t (1 : Fin 2) = 0 ∧ win0_2.index t (1 : Fin 2) = 0
    ∧ win0_1.index t (0 : Fin 2) ≤ 9 ∧ win0_2.index t (0 : Fin 2) ≤ 9 :=
  (by decide +kernel : ∀ t : Fin grid0.N, _)

/-- Every block row is some point's. -/
theorem idx_onto : ∀ q : Fin 10, ∃ t : Fin cfg0.N, win0_1.index t (0 : Fin 2) = q.val ∧ win0_2.index t (0 : Fin 2) = q.val :=
  (by decide +kernel : ∀ q : Fin 10, ∃ t : Fin grid0.N, _)

/-- What point `t` writes back to the quantized weights is block `t` of the whole array's quantization. -/
theorem flushed1_eq (hb : ∀ x0 : Vec Ideal S512x1280 .f32, out0_1 (F := Ideal) x0 = Cert.Quant.quant x0) (c : Dev nD) (t : Fin cfg0.N) :
    (dat0 V c).flushed 1 t = ((cfg0.win 1).blk t).view.read (Elt Ideal) (Cert.Quant.quant (V c main_arg1)) := by
  show (cfg0.win 1).cut (grid0.coords t) ((dat0 V c).after 1 t) = _
  rw [after0_1, hb]
  obtain ⟨e0, e1, e2, e3, e4, e5, e6⟩ := idx_facts t
  funext j
  show Cert.Quant.quant (iblk0 V c 0 t) j = Cert.Quant.quant (V c main_arg1) (((cfg0.win 1).blk t).view.emb j)
  refine Cert.Quant.quant_of_row _ _ _ _ (fun k => ?_) ?_
  · show V c main_arg1 (((cfg0.win 0).blk t).view.emb (ix2 ⟨(j 0).val, idx2_lt0 j⟩ k)) = V c main_arg1 (ix2 ⟨((((cfg0.win 1).blk t).view.emb j) 0).val, _⟩ k)
    refine congrArg _ ?_
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 1280 + 1 * k.val = k.val; omega
  · show (j 1).val = win0_1.index t (1 : Fin 2) * 1280 + 1 * (j 1).val; omega

/-- What point `t` writes back to the scales is block `t` of the whole array's scales. -/
theorem flushed2_eq (hb : ∀ x0 : Vec Ideal S512x1280 .f32, out0_2 (F := Ideal) x0 = Cert.Quant.scales x0) (c : Dev nD) (t : Fin cfg0.N) :
    (dat0 V c).flushed 2 t = ((cfg0.win 2).blk t).view.read (Elt Ideal) (Cert.Quant.scales (V c main_arg1)) := by
  show (cfg0.win 2).cut (grid0.coords t) ((dat0 V c).after 2 t) = _
  rw [after0_2, hb]
  obtain ⟨e0, e1, e2, e3, e4, e5, e6⟩ := idx_facts t
  funext j
  show Cert.Quant.scales (iblk0 V c 0 t) j = Cert.Quant.scales (V c main_arg1) (((cfg0.win 2).blk t).view.emb j)
  refine Cert.Quant.scales_of_row _ _ _ _ (fun k => ?_) ?_
  · show V c main_arg1 (((cfg0.win 0).blk t).view.emb (ix2 ⟨(j 0).val, idx2_lt0 j⟩ k)) = V c main_arg1 (ix2 ⟨((((cfg0.win 2).blk t).view.emb j) 0).val, _⟩ k)
    refine congrArg _ ?_
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1280 + 1 * k.val = k.val; omega
  · show (j 1).val = win0_2.index t (1 : Fin 2) * 40 + 1 * (j 1).val; omega

/-- An index of the quantized weights is in point `t`'s block iff each coordinate is in the block's range. -/
theorem mem_blk1 (t : Fin cfg0.N) (i : S5120x1280.Idx) :
    i ∈ ((cfg0.win 1).blk t).view.set ↔ ∀ a : Fin 2, win0_1.index t a * S512x1280.size a ≤ (i a).val ∧ (i a).val < win0_1.index t a * S512x1280.size a + S512x1280.size a := by
  show i ∈ ((View.whole main_v0_0).slice (win0_1.rect t)).set ↔ _
  rw [View.set_slice_whole, Rect.mem_set_unit]
  exact Iff.rfl

/-- The same for the scales. -/
theorem mem_blk2 (t : Fin cfg0.N) (i : S5120x40.Idx) :
    i ∈ ((cfg0.win 2).blk t).view.set ↔ ∀ a : Fin 2, win0_2.index t a * S512x40.size a ≤ (i a).val ∧ (i a).val < win0_2.index t a * S512x40.size a + S512x40.size a := by
  show i ∈ ((View.whole main_v0_1).slice (win0_2.rect t)).set ↔ _
  rw [View.set_slice_whole, Rect.mem_set_unit]
  exact Iff.rfl

/-- The ten row blocks cover the quantized weights: row `r` is in block `r / 512`. -/
theorem cover1 (i : S5120x1280.Idx) : ∃ t : Fin cfg0.N, (cfg0.win 1).flush t = true ∧ i ∈ ((cfg0.win 1).blk t).view.set := by
  have hi0 : (i 0).val < 5120 := (i 0).isLt
  have hi1 : (i 1).val < 1280 := (i 1).isLt
  obtain ⟨t, ht, -⟩ := idx_onto ⟨(i 0).val / 512, by omega⟩
  obtain ⟨e0, e1, e2, e3, e4, e5, e6⟩ := idx_facts t
  refine ⟨t, flush0_1 t, ?_⟩
  rw [mem_blk1]
  intro a
  match a with
  | ⟨0, _⟩ => show win0_1.index t (0 : Fin 2) * 512 ≤ (i 0).val ∧ (i 0).val < win0_1.index t (0 : Fin 2) * 512 + 512; simp only at ht; omega
  | ⟨1, _⟩ => show win0_1.index t (1 : Fin 2) * 1280 ≤ (i 1).val ∧ (i 1).val < win0_1.index t (1 : Fin 2) * 1280 + 1280; omega

/-- And the scales. -/
theorem cover2 (i : S5120x40.Idx) : ∃ t : Fin cfg0.N, (cfg0.win 2).flush t = true ∧ i ∈ ((cfg0.win 2).blk t).view.set := by
  have hi0 : (i 0).val < 5120 := (i 0).isLt
  have hi1 : (i 1).val < 40 := (i 1).isLt
  obtain ⟨t, -, ht⟩ := idx_onto ⟨(i 0).val / 512, by omega⟩
  obtain ⟨e0, e1, e2, e3, e4, e5, e6⟩ := idx_facts t
  refine ⟨t, flush0_2 t, ?_⟩
  rw [mem_blk2]
  intro a
  match a with
  | ⟨0, _⟩ => show win0_2.index t (0 : Fin 2) * 512 ≤ (i 0).val ∧ (i 0).val < win0_2.index t (0 : Fin 2) * 512 + 512; simp only at ht; omega
  | ⟨1, _⟩ => show win0_2.index t (1 : Fin 2) * 40 ≤ (i 1).val ∧ (i 1).val < win0_2.index t (1 : Fin 2) * 40 + 40; omega

/-- After the region the quantized-weights array is the quantization of the weights as the region found them. -/
theorem final1 (hb : ∀ x0 : Vec Ideal S512x1280 .f32, out0_1 (F := Ideal) x0 = Cert.Quant.quant x0) (c : Dev nD) :
    (dat0 V c).arrAt 1 cfg0.N = Cert.Quant.quant (V c main_arg1) :=
  (dat0 V c).arrAt_eq_of_cover 1 (Cert.Quant.quant (V c main_arg1)) (fun t _ => flushed1_eq V hb c t) cover1

/-- And the scales array holds the weights' scales. -/
theorem final2 (hb : ∀ x0 : Vec Ideal S512x1280 .f32, out0_2 (F := Ideal) x0 = Cert.Quant.scales x0) (c : Dev nD) :
    (dat0 V c).arrAt 2 cfg0.N = Cert.Quant.scales (V c main_arg1) :=
  (dat0 V c).arrAt_eq_of_cover 2 (Cert.Quant.scales (V c main_arg1)) (fun t _ => flushed2_eq V hb c t) cover2

end Cert.KernelIdeal.Region0

end
-- ==== Proof.Region1.lean ====
/-
  The second region's result array.  Grid point (i, j) stages rows 600·i … of the flattened activations, rows 512·j … of
  the quantized weights and entries 512·j … of the bias, and writes back the tile (600·i …, 512·j …) of the product.
  An entry of the linear layer depends on one row of each factor and one bias entry, and a quantized activation only on
  its own row, so each written tile is the tile of the whole arrays' linear layer; the 20 × 10 tiles cover the result.
-/
import proofs.«125756_j635655160006_1_alg».proof.Proof.Gen.KernelIdeal.Frame
import proofs.«125756_j635655160006_1_alg».proof.Proof.SpecBlocks
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.Facts₀ Cert.KernelIdeal.Facts

variable (V : (c : Dev nD) → (b : Ref sig .tc) → Buf (Elt Ideal) ((c : Thread nD τ).loc b))

/-- The windows move together: the activations with the tile's row, the weights and the bias with its column. -/
theorem idx_facts : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 1) = win1_3.index t (1 : Fin 2)
    ∧ win1_3.index t (0 : Fin 2) ≤ 19 ∧ win1_3.index t (1 : Fin 2) ≤ 9 :=
  (by decide +kernel : ∀ t : Fin grid1.N, _)

/-- Every tile is some point's. -/
theorem idx_onto : ∀ (q0 : Fin 20) (q1 : Fin 10), ∃ t : Fin cfg1.N, win1_3.index t (0 : Fin 2) = q0.val ∧ win1_3.index t (1 : Fin 2) = q1.val :=
  (by decide +kernel : ∀ (q0 : Fin 20) (q1 : Fin 10), ∃ t : Fin grid1.N, _)

/-- What point `t` writes back is tile `t` of the linear layer of the arrays as the region finds them. -/
theorem flushed3_eq (hb : ∀ (x0 : Vec Ideal S600x1280 .f32) (x1 : Vec Ideal S512x1280 .bf16) (x2 : Vec Ideal S512 .f32),
      out1_3 (F := Ideal) x0 x1 x2 = Cert.Quant.lin (Cert.Quant.quant x0) x1 x2) (c : Dev nD) (t : Fin cfg1.N) :
    (dat1 V c).flushed 3 t = ((cfg1.win 3).blk t).view.read (Elt Ideal)
      (Cert.Quant.lin (Cert.Quant.quant (V c main_v1)) (V c main_v0_0) (V c main_arg2)) := by
  show (cfg1.win 3).cut (grid1.coords t) ((dat1 V c).after 3 t) = _
  rw [after1_3, hb]
  obtain ⟨e0, e1, e2, e3, e4, e5, e6⟩ := idx_facts t
  funext j
  show Cert.Quant.lin (Cert.Quant.quant (iblk1 V c 0 t)) (iblk1 V c 1 t) (iblk1 V c 2 t) j
    = Cert.Quant.lin (Cert.Quant.quant (V c main_v1)) (V c main_v0_0) (V c main_arg2) (((cfg1.win 3).blk t).view.emb j)
  refine Cert.Quant.lin_of_rows _ _ _ _ _ _ _ _ (fun k => ?_) (fun k => ?_) ?_
  · refine Cert.Quant.quant_of_row _ _ _ _ (fun k' => ?_) rfl
    show V c main_v1 (((cfg1.win 0).blk t).view.emb (ix2 ⟨(j 0).val, idx2_lt0 j⟩ k')) = V c main_v1 (ix2 ⟨((((cfg1.win 3).blk t).view.emb j) 0).val, _⟩ k')
    refine congrArg _ ?_
    funext a; apply Fin.ext
    match a with
    | ⟨0, _⟩ => show win1_0.index t (0 : Fin 2) * 600 + 1 * (j 0).val = win1_3.index t (0 : Fin 2) * 600 + 1 * (j 0).val; omega
    | ⟨1, _⟩ => show win1_0.index t (1 : Fin 2) * 1280 + 1 * k'.val = k'.val; omega
  · show V c main_v0_0 (((cfg1.win 1).blk t).view.emb (ix2 ⟨(j 1).val, idx2_lt1 j⟩ k)) = V c main_v0_0 (ix2 ⟨((((cfg1.win 3).blk t).view.emb j) 1).val, _⟩ k)
    refine congrArg _ ?_
    funext a; apply Fin.ext
    match a with
    | ⟨0, _⟩ => show win1_1.index t (0 : Fin 2) * 512 + 1 * (j 1).val = win1_3.index t (1 : Fin 2) * 512 + 1 * (j 1).val; omega
    | ⟨1, _⟩ => show win1_1.index t (1 : Fin 2) * 1280 + 1 * k.val = k.val; omega
  · show V c main_arg2 (((cfg1.win 2).blk t).view.emb (ix1 ⟨(j 1).val, idx2_lt1 j⟩)) = V c main_arg2 (ix1 ⟨((((cfg1.win 3).blk t).view.emb j) 1).val, _⟩)
    refine congrArg _ ?_
    funext a; apply Fin.ext
    match a with
    | ⟨0, _⟩ => show win1_2.index t (0 : Fin 1) * 512 + 1 * (j 1).val = win1_3.index t (1 : Fin 2) * 512 + 1 * (j 1).val; omega

/-- An index of the result is in point `t`'s tile iff each coordinate is in the tile's range. -/
theorem mem_blk3 (t : Fin cfg1.N) (i : S12000x5120.Idx) :
    i ∈ ((cfg1.win 3).blk t).view.set ↔ ∀ a : Fin 2, win1_3.index t a * S600x512.size a ≤ (i a).val ∧ (i a).val < win1_3.index t a * S600x512.size a + S600x512.size a := by
  show i ∈ ((View.whole main_v2).slice (win1_3.rect t)).set ↔ _
  rw [View.set_slice_whole, Rect.mem_set_unit]
  exact Iff.rfl

/-- The tiles cover the result: entry (r, o) is in tile (r / 600, o / 512). -/
theorem cover3 (i : S12000x5120.Idx) : ∃ t : Fin cfg1.N, (cfg1.win 3).flush t = true ∧ i ∈ ((cfg1.win 3).blk t).view.set := by
  have hi0 : (i 0).val < 12000 := (i 0).isLt
  have hi1 : (i 1).val < 5120 := (i 1).isLt
  obtain ⟨t, ht0, ht1⟩ := idx_onto ⟨(i 0).val / 600, by omega⟩ ⟨(i 1).val / 512, by omega⟩
  refine ⟨t, flush1_3 t, ?_⟩
  rw [mem_blk3]
  intro a
  match a with
  | ⟨0, _⟩ => show win1_3.index t (0 : Fin 2) * 600 ≤ (i 0).val ∧ (i 0).val < win1_3.index t (0 : Fin 2) * 600 + 600; simp only at ht0; omega
  | ⟨1, _⟩ => show win1_3.index t (1 : Fin 2) * 512 ≤ (i 1).val ∧ (i 1).val < win1_3.index t (1 : Fin 2) * 512 + 512; simp only at ht1; omega

/-- After the region the result array is the linear layer of the arrays as the region found them. -/
theorem final3 (hb : ∀ (x0 : Vec Ideal S600x1280 .f32) (x1 : Vec Ideal S512x1280 .bf16) (x2 : Vec Ideal S512 .f32),
      out1_3 (F := Ideal) x0 x1 x2 = Cert.Quant.lin (Cert.Quant.quant x0) x1 x2) (c : Dev nD) :
    (dat1 V c).arrAt 3 cfg1.N = Cert.Quant.lin (Cert.Quant.quant (V c main_v1)) (V c main_v0_0) (V c main_arg2) :=
  (dat1 V c).arrAt_eq_of_cover 3 _ (fun t _ => flushed3_eq V hb c t) cover3

end Cert.KernelIdeal.Region1

end
-- ==== Proof.KernelValue.lean ====
/-
  The kernel program's two results as functions of its arguments.  The first region leaves the quantized weights and
  their scales; the flattening of the activations to 12000 rows is a reshape, read row-major; the second region leaves
  the linear layer of the quantized flattened activations, the quantized weights and the bias; the last reshape reads
  entry (b, s, o) of the result at row 1500·b + s.  The scales pass through the second region and both reshapes untouched.
-/
import proofs.«125756_j635655160006_1_alg».proof.Proof.KernelRun
import proofs.«125756_j635655160006_1_alg».proof.Proof.Region0
import proofs.«125756_j635655160006_1_alg».proof.Proof.Region1
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.Facts₀ Cert.KernelIdeal.Facts

open Idealize.ShloMosaic.StableHlo

variable (m : (ℓ : Loc nD τ sig) → Buf (Elt Ideal) ℓ) (ρ : Dev nD → PrngReg)

/-- The scales after the whole run: the weights' scales. -/
theorem scale_final (hb2 : ∀ x0 : Vec Ideal S512x1280 .f32, out0_2 (F := Ideal) x0 = Cert.Quant.scales x0) (c : Dev nD) :
    W4 m ρ c (Proc.devRef .tc main_v0_1) = Cert.Quant.scaleW (m ((c.tc : Thread nD τ).loc main_arg1)) := by
  have h4 : W4 m ρ c (Proc.devRef .tc main_v0_1) = W3 m ρ c (Proc.devRef .tc main_v0_1) := by
    show StableHlo.after hostOps2 (W3 m ρ c) (Proc.devRef .tc main_v0_1) = _
    after_results
  have h3 : W3 m ρ c (Proc.devRef .tc main_v0_1) = W2 m ρ c (Proc.devRef .tc main_v0_1) := W3_of_ne m ρ c main_v0_1 (by decide)
  have h2 : W2 m ρ c (Proc.devRef .tc main_v0_1) = W1 m ρ c (Proc.devRef .tc main_v0_1) := by
    show StableHlo.after hostOps1 (W1 m ρ c) (Proc.devRef .tc main_v0_1) = _
    after_results
  have h1 : W1 m ρ c (Proc.devRef .tc main_v0_1) = Cert.Quant.scales (m ((c.tc : Thread nD τ).loc main_arg1)) :=
    (W1_arr m ρ c 2).trans (Region0.final2 (V0 m ρ) hb2 c)
  rw [h4, h3, h2, h1]
  rfl

/-- The quantized weights as the second region finds them. -/
theorem wq_entry (hb1 : ∀ x0 : Vec Ideal S512x1280 .f32, out0_1 (F := Ideal) x0 = Cert.Quant.quant x0) (c : Dev nD) :
    V2 m ρ c main_v0_0 = Cert.Quant.quant (m ((c.tc : Thread nD τ).loc main_arg1)) := by
  have h2 : W2 m ρ c (Proc.devRef .tc main_v0_0) = W1 m ρ c (Proc.devRef .tc main_v0_0) := by
    show StableHlo.after hostOps1 (W1 m ρ c) (Proc.devRef .tc main_v0_0) = _
    after_results
  have h1 : W1 m ρ c (Proc.devRef .tc main_v0_0) = Cert.Quant.quant (m ((c.tc : Thread nD τ).loc main_arg1)) :=
    (W1_arr m ρ c 1).trans (Region0.final1 (V0 m ρ) hb1 c)
  exact h2.trans h1

/-- The bias as the second region finds it. -/
theorem bias_entry (c : Dev nD) : V2 m ρ c main_arg2 = m ((c.tc : Thread nD τ).loc main_arg2) := by
  have h2 : W2 m ρ c (Proc.devRef .tc main_arg2) = W1 m ρ c (Proc.devRef .tc main_arg2) := by
    show StableHlo.after hostOps1 (W1 m ρ c) (Proc.devRef .tc main_arg2) = _
    after_results
  exact h2.trans (W1_of_ne m ρ c main_arg2 (by decide))

/-- The flattened activations as the second region finds them. -/
theorem x_entry (c : Dev nD) : V2 m ρ c main_v1 = Cert.Quant.flat (m ((c.tc : Thread nD τ).loc main_arg0)) := by
  have h2 : W2 m ρ c (Proc.devRef .tc main_v1)
      = fun i => shapeCast S12000x1280 (W1 m ρ c (Proc.devRef .tc main_arg0)) Facts₀.shapeCasts_S8x1500x1280_S12000x1280 i := by
    show StableHlo.after hostOps1 (W1 m ρ c) (Proc.devRef .tc main_v1) = _
    after_results
    rfl
  have h1 : W1 m ρ c (Proc.devRef .tc main_arg0) = m ((c.tc : Thread nD τ).loc main_arg0) := W1_of_ne m ρ c main_arg0 (by decide)
  refine h2.trans ?_
  rw [h1]
  funext i
  have hi0 : (i 0).val < 12000 := (i 0).isLt
  refine (shapeCast_apply _ _ i (ix3 ⟨(i 0).val / 1500, by omega⟩ ⟨(i 0).val % 1500, Nat.mod_lt _ (by omega)⟩ ⟨(i 1).val, (i 1).isLt⟩) ?_).trans rfl
  rw [Shape.rowMajor_val_three, Shape.rowMajor_val_two]
  show ((i 0).val / 1500 * 1500 + (i 0).val % 1500) * 1280 + (i 1).val = (i 0).val * 1280 + (i 1).val
  omega

/-- The first result after the whole run. -/
theorem out_final (hb1 : ∀ x0 : Vec Ideal S512x1280 .f32, out0_1 (F := Ideal) x0 = Cert.Quant.quant x0)
    (hb3 : ∀ (x0 : Vec Ideal S600x1280 .f32) (x1 : Vec Ideal S512x1280 .bf16) (x2 : Vec Ideal S512 .f32),
      out1_3 (F := Ideal) x0 x1 x2 = Cert.Quant.lin (Cert.Quant.quant x0) x1 x2) (c : Dev nD) :
    W4 m ρ c (Proc.devRef .tc main_v3)
      = Cert.Quant.out (m ((c.tc : Thread nD τ).loc main_arg0)) (m ((c.tc : Thread nD τ).loc main_arg1)) (m ((c.tc : Thread nD τ).loc main_arg2)) := by
  have h4 : W4 m ρ c (Proc.devRef .tc main_v3)
      = fun i => shapeCast S8x1500x5120 (W3 m ρ c (Proc.devRef .tc main_v2)) Facts₀.shapeCasts_S12000x5120_S8x1500x5120 i := by
    show StableHlo.after hostOps2 (W3 m ρ c) (Proc.devRef .tc main_v3) = _
    after_results
    rfl
  have h3 : W3 m ρ c (Proc.devRef .tc main_v2)
      = Cert.Quant.lin (Cert.Quant.quant (V2 m ρ c main_v1)) (V2 m ρ c main_v0_0) (V2 m ρ c main_arg2) :=
    (W3_arr m ρ c 3).trans (Region1.final3 (V2 m ρ) hb3 c)
  refine h4.trans ?_
  rw [h3, x_entry m ρ c, wq_entry m ρ hb1 c, bias_entry m ρ c]
  funext i
  have hi0 : (i 0).val < 8 := (i 0).isLt
  have hi1 : (i 1).val < 1500 := (i 1).isLt
  refine (shapeCast_apply _ _ i (ix2 (⟨1500 * (i 0).val + (i 1).val, by omega⟩ : Fin 12000) (⟨(i 2).val, (i 2).isLt⟩ : Fin 5120)) ?_).trans rfl
  rw [Shape.rowMajor_val_three, Shape.rowMajor_val_two]
  show (1500 * (i 0).val + (i 1).val) * 5120 + (i 2).val = ((i 0).val * 1500 + (i 1).val) * 5120 + (i 2).val
  omega

end Cert.KernelIdeal.KernelValue

end
-- ==== Proof.RefRun.lean ====
/-
  The reference program's run, read back.

  The reference is a straight line of 80 host operations (printed as two windows of 60 and 20).  Written as a list,
  the program is the sequential composition of the list (window by window, joined by the concatenation law of such
  compositions); it scopes no buffer and no semaphore, and each operation touches TensorCore buffers only.  Hence every
  weakly fair execution from a memory with zero counters terminates, and each TensorCore buffer ends at the fold of the
  operations' results over the launch contents.
-/
import proofs.«125756_j635655160006_1_alg».proof.Proof.Gen.ReferenceIdeal
import Idealize.ShloMosaic.Lib.StableHlo.Run

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The first window's 60 operations, in order. -/
abbrev ops_part0 : List (HloOp τ sig (Elt F)) :=
  [ nullary main_cst (fun i => FloatOps.ofBits .f32 (lit0 (S7.rowMajor i))),
    nullary main_cst_0 (fun i => FloatOps.ofBits .f32 (lit1 (S8.rowMajor i))),
    reshape main_arg0 main_v0 rfl shapeCasts_S8x1500x1280_S8x1500x40x32,
    unary main_v0 main_v1 (Host.absf : (⟨S8x1500x40x32, .f32⟩ : BufTy).Contents (Elt F) → (⟨S8x1500x40x32, .f32⟩ : BufTy).Contents (Elt F)),
    nullary main_cst_1 (constant S_ .f32 0xFF800000#32),
    binary main_v1 main_cst_1 main_v2 ((fun x v => Host.reduce FloatOps.maximumf x v reducesTo_S8x1500x40x32_S8x1500x40_d3 h_S_) : (⟨S8x1500x40x32, .f32⟩ : BufTy).Contents (Elt F) → (⟨S_, .f32⟩ : BufTy).Contents (Elt F) → (⟨S8x1500x40, .f32⟩ : BufTy).Contents (Elt F)),
    unary main_v2 main_v3 (broadcastInDim S8x1500x40x1 ![0, 1, 2] bcast_S8x1500x40_S8x1500x40x1_0_1_2 : (⟨S8x1500x40, .f32⟩ : BufTy).Contents (Elt F) → (⟨S8x1500x40x1, .f32⟩ : BufTy).Contents (Elt F)),
    nullary main_cst_2 (constant S_ .f32 0x40C00000#32),
    unary main_cst_2 main_v4 (broadcastInDim S8x1500x40x1 ![] bcast_S_S8x1500x40x1 : (⟨S_, .f32⟩ : BufTy).Contents (Elt F) → (⟨S8x1500x40x1, .f32⟩ : BufTy).Contents (Elt F)),
    binary main_v3 main_v4 main_v5 (Host.divf : (⟨S8x1500x40x1, .f32⟩ : BufTy).Contents (Elt F) → (⟨S8x1500x40x1, .f32⟩ : BufTy).Contents (Elt F) → (⟨S8x1500x40x1, .f32⟩ : BufTy).Contents (Elt F)),
    nullary main_cst_3 (constant S_ .f32 0x2B8CBCCC#32),
    unary main_cst_3 main_v6 (broadcastInDim S8x1500x40x1 ![] bcast_S_S8x1500x40x1 : (⟨S_, .f32⟩ : BufTy).Contents (Elt F) → (⟨S8x1500x40x1, .f32⟩ : BufTy).Contents (Elt F)),
    binary main_v5 main_v6 main_v7 (maximumf : (⟨S8x1500x40x1, .f32⟩ : BufTy).Contents (Elt F) → (⟨S8x1500x40x1, .f32⟩ : BufTy).Contents (Elt F) → (⟨S8x1500x40x1, .f32⟩ : BufTy).Contents (Elt F)),
    unary main_v7 main_v8 (broadcastInDim S8x1500x40x32 ![0, 1, 2, 3] bcast_S8x1500x40x1_S8x1500x40x32_0_1_2_3 : (⟨S8x1500x40x1, .f32⟩ : BufTy).Contents (Elt F) → (⟨S8x1500x40x32, .f32⟩ : BufTy).Contents (Elt F)),
    binary main_v0 main_v8 main_v9 (Host.divf : (⟨S8x1500x40x32, .f32⟩ : BufTy).Contents (Elt F) → (⟨S8x1500x40x32, .f32⟩ : BufTy).Contents (Elt F) → (⟨S8x1500x40x32, .f32⟩ : BufTy).Contents (Elt F)),
    unary main_v9 main_v10 (Host.absf : (⟨S8x1500x40x32, .f32⟩ : BufTy).Contents (Elt F) → (⟨S8x1500x40x32, .f32⟩ : BufTy).Contents (Elt F)),
    unary main_v10 main_v11 (broadcastInDim S8x1500x40x32x1 ![0, 1, 2, 3] bcast_S8x1500x40x32_S8x1500x40x32x1_0_1_2_3 : (⟨S8x1500x40x32, .f32⟩ : BufTy).Contents (Elt F) → (⟨S8x1500x40x32x1, .f32⟩ : BufTy).Contents (Elt F)),
    unary main_cst main_v12 (broadcastInDim S1x1x1x1x7 ![4] bcast_S7_S1x1x1x1x7_4 : (⟨S7, .f32⟩ : BufTy).Contents (Elt F) → (⟨S1x1x1x1x7, .f32⟩ : BufTy).Contents (Elt F)),
    unary main_v11 main_v13 (broadcastInDim S8x1500x40x32x7 ![0, 1, 2, 3, 4] bcast_S8x1500x40x32x1_S8x1500x40x32x7_0_1_2_3_4 : (⟨S8x1500x40x32x1, .f32⟩ : BufTy).Contents (Elt F) → (⟨S8x1500x40x32x7, .f32⟩ : BufTy).Contents (Elt F)),
    unary main_v12 main_v14 (broadcastInDim S8x1500x40x32x7 ![0, 1, 2, 3, 4] bcast_S1x1x1x1x7_S8x1500x40x32x7_0_1_2_3_4 : (⟨S1x1x1x1x7, .f32⟩ : BufTy).Contents (Elt F) → (⟨S8x1500x40x32x7, .f32⟩ : BufTy).Contents (Elt F)),
    binary main_v13 main_v14 main_v15 (cmpf .ogt : (⟨S8x1500x40x32x7, .f32⟩ : BufTy).Contents (Elt F) → (⟨S8x1500x40x32x7, .f32⟩ : BufTy).Contents (Elt F) → (⟨S8x1500x40x32x7, .i1⟩ : BufTy).Contents (Elt F)),
    unary main_v15 main_v16 ((extui 32 · natLt_1_32) : (⟨S8x1500x40x32x7, .i1⟩ : BufTy).Contents (Elt F) → (⟨S8x1500x40x32x7, .i32⟩ : BufTy).Contents (Elt F)),
    nullary main_c (constantI S_ 32 0#32),
    binary main_v16 main_c main_v17 ((fun x v => Host.reduce IntOp.addi x v reducesTo_S8x1500x40x32x7_S8x1500x40x32_d4 h_S_) : (⟨S8x1500x40x32x7, .i32⟩ : BufTy).Contents (Elt F) → (⟨S_, .i32⟩ : BufTy).Contents (Elt F) → (⟨S8x1500x40x32, .i32⟩ : BufTy).Contents (Elt F)),
    unary main_v9 main_v18 (Host.sign : (⟨S8x1500x40x32, .f32⟩ : BufTy).Contents (Elt F) → (⟨S8x1500x40x32, .f32⟩ : BufTy).Contents (Elt F)),
    nullary main_c_4 (constantI S_ 32 0#32),
    unary main_c_4 main_v19 (broadcastInDim S8x1500x40x32 ![] bcast_S_S8x1500x40x32 : (⟨S_, .i32⟩ : BufTy).Contents (Elt F) → (⟨S8x1500x40x32, .i32⟩ : BufTy).Contents (Elt F)),
    binary main_v17 main_v19 main_v20 (cmpi .slt : (⟨S8x1500x40x32, .i32⟩ : BufTy).Contents (Elt F) → (⟨S8x1500x40x32, .i32⟩ : BufTy).Contents (Elt F) → (⟨S8x1500x40x32, .i1⟩ : BufTy).Contents (Elt F)),
    nullary main_c_5 (constantI S_ 32 8#32),
    unary main_c_5 main_v21 (broadcastInDim S8x1500x40x32 ![] bcast_S_S8x1500x40x32 : (⟨S_, .i32⟩ : BufTy).Contents (Elt F) → (⟨S8x1500x40x32, .i32⟩ : BufTy).Contents (Elt F)),
    binary main_v17 main_v21 main_v22 (addi : (⟨S8x1500x40x32, .i32⟩ : BufTy).Contents (Elt F) → (⟨S8x1500x40x32, .i32⟩ : BufTy).Contents (Elt F) → (⟨S8x1500x40x32, .i32⟩ : BufTy).Contents (Elt F)),
    ternary main_v20 main_v22 main_v17 main_v23 (select : (⟨S8x1500x40x32, .i1⟩ : BufTy).Contents (Elt F) → (⟨S8x1500x40x32, .i32⟩ : BufTy).Contents (Elt F) → (⟨S8x1500x40x32, .i32⟩ : BufTy).Contents (Elt F) → (⟨S8x1500x40x32, .i32⟩ : BufTy).Contents (Elt F)),
    unary main_v23 main_v24 (broadcastInDim S8x1500x40x32x1 ![0, 1, 2, 3] bcast_S8x1500x40x32_S8x1500x40x32x1_0_1_2_3 : (⟨S8x1500x40x32, .i32⟩ : BufTy).Contents (Elt F) → (⟨S8x1500x40x32x1, .i32⟩ : BufTy).Contents (Elt F)),
    binary main_cst_0 main_v24 main_v25 ((fun x i => Host.gather gather_S8_S8x1500x40x32x1_S8x1500x40x32_n_0_n_n_0_4_1 x i) : (⟨S8, .f32⟩ : BufTy).Contents (Elt F) → (⟨S8x1500x40x32x1, .i32⟩ : BufTy).Contents (Elt F) → (⟨S8x1500x40x32, .f32⟩ : BufTy).Contents (Elt F)),
    binary main_v18 main_v25 main_v26 (mulf : (⟨S8x1500x40x32, .f32⟩ : BufTy).Contents (Elt F) → (⟨S8x1500x40x32, .f32⟩ : BufTy).Contents (Elt F) → (⟨S8x1500x40x32, .f32⟩ : BufTy).Contents (Elt F)),
    unary main_v7 main_v27 (broadcastInDim S8x1500x40x32 ![0, 1, 2, 3] bcast_S8x1500x40x1_S8x1500x40x32_0_1_2_3 : (⟨S8x1500x40x1, .f32⟩ : BufTy).Contents (Elt F) → (⟨S8x1500x40x32, .f32⟩ : BufTy).Contents (Elt F)),
    binary main_v26 main_v27 main_v28 (mulf : (⟨S8x1500x40x32, .f32⟩ : BufTy).Contents (Elt F) → (⟨S8x1500x40x32, .f32⟩ : BufTy).Contents (Elt F) → (⟨S8x1500x40x32, .f32⟩ : BufTy).Contents (Elt F)),
    reshape main_v28 main_v29 rfl shapeCasts_S8x1500x40x32_S8x1500x1280,
    reshape main_v7 main_v30 rfl shapeCasts_S8x1500x40x1_S8x1500x40,
    reshape main_arg1 main_v31 rfl shapeCasts_S5120x1280_S5120x40x32,
    unary main_v31 main_v32 (Host.absf : (⟨S5120x40x32, .f32⟩ : BufTy).Contents (Elt F) → (⟨S5120x40x32, .f32⟩ : BufTy).Contents (Elt F)),
    nullary main_cst_6 (constant S_ .f32 0xFF800000#32),
    binary main_v32 main_cst_6 main_v33 ((fun x v => Host.reduce FloatOps.maximumf x v reducesTo_S5120x40x32_S5120x40_d2 h_S_) : (⟨S5120x40x32, .f32⟩ : BufTy).Contents (Elt F) → (⟨S_, .f32⟩ : BufTy).Contents (Elt F) → (⟨S5120x40, .f32⟩ : BufTy).Contents (Elt F)),
    unary main_v33 main_v34 (broadcastInDim S5120x40x1 ![0, 1] bcast_S5120x40_S5120x40x1_0_1 : (⟨S5120x40, .f32⟩ : BufTy).Contents (Elt F) → (⟨S5120x40x1, .f32⟩ : BufTy).Contents (Elt F)),
    nullary main_cst_7 (constant S_ .f32 0x40C00000#32),
    unary main_cst_7 main_v35 (broadcastInDim S5120x40x1 ![] bcast_S_S5120x40x1 : (⟨S_, .f32⟩ : BufTy).Contents (Elt F) → (⟨S5120x40x1, .f32⟩ : BufTy).Contents (Elt F)),
    binary main_v34 main_v35 main_v36 (Host.divf : (⟨S5120x40x1, .f32⟩ : BufTy).Contents (Elt F) → (⟨S5120x40x1, .f32⟩ : BufTy).Contents (Elt F) → (⟨S5120x40x1, .f32⟩ : BufTy).Contents (Elt F)),
    nullary main_cst_8 (constant S_ .f32 0x2B8CBCCC#32),
    unary main_cst_8 main_v37 (broadcastInDim S5120x40x1 ![] bcast_S_S5120x40x1 : (⟨S_, .f32⟩ : BufTy).Contents (Elt F) → (⟨S5120x40x1, .f32⟩ : BufTy).Contents (Elt F)),
    binary main_v36 main_v37 main_v38 (maximumf : (⟨S5120x40x1, .f32⟩ : BufTy).Contents (Elt F) → (⟨S5120x40x1, .f32⟩ : BufTy).Contents (Elt F) → (⟨S5120x40x1, .f32⟩ : BufTy).Contents (Elt F)),
    unary main_v38 main_v39 (broadcastInDim S5120x40x32 ![0, 1, 2] bcast_S5120x40x1_S5120x40x32_0_1_2 : (⟨S5120x40x1, .f32⟩ : BufTy).Contents (Elt F) → (⟨S5120x40x32, .f32⟩ : BufTy).Contents (Elt F)),
    binary main_v31 main_v39 main_v40 (Host.divf : (⟨S5120x40x32, .f32⟩ : BufTy).Contents (Elt F) → (⟨S5120x40x32, .f32⟩ : BufTy).Contents (Elt F) → (⟨S5120x40x32, .f32⟩ : BufTy).Contents (Elt F)),
    unary main_v40 main_v41 (Host.absf : (⟨S5120x40x32, .f32⟩ : BufTy).Contents (Elt F) → (⟨S5120x40x32, .f32⟩ : BufTy).Contents (Elt F)),
    unary main_v41 main_v42 (broadcastInDim S5120x40x32x1 ![0, 1, 2] bcast_S5120x40x32_S5120x40x32x1_0_1_2 : (⟨S5120x40x32, .f32⟩ : BufTy).Contents (Elt F) → (⟨S5120x40x32x1, .f32⟩ : BufTy).Contents (Elt F)),
    unary main_cst main_v43 (broadcastInDim S1x1x1x7 ![3] bcast_S7_S1x1x1x7_3 : (⟨S7, .f32⟩ : BufTy).Contents (Elt F) → (⟨S1x1x1x7, .f32⟩ : BufTy).Contents (Elt F)),
    unary main_v42 main_v44 (broadcastInDim S5120x40x32x7 ![0, 1, 2, 3] bcast_S5120x40x32x1_S5120x40x32x7_0_1_2_3 : (⟨S5120x40x32x1, .f32⟩ : BufTy).Contents (Elt F) → (⟨S5120x40x32x7, .f32⟩ : BufTy).Contents (Elt F)),
    unary main_v43 main_v45 (broadcastInDim S5120x40x32x7 ![0, 1, 2, 3] bcast_S1x1x1x7_S5120x40x32x7_0_1_2_3 : (⟨S1x1x1x7, .f32⟩ : BufTy).Contents (Elt F) → (⟨S5120x40x32x7, .f32⟩ : BufTy).Contents (Elt F)),
    binary main_v44 main_v45 main_v46 (cmpf .ogt : (⟨S5120x40x32x7, .f32⟩ : BufTy).Contents (Elt F) → (⟨S5120x40x32x7, .f32⟩ : BufTy).Contents (Elt F) → (⟨S5120x40x32x7, .i1⟩ : BufTy).Contents (Elt F)),
    unary main_v46 main_v47 ((extui 32 · natLt_1_32) : (⟨S5120x40x32x7, .i1⟩ : BufTy).Contents (Elt F) → (⟨S5120x40x32x7, .i32⟩ : BufTy).Contents (Elt F)),
    nullary main_c_9 (constantI S_ 32 0#32) ]

/-- The second window's 20 operations, in order. -/
abbrev ops_part1 : List (HloOp τ sig (Elt F)) :=
  [ binary main_v47 main_c_9 main_v48 ((fun x v => Host.reduce IntOp.addi x v reducesTo_S5120x40x32x7_S5120x40x32_d3 h_S_) : (⟨S5120x40x32x7, .i32⟩ : BufTy).Contents (Elt F) → (⟨S_, .i32⟩ : BufTy).Contents (Elt F) → (⟨S5120x40x32, .i32⟩ : BufTy).Contents (Elt F)),
    unary main_v40 main_v49 (Host.sign : (⟨S5120x40x32, .f32⟩ : BufTy).Contents (Elt F) → (⟨S5120x40x32, .f32⟩ : BufTy).Contents (Elt F)),
    nullary main_c_10 (constantI S_ 32 0#32),
    unary main_c_10 main_v50 (broadcastInDim S5120x40x32 ![] bcast_S_S5120x40x32 : (⟨S_, .i32⟩ : BufTy).Contents (Elt F) → (⟨S5120x40x32, .i32⟩ : BufTy).Contents (Elt F)),
    binary main_v48 main_v50 main_v51 (cmpi .slt : (⟨S5120x40x32, .i32⟩ : BufTy).Contents (Elt F) → (⟨S5120x40x32, .i32⟩ : BufTy).Contents (Elt F) → (⟨S5120x40x32, .i1⟩ : BufTy).Contents (Elt F)),
    nullary main_c_11 (constantI S_ 32 8#32),
    unary main_c_11 main_v52 (broadcastInDim S5120x40x32 ![] bcast_S_S5120x40x32 : (⟨S_, .i32⟩ : BufTy).Contents (Elt F) → (⟨S5120x40x32, .i32⟩ : BufTy).Contents (Elt F)),
    binary main_v48 main_v52 main_v53 (addi : (⟨S5120x40x32, .i32⟩ : BufTy).Contents (Elt F) → (⟨S5120x40x32, .i32⟩ : BufTy).Contents (Elt F) → (⟨S5120x40x32, .i32⟩ : BufTy).Contents (Elt F)),
    ternary main_v51 main_v53 main_v48 main_v54 (select : (⟨S5120x40x32, .i1⟩ : BufTy).Contents (Elt F) → (⟨S5120x40x32, .i32⟩ : BufTy).Contents (Elt F) → (⟨S5120x40x32, .i32⟩ : BufTy).Contents (Elt F) → (⟨S5120x40x32, .i32⟩ : BufTy).Contents (Elt F)),
    unary main_v54 main_v55 (broadcastInDim S5120x40x32x1 ![0, 1, 2] bcast_S5120x40x32_S5120x40x32x1_0_1_2 : (⟨S5120x40x32, .i32⟩ : BufTy).Contents (Elt F) → (⟨S5120x40x32x1, .i32⟩ : BufTy).Contents (Elt F)),
    binary main_cst_0 main_v55 main_v56 ((fun x i => Host.gather gather_S8_S5120x40x32x1_S5120x40x32_n_0_n_n_0_3_1 x i) : (⟨S8, .f32⟩ : BufTy).Contents (Elt F) → (⟨S5120x40x32x1, .i32⟩ : BufTy).Contents (Elt F) → (⟨S5120x40x32, .f32⟩ : BufTy).Contents (Elt F)),
    binary main_v49 main_v56 main_v57 (mulf : (⟨S5120x40x32, .f32⟩ : BufTy).Contents (Elt F) → (⟨S5120x40x32, .f32⟩ : BufTy).Contents (Elt F) → (⟨S5120x40x32, .f32⟩ : BufTy).Contents (Elt F)),
    unary main_v38 main_v58 (broadcastInDim S5120x40x32 ![0, 1, 2] bcast_S5120x40x1_S5120x40x32_0_1_2 : (⟨S5120x40x1, .f32⟩ : BufTy).Contents (Elt F) → (⟨S5120x40x32, .f32⟩ : BufTy).Contents (Elt F)),
    binary main_v57 main_v58 main_v59 (mulf : (⟨S5120x40x32, .f32⟩ : BufTy).Contents (Elt F) → (⟨S5120x40x32, .f32⟩ : BufTy).Contents (Elt F) → (⟨S5120x40x32, .f32⟩ : BufTy).Contents (Elt F)),
    reshape main_v59 main_v60 rfl shapeCasts_S5120x40x32_S5120x1280,
    reshape main_v38 main_v61 rfl shapeCasts_S5120x40x1_S5120x40,
    binary main_v29 main_v60 main_v62 ((fun l r => Host.dotGeneral dot_S8x1500x1280_S5120x1280_S8x1500x5120_2_1_01_0_n_n none l r) : (⟨S8x1500x1280, .f32⟩ : BufTy).Contents (Elt F) → (⟨S5120x1280, .f32⟩ : BufTy).Contents (Elt F) → (⟨S8x1500x5120, .f32⟩ : BufTy).Contents (Elt F)),
    unary main_arg2 main_v63 (broadcastInDim S1x1x5120 ![2] bcast_S5120_S1x1x5120_2 : (⟨S5120, .f32⟩ : BufTy).Contents (Elt F) → (⟨S1x1x5120, .f32⟩ : BufTy).Contents (Elt F)),
    unary main_v63 main_v64 (broadcastInDim S8x1500x5120 ![0, 1, 2] bcast_S1x1x5120_S8x1500x5120_0_1_2 : (⟨S1x1x5120, .f32⟩ : BufTy).Contents (Elt F) → (⟨S8x1500x5120, .f32⟩ : BufTy).Contents (Elt F)),
    binary main_v62 main_v64 main_v65 (addf : (⟨S8x1500x5120, .f32⟩ : BufTy).Contents (Elt F) → (⟨S8x1500x5120, .f32⟩ : BufTy).Contents (Elt F) → (⟨S8x1500x5120, .f32⟩ : BufTy).Contents (Elt F)) ]

/-- All 80 operations, in order. -/
abbrev ops : List (HloOp τ sig (Elt F)) := ops_part0 ++ ops_part1

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨nullary_bufs_sub .., nullary_bufs_sub .., reshape_bufs_sub .., unary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., unary_bufs_sub .., unary_bufs_sub .., unary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., reshape_bufs_sub .., reshape_bufs_sub .., reshape_bufs_sub .., unary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., unary_bufs_sub .., unary_bufs_sub .., unary_bufs_sub .., binary_bufs_sub .., unary_bufs_sub .., nullary_bufs_sub ..⟩
set_option maxRecDepth 8192 in
theorem ops_part1_sub : (ops_part1 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., reshape_bufs_sub .., reshape_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

/-- No operation of the line leaves a result undetermined. -/
theorem ops_fresh : ∀ op ∈ (ops : List (HloOp τ sig (Elt F))), op.fresh = ∅ := by
  intro op h
  simp only [ops, List.mem_append] at h
  rcases h with h | h
  · (repeat (cases h with | head => rfl | tail _ h => ?_)); exact nomatch h
  · (repeat (cases h with | head => rfl | tail _ h => ?_)); exact nomatch h

/-- On every device, from any memory with zero counters: every weakly fair execution of the reference terminates with
    every TensorCore buffer at the fold of the 80 operations' results over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefTerms.lean ====
/-
  The reference program's two results as pure terms of its three argument arrays.

  Each definition below is one operation of the reference, in program order, applied to the terms of its operands:
  the array the operation leaves in its result buffer, as a function of the argument arrays it depends on.  The
  functions are the printed ones, read on the extended reals.  `refOut` is the array left in the first result
  (the linear layer), `refScale` the one left in the second (the weights' group scales).
-/
import proofs.«125756_j635655160006_1_alg».proof.ReferenceIdeal
import Idealize.ShloMosaic.PureOps.Ideal

noncomputable section

namespace Cert.ReferenceIdeal.RefTerms

open Idealize.ShloMosaic Idealize.SL.Sem
open Cert.ReferenceIdeal Cert.ReferenceIdeal.Facts₀ Cert.ReferenceIdeal.Facts

variable [Cert.ReferenceIdeal.Facts]

/-- `%cst = stablehlo.constant dense<[2.500000e-01, 7.500000e-01, 1.250000e+00, 1.750000e+00, 2.500000e+00, 3.500000e+00, 5.000000e+00]> : tensor<7xf32>` -/
def cst : FVec Ideal S7 .f32 :=
  fun i => FloatOps.ofBits (F := Ideal) .f32 (lit0 (S7.rowMajor i))

/-- `%cst_0 = stablehlo.constant dense<[0.000000e+00, 5.000000e-01, 1.000000e+00, 1.500000e+00, 2.000000e+00, 3.000000e+00, 4.000000e+00, 6.000000e+00]> : tensor<8xf32>` -/
def cst_0 : FVec Ideal S8 .f32 :=
  fun i => FloatOps.ofBits (F := Ideal) .f32 (lit1 (S8.rowMajor i))

/-- `%0 = stablehlo.reshape %arg0 : (tensor<8x1500x1280xf32>) -> tensor<8x1500x40x32xf32>` -/
def v0 (x : FVec Ideal S8x1500x1280 .f32) : FVec Ideal S8x1500x40x32 .f32 :=
  shapeCast S8x1500x40x32 x shapeCasts_S8x1500x1280_S8x1500x40x32

/-- `%1 = stablehlo.abs %0 : tensor<8x1500x40x32xf32>` -/
def v1 (x : FVec Ideal S8x1500x1280 .f32) : FVec Ideal S8x1500x40x32 .f32 :=
  (Host.absf : FVec Ideal S8x1500x40x32 .f32 → FVec Ideal S8x1500x40x32 .f32) (v0 x)

/-- `%cst_1 = stablehlo.constant dense<0xFF800000> : tensor<f32>` -/
def cst_1 : FVec Ideal S_ .f32 :=
  constant (F := Ideal) S_ .f32 0xFF800000#32

/-- `%2 = stablehlo.reduce(%1 init: %cst_1) applies stablehlo.maximum across dimensions = [3] : (tensor<8x1500x40x32xf32>, tensor<f32>) -> tensor<8x1500x40xf32>` -/
def v2 (x : FVec Ideal S8x1500x1280 .f32) : FVec Ideal S8x1500x40 .f32 :=
  ((fun x v => Host.reduce FloatOps.maximumf x v reducesTo_S8x1500x40x32_S8x1500x40_d3 h_S_) : FVec Ideal S8x1500x40x32 .f32 → FVec Ideal S_ .f32 → FVec Ideal S8x1500x40 .f32) (v1 x) cst_1

/-- `%3 = stablehlo.broadcast_in_dim %2, dims = [0, 1, 2] : (tensor<8x1500x40xf32>) -> tensor<8x1500x40x1xf32>` -/
def v3 (x : FVec Ideal S8x1500x1280 .f32) : FVec Ideal S8x1500x40x1 .f32 :=
  (broadcastInDim S8x1500x40x1 ![0, 1, 2] bcast_S8x1500x40_S8x1500x40x1_0_1_2 : FVec Ideal S8x1500x40 .f32 → FVec Ideal S8x1500x40x1 .f32) (v2 x)

/-- `%cst_2 = stablehlo.constant dense<6.000000e+00> : tensor<f32>` -/
def cst_2 : FVec Ideal S_ .f32 :=
  constant (F := Ideal) S_ .f32 0x40C00000#32

/-- `%4 = stablehlo.broadcast_in_dim %cst_2, dims = [] : (tensor<f32>) -> tensor<8x1500x40x1xf32>` -/
def v4 : FVec Ideal S8x1500x40x1 .f32 :=
  (broadcastInDim S8x1500x40x1 ![] bcast_S_S8x1500x40x1 : FVec Ideal S_ .f32 → FVec Ideal S8x1500x40x1 .f32) cst_2

/-- `%5 = stablehlo.divide %3, %4 : tensor<8x1500x40x1xf32>` -/
def v5 (x : FVec Ideal S8x1500x1280 .f32) : FVec Ideal S8x1500x40x1 .f32 :=
  (Host.divf : FVec Ideal S8x1500x40x1 .f32 → FVec Ideal S8x1500x40x1 .f32 → FVec Ideal S8x1500x40x1 .f32) (v3 x) v4

/-- `%cst_3 = stablehlo.constant dense<9.99999996E-13> : tensor<f32>` -/
def cst_3 : FVec Ideal S_ .f32 :=
  constant (F := Ideal) S_ .f32 0x2B8CBCCC#32

/-- `%6 = stablehlo.broadcast_in_dim %cst_3, dims = [] : (tensor<f32>) -> tensor<8x1500x40x1xf32>` -/
def v6 : FVec Ideal S8x1500x40x1 .f32 :=
  (broadcastInDim S8x1500x40x1 ![] bcast_S_S8x1500x40x1 : FVec Ideal S_ .f32 → FVec Ideal S8x1500x40x1 .f32) cst_3

/-- `%7 = stablehlo.maximum %5, %6 : tensor<8x1500x40x1xf32>` -/
def v7 (x : FVec Ideal S8x1500x1280 .f32) : FVec Ideal S8x1500x40x1 .f32 :=
  (maximumf : FVec Ideal S8x1500x40x1 .f32 → FVec Ideal S8x1500x40x1 .f32 → FVec Ideal S8x1500x40x1 .f32) (v5 x) v6

/-- `%8 = stablehlo.broadcast_in_dim %7, dims = [0, 1, 2, 3] : (tensor<8x1500x40x1xf32>) -> tensor<8x1500x40x32xf32>` -/
def v8 (x : FVec Ideal S8x1500x1280 .f32) : FVec Ideal S8x1500x40x32 .f32 :=
  (broadcastInDim S8x1500x40x32 ![0, 1, 2, 3] bcast_S8x1500x40x1_S8x1500x40x32_0_1_2_3 : FVec Ideal S8x1500x40x1 .f32 → FVec Ideal S8x1500x40x32 .f32) (v7 x)

/-- `%9 = stablehlo.divide %0, %8 : tensor<8x1500x40x32xf32>` -/
def v9 (x : FVec Ideal S8x1500x1280 .f32) : FVec Ideal S8x1500x40x32 .f32 :=
  (Host.divf : FVec Ideal S8x1500x40x32 .f32 → FVec Ideal S8x1500x40x32 .f32 → FVec Ideal S8x1500x40x32 .f32) (v0 x) (v8 x)

/-- `%10 = stablehlo.abs %9 : tensor<8x1500x40x32xf32>` -/
def v10 (x : FVec Ideal S8x1500x1280 .f32) : FVec Ideal S8x1500x40x32 .f32 :=
  (Host.absf : FVec Ideal S8x1500x40x32 .f32 → FVec Ideal S8x1500x40x32 .f32) (v9 x)

/-- `%11 = stablehlo.broadcast_in_dim %10, dims = [0, 1, 2, 3] : (tensor<8x1500x40x32xf32>) -> tensor<8x1500x40x32x1xf32>` -/
def v11 (x : FVec Ideal S8x1500x1280 .f32) : FVec Ideal S8x1500x40x32x1 .f32 :=
  (broadcastInDim S8x1500x40x32x1 ![0, 1, 2, 3] bcast_S8x1500x40x32_S8x1500x40x32x1_0_1_2_3 : FVec Ideal S8x1500x40x32 .f32 → FVec Ideal S8x1500x40x32x1 .f32) (v10 x)

/-- `%12 = stablehlo.broadcast_in_dim %cst, dims = [4] : (tensor<7xf32>) -> tensor<1x1x1x1x7xf32>` -/
def v12 : FVec Ideal S1x1x1x1x7 .f32 :=
  (broadcastInDim S1x1x1x1x7 ![4] bcast_S7_S1x1x1x1x7_4 : FVec Ideal S7 .f32 → FVec Ideal S1x1x1x1x7 .f32) cst

/-- `%13 = stablehlo.broadcast_in_dim %11, dims = [0, 1, 2, 3, 4] : (tensor<8x1500x40x32x1xf32>) -> tensor<8x1500x40x32x7xf32>` -/
def v13 (x : FVec Ideal S8x1500x1280 .f32) : FVec Ideal S8x1500x40x32x7 .f32 :=
  (broadcastInDim S8x1500x40x32x7 ![0, 1, 2, 3, 4] bcast_S8x1500x40x32x1_S8x1500x40x32x7_0_1_2_3_4 : FVec Ideal S8x1500x40x32x1 .f32 → FVec Ideal S8x1500x40x32x7 .f32) (v11 x)

/-- `%14 = stablehlo.broadcast_in_dim %12, dims = [0, 1, 2, 3, 4] : (tensor<1x1x1x1x7xf32>) -> tensor<8x1500x40x32x7xf32>` -/
def v14 : FVec Ideal S8x1500x40x32x7 .f32 :=
  (broadcastInDim S8x1500x40x32x7 ![0, 1, 2, 3, 4] bcast_S1x1x1x1x7_S8x1500x40x32x7_0_1_2_3_4 : FVec Ideal S1x1x1x1x7 .f32 → FVec Ideal S8x1500x40x32x7 .f32) v12

/-- `%15 = stablehlo.compare GT, %13, %14, FLOAT : (tensor<8x1500x40x32x7xf32>, tensor<8x1500x40x32x7xf32>) -> tensor<8x1500x40x32x7xi1>` -/
def v15 (x : FVec Ideal S8x1500x1280 .f32) : IVec S8x1500x40x32x7 1 :=
  (cmpf .ogt : FVec Ideal S8x1500x40x32x7 .f32 → FVec Ideal S8x1500x40x32x7 .f32 → IVec S8x1500x40x32x7 1) (v13 x) v14

/-- `%16 = stablehlo.convert %15 : (tensor<8x1500x40x32x7xi1>) -> tensor<8x1500x40x32x7xi32>` -/
def v16 (x : FVec Ideal S8x1500x1280 .f32) : IVec S8x1500x40x32x7 32 :=
  ((extui 32 · natLt_1_32) : IVec S8x1500x40x32x7 1 → IVec S8x1500x40x32x7 32) (v15 x)

/-- `%c = stablehlo.constant dense<0> : tensor<i32>` -/
def c : IVec S_ 32 :=
  constantI S_ 32 0#32

/-- `%17 = stablehlo.reduce(%16 init: %c) applies stablehlo.add across dimensions = [4] : (tensor<8x1500x40x32x7xi32>, tensor<i32>) -> tensor<8x1500x40x32xi32>` -/
def v17 (x : FVec Ideal S8x1500x1280 .f32) : IVec S8x1500x40x32 32 :=
  ((fun x v => Host.reduce IntOp.addi x v reducesTo_S8x1500x40x32x7_S8x1500x40x32_d4 h_S_) : IVec S8x1500x40x32x7 32 → IVec S_ 32 → IVec S8x1500x40x32 32) (v16 x) c

/-- `%18 = stablehlo.sign %9 : tensor<8x1500x40x32xf32>` -/
def v18 (x : FVec Ideal S8x1500x1280 .f32) : FVec Ideal S8x1500x40x32 .f32 :=
  (Host.sign : FVec Ideal S8x1500x40x32 .f32 → FVec Ideal S8x1500x40x32 .f32) (v9 x)

/-- `%c_4 = stablehlo.constant dense<0> : tensor<i32>` -/
def c_4 : IVec S_ 32 :=
  constantI S_ 32 0#32

/-- `%19 = stablehlo.broadcast_in_dim %c_4, dims = [] : (tensor<i32>) -> tensor<8x1500x40x32xi32>` -/
def v19 : IVec S8x1500x40x32 32 :=
  (broadcastInDim S8x1500x40x32 ![] bcast_S_S8x1500x40x32 : IVec S_ 32 → IVec S8x1500x40x32 32) c_4

/-- `%20 = stablehlo.compare LT, %17, %19, SIGNED : (tensor<8x1500x40x32xi32>, tensor<8x1500x40x32xi32>) -> tensor<8x1500x40x32xi1>` -/
def v20 (x : FVec Ideal S8x1500x1280 .f32) : IVec S8x1500x40x32 1 :=
  (cmpi .slt : IVec S8x1500x40x32 32 → IVec S8x1500x40x32 32 → IVec S8x1500x40x32 1) (v17 x) v19

/-- `%c_5 = stablehlo.constant dense<8> : tensor<i32>` -/
def c_5 : IVec S_ 32 :=
  constantI S_ 32 8#32

/-- `%21 = stablehlo.broadcast_in_dim %c_5, dims = [] : (tensor<i32>) -> tensor<8x1500x40x32xi32>` -/
def v21 : IVec S8x1500x40x32 32 :=
  (broadcastInDim S8x1500x40x32 ![] bcast_S_S8x1500x40x32 : IVec S_ 32 → IVec S8x1500x40x32 32) c_5

/-- `%22 = stablehlo.add %17, %21 : tensor<8x1500x40x32xi32>` -/
def v22 (x : FVec Ideal S8x1500x1280 .f32) : IVec S8x1500x40x32 32 :=
  (addi : IVec S8x1500x40x32 32 → IVec S8x1500x40x32 32 → IVec S8x1500x40x32 32) (v17 x) v21

/-- `%23 = stablehlo.select %20, %22, %17 : tensor<8x1500x40x32xi1>, tensor<8x1500x40x32xi32>` -/
def v23 (x : FVec Ideal S8x1500x1280 .f32) : IVec S8x1500x40x32 32 :=
  (select : IVec S8x1500x40x32 1 → IVec S8x1500x40x32 32 → IVec S8x1500x40x32 32 → IVec S8x1500x40x32 32) (v20 x) (v22 x) (v17 x)

/-- `%24 = stablehlo.broadcast_in_dim %23, dims = [0, 1, 2, 3] : (tensor<8x1500x40x32xi32>) -> tensor<8x1500x40x32x1xi32>` -/
def v24 (x : FVec Ideal S8x1500x1280 .f32) : IVec S8x1500x40x32x1 32 :=
  (broadcastInDim S8x1500x40x32x1 ![0, 1, 2, 3] bcast_S8x1500x40x32_S8x1500x40x32x1_0_1_2_3 : IVec S8x1500x40x32 32 → IVec S8x1500x40x32x1 32) (v23 x)

/-- `%25 = "stablehlo.gather"(%cst_0, %24) <{dimension_numbers = #stablehlo.gather<collapsed_slice_dims = [0], start_index_map = [0], index_vector_dim = 4>, indices_are_sorted = false, slice_sizes = array<i64: 1>}> : (tensor<8xf32>, tensor<8x1500x40x32x1xi32>) -> tensor<8x1500x40x32xf32>` -/
def v25 (x : FVec Ideal S8x1500x1280 .f32) : FVec Ideal S8x1500x40x32 .f32 :=
  ((fun x i => Host.gather gather_S8_S8x1500x40x32x1_S8x1500x40x32_n_0_n_n_0_4_1 x i) : FVec Ideal S8 .f32 → IVec S8x1500x40x32x1 32 → FVec Ideal S8x1500x40x32 .f32) cst_0 (v24 x)

/-- `%26 = stablehlo.multiply %18, %25 : tensor<8x1500x40x32xf32>` -/
def v26 (x : FVec Ideal S8x1500x1280 .f32) : FVec Ideal S8x1500x40x32 .f32 :=
  (mulf : FVec Ideal S8x1500x40x32 .f32 → FVec Ideal S8x1500x40x32 .f32 → FVec Ideal S8x1500x40x32 .f32) (v18 x) (v25 x)

/-- `%27 = stablehlo.broadcast_in_dim %7, dims = [0, 1, 2, 3] : (tensor<8x1500x40x1xf32>) -> tensor<8x1500x40x32xf32>` -/
def v27 (x : FVec Ideal S8x1500x1280 .f32) : FVec Ideal S8x1500x40x32 .f32 :=
  (broadcastInDim S8x1500x40x32 ![0, 1, 2, 3] bcast_S8x1500x40x1_S8x1500x40x32_0_1_2_3 : FVec Ideal S8x1500x40x1 .f32 → FVec Ideal S8x1500x40x32 .f32) (v7 x)

/-- `%28 = stablehlo.multiply %26, %27 : tensor<8x1500x40x32xf32>` -/
def v28 (x : FVec Ideal S8x1500x1280 .f32) : FVec Ideal S8x1500x40x32 .f32 :=
  (mulf : FVec Ideal S8x1500x40x32 .f32 → FVec Ideal S8x1500x40x32 .f32 → FVec Ideal S8x1500x40x32 .f32) (v26 x) (v27 x)

/-- `%29 = stablehlo.reshape %28 : (tensor<8x1500x40x32xf32>) -> tensor<8x1500x1280xf32>` -/
def v29 (x : FVec Ideal S8x1500x1280 .f32) : FVec Ideal S8x1500x1280 .f32 :=
  shapeCast S8x1500x1280 (v28 x) shapeCasts_S8x1500x40x32_S8x1500x1280

/-- `%30 = stablehlo.reshape %7 : (tensor<8x1500x40x1xf32>) -> tensor<8x1500x40xf32>` -/
def v30 (x : FVec Ideal S8x1500x1280 .f32) : FVec Ideal S8x1500x40 .f32 :=
  shapeCast S8x1500x40 (v7 x) shapeCasts_S8x1500x40x1_S8x1500x40

/-- `%31 = stablehlo.reshape %arg1 : (tensor<5120x1280xf32>) -> tensor<5120x40x32xf32>` -/
def v31 (w : FVec Ideal S5120x1280 .f32) : FVec Ideal S5120x40x32 .f32 :=
  shapeCast S5120x40x32 w shapeCasts_S5120x1280_S5120x40x32

/-- `%32 = stablehlo.abs %31 : tensor<5120x40x32xf32>` -/
def v32 (w : FVec Ideal S5120x1280 .f32) : FVec Ideal S5120x40x32 .f32 :=
  (Host.absf : FVec Ideal S5120x40x32 .f32 → FVec Ideal S5120x40x32 .f32) (v31 w)

/-- `%cst_6 = stablehlo.constant dense<0xFF800000> : tensor<f32>` -/
def cst_6 : FVec Ideal S_ .f32 :=
  constant (F := Ideal) S_ .f32 0xFF800000#32

/-- `%33 = stablehlo.reduce(%32 init: %cst_6) applies stablehlo.maximum across dimensions = [2] : (tensor<5120x40x32xf32>, tensor<f32>) -> tensor<5120x40xf32>` -/
def v33 (w : FVec Ideal S5120x1280 .f32) : FVec Ideal S5120x40 .f32 :=
  ((fun x v => Host.reduce FloatOps.maximumf x v reducesTo_S5120x40x32_S5120x40_d2 h_S_) : FVec Ideal S5120x40x32 .f32 → FVec Ideal S_ .f32 → FVec Ideal S5120x40 .f32) (v32 w) cst_6

/-- `%34 = stablehlo.broadcast_in_dim %33, dims = [0, 1] : (tensor<5120x40xf32>) -> tensor<5120x40x1xf32>` -/
def v34 (w : FVec Ideal S5120x1280 .f32) : FVec Ideal S5120x40x1 .f32 :=
  (broadcastInDim S5120x40x1 ![0, 1] bcast_S5120x40_S5120x40x1_0_1 : FVec Ideal S5120x40 .f32 → FVec Ideal S5120x40x1 .f32) (v33 w)

/-- `%cst_7 = stablehlo.constant dense<6.000000e+00> : tensor<f32>` -/
def cst_7 : FVec Ideal S_ .f32 :=
  constant (F := Ideal) S_ .f32 0x40C00000#32

/-- `%35 = stablehlo.broadcast_in_dim %cst_7, dims = [] : (tensor<f32>) -> tensor<5120x40x1xf32>` -/
def v35 : FVec Ideal S5120x40x1 .f32 :=
  (broadcastInDim S5120x40x1 ![] bcast_S_S5120x40x1 : FVec Ideal S_ .f32 → FVec Ideal S5120x40x1 .f32) cst_7

/-- `%36 = stablehlo.divide %34, %35 : tensor<5120x40x1xf32>` -/
def v36 (w : FVec Ideal S5120x1280 .f32) : FVec Ideal S5120x40x1 .f32 :=
  (Host.divf : FVec Ideal S5120x40x1 .f32 → FVec Ideal S5120x40x1 .f32 → FVec Ideal S5120x40x1 .f32) (v34 w) v35

/-- `%cst_8 = stablehlo.constant dense<9.99999996E-13> : tensor<f32>` -/
def cst_8 : FVec Ideal S_ .f32 :=
  constant (F := Ideal) S_ .f32 0x2B8CBCCC#32

/-- `%37 = stablehlo.broadcast_in_dim %cst_8, dims = [] : (tensor<f32>) -> tensor<5120x40x1xf32>` -/
def v37 : FVec Ideal S5120x40x1 .f32 :=
  (broadcastInDim S5120x40x1 ![] bcast_S_S5120x40x1 : FVec Ideal S_ .f32 → FVec Ideal S5120x40x1 .f32) cst_8

/-- `%38 = stablehlo.maximum %36, %37 : tensor<5120x40x1xf32>` -/
def v38 (w : FVec Ideal S5120x1280 .f32) : FVec Ideal S5120x40x1 .f32 :=
  (maximumf : FVec Ideal S5120x40x1 .f32 → FVec Ideal S5120x40x1 .f32 → FVec Ideal S5120x40x1 .f32) (v36 w) v37

/-- `%39 = stablehlo.broadcast_in_dim %38, dims = [0, 1, 2] : (tensor<5120x40x1xf32>) -> tensor<5120x40x32xf32>` -/
def v39 (w : FVec Ideal S5120x1280 .f32) : FVec Ideal S5120x40x32 .f32 :=
  (broadcastInDim S5120x40x32 ![0, 1, 2] bcast_S5120x40x1_S5120x40x32_0_1_2 : FVec Ideal S5120x40x1 .f32 → FVec Ideal S5120x40x32 .f32) (v38 w)

/-- `%40 = stablehlo.divide %31, %39 : tensor<5120x40x32xf32>` -/
def v40 (w : FVec Ideal S5120x1280 .f32) : FVec Ideal S5120x40x32 .f32 :=
  (Host.divf : FVec Ideal S5120x40x32 .f32 → FVec Ideal S5120x40x32 .f32 → FVec Ideal S5120x40x32 .f32) (v31 w) (v39 w)

/-- `%41 = stablehlo.abs %40 : tensor<5120x40x32xf32>` -/
def v41 (w : FVec Ideal S5120x1280 .f32) : FVec Ideal S5120x40x32 .f32 :=
  (Host.absf : FVec Ideal S5120x40x32 .f32 → FVec Ideal S5120x40x32 .f32) (v40 w)

/-- `%42 = stablehlo.broadcast_in_dim %41, dims = [0, 1, 2] : (tensor<5120x40x32xf32>) -> tensor<5120x40x32x1xf32>` -/
def v42 (w : FVec Ideal S5120x1280 .f32) : FVec Ideal S5120x40x32x1 .f32 :=
  (broadcastInDim S5120x40x32x1 ![0, 1, 2] bcast_S5120x40x32_S5120x40x32x1_0_1_2 : FVec Ideal S5120x40x32 .f32 → FVec Ideal S5120x40x32x1 .f32) (v41 w)

/-- `%43 = stablehlo.broadcast_in_dim %cst, dims = [3] : (tensor<7xf32>) -> tensor<1x1x1x7xf32>` -/
def v43 : FVec Ideal S1x1x1x7 .f32 :=
  (broadcastInDim S1x1x1x7 ![3] bcast_S7_S1x1x1x7_3 : FVec Ideal S7 .f32 → FVec Ideal S1x1x1x7 .f32) cst

/-- `%44 = stablehlo.broadcast_in_dim %42, dims = [0, 1, 2, 3] : (tensor<5120x40x32x1xf32>) -> tensor<5120x40x32x7xf32>` -/
def v44 (w : FVec Ideal S5120x1280 .f32) : FVec Ideal S5120x40x32x7 .f32 :=
  (broadcastInDim S5120x40x32x7 ![0, 1, 2, 3] bcast_S5120x40x32x1_S5120x40x32x7_0_1_2_3 : FVec Ideal S5120x40x32x1 .f32 → FVec Ideal S5120x40x32x7 .f32) (v42 w)

/-- `%45 = stablehlo.broadcast_in_dim %43, dims = [0, 1, 2, 3] : (tensor<1x1x1x7xf32>) -> tensor<5120x40x32x7xf32>` -/
def v45 : FVec Ideal S5120x40x32x7 .f32 :=
  (broadcastInDim S5120x40x32x7 ![0, 1, 2, 3] bcast_S1x1x1x7_S5120x40x32x7_0_1_2_3 : FVec Ideal S1x1x1x7 .f32 → FVec Ideal S5120x40x32x7 .f32) v43

/-- `%46 = stablehlo.compare GT, %44, %45, FLOAT : (tensor<5120x40x32x7xf32>, tensor<5120x40x32x7xf32>) -> tensor<5120x40x32x7xi1>` -/
def v46 (w : FVec Ideal S5120x1280 .f32) : IVec S5120x40x32x7 1 :=
  (cmpf .ogt : FVec Ideal S5120x40x32x7 .f32 → FVec Ideal S5120x40x32x7 .f32 → IVec S5120x40x32x7 1) (v44 w) v45

/-- `%47 = stablehlo.convert %46 : (tensor<5120x40x32x7xi1>) -> tensor<5120x40x32x7xi32>` -/
def v47 (w : FVec Ideal S5120x1280 .f32) : IVec S5120x40x32x7 32 :=
  ((extui 32 · natLt_1_32) : IVec S5120x40x32x7 1 → IVec S5120x40x32x7 32) (v46 w)

/-- `%c_9 = stablehlo.constant dense<0> : tensor<i32>` -/
def c_9 : IVec S_ 32 :=
  constantI S_ 32 0#32

/-- `%48 = stablehlo.reduce(%47 init: %c_9) applies stablehlo.add across dimensions = [3] : (tensor<5120x40x32x7xi32>, tensor<i32>) -> tensor<5120x40x32xi32>` -/
def v48 (w : FVec Ideal S5120x1280 .f32) : IVec S5120x40x32 32 :=
  ((fun x v => Host.reduce IntOp.addi x v reducesTo_S5120x40x32x7_S5120x40x32_d3 h_S_) : IVec S5120x40x32x7 32 → IVec S_ 32 → IVec S5120x40x32 32) (v47 w) c_9

/-- `%49 = stablehlo.sign %40 : tensor<5120x40x32xf32>` -/
def v49 (w : FVec Ideal S5120x1280 .f32) : FVec Ideal S5120x40x32 .f32 :=
  (Host.sign : FVec Ideal S5120x40x32 .f32 → FVec Ideal S5120x40x32 .f32) (v40 w)

/-- `%c_10 = stablehlo.constant dense<0> : tensor<i32>` -/
def c_10 : IVec S_ 32 :=
  constantI S_ 32 0#32

/-- `%50 = stablehlo.broadcast_in_dim %c_10, dims = [] : (tensor<i32>) -> tensor<5120x40x32xi32>` -/
def v50 : IVec S5120x40x32 32 :=
  (broadcastInDim S5120x40x32 ![] bcast_S_S5120x40x32 : IVec S_ 32 → IVec S5120x40x32 32) c_10

/-- `%51 = stablehlo.compare LT, %48, %50, SIGNED : (tensor<5120x40x32xi32>, tensor<5120x40x32xi32>) -> tensor<5120x40x32xi1>` -/
def v51 (w : FVec Ideal S5120x1280 .f32) : IVec S5120x40x32 1 :=
  (cmpi .slt : IVec S5120x40x32 32 → IVec S5120x40x32 32 → IVec S5120x40x32 1) (v48 w) v50

/-- `%c_11 = stablehlo.constant dense<8> : tensor<i32>` -/
def c_11 : IVec S_ 32 :=
  constantI S_ 32 8#32

/-- `%52 = stablehlo.broadcast_in_dim %c_11, dims = [] : (tensor<i32>) -> tensor<5120x40x32xi32>` -/
def v52 : IVec S5120x40x32 32 :=
  (broadcastInDim S5120x40x32 ![] bcast_S_S5120x40x32 : IVec S_ 32 → IVec S5120x40x32 32) c_11

/-- `%53 = stablehlo.add %48, %52 : tensor<5120x40x32xi32>` -/
def v53 (w : FVec Ideal S5120x1280 .f32) : IVec S5120x40x32 32 :=
  (addi : IVec S5120x40x32 32 → IVec S5120x40x32 32 → IVec S5120x40x32 32) (v48 w) v52

/-- `%54 = stablehlo.select %51, %53, %48 : tensor<5120x40x32xi1>, tensor<5120x40x32xi32>` -/
def v54 (w : FVec Ideal S5120x1280 .f32) : IVec S5120x40x32 32 :=
  (select : IVec S5120x40x32 1 → IVec S5120x40x32 32 → IVec S5120x40x32 32 → IVec S5120x40x32 32) (v51 w) (v53 w) (v48 w)

/-- `%55 = stablehlo.broadcast_in_dim %54, dims = [0, 1, 2] : (tensor<5120x40x32xi32>) -> tensor<5120x40x32x1xi32>` -/
def v55 (w : FVec Ideal S5120x1280 .f32) : IVec S5120x40x32x1 32 :=
  (broadcastInDim S5120x40x32x1 ![0, 1, 2] bcast_S5120x40x32_S5120x40x32x1_0_1_2 : IVec S5120x40x32 32 → IVec S5120x40x32x1 32) (v54 w)

/-- `%56 = "stablehlo.gather"(%cst_0, %55) <{dimension_numbers = #stablehlo.gather<collapsed_slice_dims = [0], start_index_map = [0], index_vector_dim = 3>, indices_are_sorted = false, slice_sizes = array<i64: 1>}> : (tensor<8xf32>, tensor<5120x40x32x1xi32>) -> tensor<5120x40x32xf32>` -/
def v56 (w : FVec Ideal S5120x1280 .f32) : FVec Ideal S5120x40x32 .f32 :=
  ((fun x i => Host.gather gather_S8_S5120x40x32x1_S5120x40x32_n_0_n_n_0_3_1 x i) : FVec Ideal S8 .f32 → IVec S5120x40x32x1 32 → FVec Ideal S5120x40x32 .f32) cst_0 (v55 w)

/-- `%57 = stablehlo.multiply %49, %56 : tensor<5120x40x32xf32>` -/
def v57 (w : FVec Ideal S5120x1280 .f32) : FVec Ideal S5120x40x32 .f32 :=
  (mulf : FVec Ideal S5120x40x32 .f32 → FVec Ideal S5120x40x32 .f32 → FVec Ideal S5120x40x32 .f32) (v49 w) (v56 w)

/-- `%58 = stablehlo.broadcast_in_dim %38, dims = [0, 1, 2] : (tensor<5120x40x1xf32>) -> tensor<5120x40x32xf32>` -/
def v58 (w : FVec Ideal S5120x1280 .f32) : FVec Ideal S5120x40x32 .f32 :=
  (broadcastInDim S5120x40x32 ![0, 1, 2] bcast_S5120x40x1_S5120x40x32_0_1_2 : FVec Ideal S5120x40x1 .f32 → FVec Ideal S5120x40x32 .f32) (v38 w)

/-- `%59 = stablehlo.multiply %57, %58 : tensor<5120x40x32xf32>` -/
def v59 (w : FVec Ideal S5120x1280 .f32) : FVec Ideal S5120x40x32 .f32 :=
  (mulf : FVec Ideal S5120x40x32 .f32 → FVec Ideal S5120x40x32 .f32 → FVec Ideal S5120x40x32 .f32) (v57 w) (v58 w)

/-- `%60 = stablehlo.reshape %59 : (tensor<5120x40x32xf32>) -> tensor<5120x1280xf32>` -/
def v60 (w : FVec Ideal S5120x1280 .f32) : FVec Ideal S5120x1280 .f32 :=
  shapeCast S5120x1280 (v59 w) shapeCasts_S5120x40x32_S5120x1280

/-- `%61 = stablehlo.reshape %38 : (tensor<5120x40x1xf32>) -> tensor<5120x40xf32>` -/
def v61 (w : FVec Ideal S5120x1280 .f32) : FVec Ideal S5120x40 .f32 :=
  shapeCast S5120x40 (v38 w) shapeCasts_S5120x40x1_S5120x40

/-- `%62 = stablehlo.dot_general %29, %60, contracting_dims = [2] x [1], precision = [DEFAULT, DEFAULT] : (tensor<8x1500x1280xf32>, tensor<5120x1280xf32>) -> tensor<8x1500x5120xf32>` -/
def v62 (x : FVec Ideal S8x1500x1280 .f32) (w : FVec Ideal S5120x1280 .f32) : FVec Ideal S8x1500x5120 .f32 :=
  ((fun l r => Host.dotGeneral dot_S8x1500x1280_S5120x1280_S8x1500x5120_2_1_01_0_n_n none l r) : FVec Ideal S8x1500x1280 .f32 → FVec Ideal S5120x1280 .f32 → FVec Ideal S8x1500x5120 .f32) (v29 x) (v60 w)

/-- `%63 = stablehlo.broadcast_in_dim %arg2, dims = [2] : (tensor<5120xf32>) -> tensor<1x1x5120xf32>` -/
def v63 (b : FVec Ideal S5120 .f32) : FVec Ideal S1x1x5120 .f32 :=
  (broadcastInDim S1x1x5120 ![2] bcast_S5120_S1x1x5120_2 : FVec Ideal S5120 .f32 → FVec Ideal S1x1x5120 .f32) b

/-- `%64 = stablehlo.broadcast_in_dim %63, dims = [0, 1, 2] : (tensor<1x1x5120xf32>) -> tensor<8x1500x5120xf32>` -/
def v64 (b : FVec Ideal S5120 .f32) : FVec Ideal S8x1500x5120 .f32 :=
  (broadcastInDim S8x1500x5120 ![0, 1, 2] bcast_S1x1x5120_S8x1500x5120_0_1_2 : FVec Ideal S1x1x5120 .f32 → FVec Ideal S8x1500x5120 .f32) (v63 b)

/-- `%65 = stablehlo.add %62, %64 : tensor<8x1500x5120xf32>` -/
def v65 (x : FVec Ideal S8x1500x1280 .f32) (w : FVec Ideal S5120x1280 .f32) (b : FVec Ideal S5120 .f32) : FVec Ideal S8x1500x5120 .f32 :=
  (addf : FVec Ideal S8x1500x5120 .f32 → FVec Ideal S8x1500x5120 .f32 → FVec Ideal S8x1500x5120 .f32) (v62 x w) (v64 b)

/-- The array the program leaves in its first result: the linear layer of the quantized activations and weights. -/
def refOut (x : FVec Ideal S8x1500x1280 .f32) (w : FVec Ideal S5120x1280 .f32) (b : FVec Ideal S5120 .f32) :
    FVec Ideal S8x1500x5120 .f32 := v65 x w b

/-- The array the program leaves in its second result: the weights' group scales. -/
def refScale (w : FVec Ideal S5120x1280 .f32) : FVec Ideal S5120x40 .f32 := v61 w

end Cert.ReferenceIdeal.RefTerms

end
-- ==== Proof.RefRunVal.lean ====
/-
  The reference program's two results, read off its run.

  The fold of the 80 operations' results over the launch contents is read window by window: after the first 60
  operations the buffers the remaining 20 still read hold the terms of the program's operations 29, 38, 40, 47 and
  of its constants; after all 80 the two result buffers hold the composed terms of the argument arrays, and the
  argument buffers what they held.  Each reading is one pass that rewrites every operation's result at its own
  buffer to its function's value and at any other buffer to what was there.
-/
import proofs.«125756_j635655160006_1_alg».proof.Proof.RefRun
import proofs.«125756_j635655160006_1_alg».proof.Proof.RefTerms
import Idealize.ShloMosaic.Lib.Pipeline.Frame

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-- The buffers' contents after the first window, from contents `V0`. -/
def val1 (V0 : Valuation τ sig (Elt Ideal)) : Valuation τ sig (Elt Ideal) := after (ops_part0 (F := Ideal)) V0

/-- The buffers' contents after both windows, from contents `V0`. -/
def val2 (V0 : Valuation τ sig (Elt Ideal)) : Valuation τ sig (Elt Ideal) := after (ops_part1 (F := Ideal)) (val1 V0)

set_option maxRecDepth 8192 in
set_option maxHeartbeats 4000000 in
theorem val1_main_arg0 (V0 : Valuation τ sig (Elt Ideal)) : val1 V0 (no_index (Proc.devRef .tc main_arg0)) = V0 (Proc.devRef .tc main_arg0) := by
  unfold val1
  simp only [ops_part0]
  after_results_simp <;> rfl

set_option maxRecDepth 8192 in
set_option maxHeartbeats 4000000 in
theorem val1_main_arg1 (V0 : Valuation τ sig (Elt Ideal)) : val1 V0 (no_index (Proc.devRef .tc main_arg1)) = V0 (Proc.devRef .tc main_arg1) := by
  unfold val1
  simp only [ops_part0]
  after_results_simp <;> rfl

set_option maxRecDepth 8192 in
set_option maxHeartbeats 4000000 in
theorem val1_main_arg2 (V0 : Valuation τ sig (Elt Ideal)) : val1 V0 (no_index (Proc.devRef .tc main_arg2)) = V0 (Proc.devRef .tc main_arg2) := by
  unfold val1
  simp only [ops_part0]
  after_results_simp <;> rfl

set_option maxRecDepth 8192 in
set_option maxHeartbeats 4000000 in
theorem val1_main_cst_0 (V0 : Valuation τ sig (Elt Ideal)) : val1 V0 (no_index (Proc.devRef .tc main_cst_0)) = RefTerms.cst_0 := by
  unfold val1
  simp only [ops_part0]
  after_results_simp <;> rfl

set_option maxRecDepth 8192 in
set_option maxHeartbeats 4000000 in
theorem val1_main_c_9 (V0 : Valuation τ sig (Elt Ideal)) : val1 V0 (no_index (Proc.devRef .tc main_c_9)) = RefTerms.c_9 := by
  unfold val1
  simp only [ops_part0]
  after_results_simp <;> rfl

set_option maxRecDepth 8192 in
set_option maxHeartbeats 4000000 in
theorem val1_main_v38 (V0 : Valuation τ sig (Elt Ideal)) : val1 V0 (no_index (Proc.devRef .tc main_v38)) = RefTerms.v38 (V0 (Proc.devRef .tc main_arg1)) := by
  unfold val1
  simp only [ops_part0]
  after_results_simp <;> rfl

set_option maxRecDepth 8192 in
set_option maxHeartbeats 4000000 in
theorem val1_main_v40 (V0 : Valuation τ sig (Elt Ideal)) : val1 V0 (no_index (Proc.devRef .tc main_v40)) = RefTerms.v40 (V0 (Proc.devRef .tc main_arg1)) := by
  unfold val1
  simp only [ops_part0]
  after_results_simp <;> rfl

set_option maxRecDepth 8192 in
set_option maxHeartbeats 4000000 in
theorem val1_main_v47 (V0 : Valuation τ sig (Elt Ideal)) : val1 V0 (no_index (Proc.devRef .tc main_v47)) = RefTerms.v47 (V0 (Proc.devRef .tc main_arg1)) := by
  unfold val1
  simp only [ops_part0]
  after_results_simp <;> rfl

set_option maxRecDepth 8192 in
set_option maxHeartbeats 4000000 in
theorem val1_main_v29 (V0 : Valuation τ sig (Elt Ideal)) : val1 V0 (no_index (Proc.devRef .tc main_v29)) = RefTerms.v29 (V0 (Proc.devRef .tc main_arg0)) := by
  unfold val1
  simp only [ops_part0]
  after_results_simp <;> rfl

set_option maxRecDepth 8192 in
set_option maxHeartbeats 4000000 in
theorem val2_main_arg0 (V0 : Valuation τ sig (Elt Ideal)) : val2 V0 (no_index (Proc.devRef .tc main_arg0)) = V0 (Proc.devRef .tc main_arg0) := by
  unfold val2
  simp only [ops_part1]
  after_results_simp
  simp only [val1_main_v29, val1_main_v38, val1_main_v40, val1_main_v47, val1_main_c_9, val1_main_cst_0, val1_main_arg0, val1_main_arg1, val1_main_arg2] <;> rfl

set_option maxRecDepth 8192 in
set_option maxHeartbeats 4000000 in
theorem val2_main_arg1 (V0 : Valuation τ sig (Elt Ideal)) : val2 V0 (no_index (Proc.devRef .tc main_arg1)) = V0 (Proc.devRef .tc main_arg1) := by
  unfold val2
  simp only [ops_part1]
  after_results_simp
  simp only [val1_main_v29, val1_main_v38, val1_main_v40, val1_main_v47, val1_main_c_9, val1_main_cst_0, val1_main_arg0, val1_main_arg1, val1_main_arg2] <;> rfl

set_option maxRecDepth 8192 in
set_option maxHeartbeats 4000000 in
theorem val2_main_arg2 (V0 : Valuation τ sig (Elt Ideal)) : val2 V0 (no_index (Proc.devRef .tc main_arg2)) = V0 (Proc.devRef .tc main_arg2) := by
  unfold val2
  simp only [ops_part1]
  after_results_simp
  simp only [val1_main_v29, val1_main_v38, val1_main_v40, val1_main_v47, val1_main_c_9, val1_main_cst_0, val1_main_arg0, val1_main_arg1, val1_main_arg2] <;> rfl

set_option maxRecDepth 8192 in
set_option maxHeartbeats 4000000 in
theorem val2_main_v61 (V0 : Valuation τ sig (Elt Ideal)) : val2 V0 (no_index (Proc.devRef .tc main_v61)) = RefTerms.v61 (V0 (Proc.devRef .tc main_arg1)) := by
  unfold val2
  simp only [ops_part1]
  after_results_simp
  simp only [val1_main_v29, val1_main_v38, val1_main_v40, val1_main_v47, val1_main_c_9, val1_main_cst_0, val1_main_arg0, val1_main_arg1, val1_main_arg2] <;> rfl

set_option maxRecDepth 8192 in
set_option maxHeartbeats 4000000 in
theorem val2_main_v65 (V0 : Valuation τ sig (Elt Ideal)) : val2 V0 (no_index (Proc.devRef .tc main_v65)) = RefTerms.v65 (V0 (Proc.devRef .tc main_arg0)) (V0 (Proc.devRef .tc main_arg1)) (V0 (Proc.devRef .tc main_arg2)) := by
  unfold val2
  simp only [ops_part1]
  after_results_simp
  simp only [val1_main_v29, val1_main_v38, val1_main_v40, val1_main_v47, val1_main_c_9, val1_main_cst_0, val1_main_arg0, val1_main_arg1, val1_main_arg2] <;> rfl

/-- Both windows in turn are the whole line. -/
theorem after_ops (V0 : Valuation τ sig (Elt Ideal)) : after (ops (F := Ideal)) V0 = val2 V0 := by
  simp only [ops, after_append]
  rfl

/-- On every device, from any memory with zero counters: every weakly fair execution of the reference terminates with
    its two result buffers at the composed terms of the argument arrays' launch contents, and the argument buffers
    unchanged. -/
theorem run_terms (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v65) = RefTerms.refOut (m ((c.tc : Thread nD τ).loc main_arg0)) (m ((c.tc : Thread nD τ).loc main_arg1)) (m ((c.tc : Thread nD τ).loc main_arg2))
      ∧ r.2.mem ((c.tc : Thread nD τ).loc main_v61) = RefTerms.refScale (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v65).trans (by simp only [after_ops]; exact val2_main_v65 (launchContents m c)),
      (h c main_v61).trans (by simp only [after_ops]; exact val2_main_v61 (launchContents m c)),
      (h c main_arg0).trans (by simp only [after_ops]; exact val2_main_arg0 (launchContents m c)),
      (h c main_arg1).trans (by simp only [after_ops]; exact val2_main_arg1 (launchContents m c)),
      (h c main_arg2).trans (by simp only [after_ops]; exact val2_main_arg2 (launchContents m c))⟩)
    (run_raw m ρ)

end Cert.ReferenceIdeal.RefRun

end
-- ==== Proof.RefProduct.lean ====
/-
  The reference's last four operations read at an index: the product contracts the feature axis of the quantized
  activations and of the quantized weights, so entry (p, q, o) is the sum over the 1280 features k of
  activation (p, q, k) times weight (o, k); the bias is broadcast along the two leading axes and added.
-/
import proofs.«125756_j635655160006_1_alg».proof.Proof.RefTerms
import Idealize.ShloMosaic.PureOps.Ideal.Laws
import Idealize.ShloMosaic.Lib.ValueIdx
import Idealize.ShloMosaic.Lib.Pipeline.Value

noncomputable section

open scoped BigOperators

namespace Cert.ReferenceIdeal.RefValue

open Idealize.ShloMosaic Idealize.ShloMosaic.ValueIdx
open Cert.ReferenceIdeal Cert.ReferenceIdeal.Facts₀ Cert.ReferenceIdeal.Facts Cert.ReferenceIdeal.RefTerms

variable [Cert.ReferenceIdeal.Facts]

/-- The product's dimension numbers: features against features, no batch axis. -/
abbrev D : DotDims S8x1500x1280 S5120x1280 S8x1500x5120 := dot_S8x1500x1280_S5120x1280_S8x1500x5120_2_1_01_0_n_n

/-- The product at (p, q, o): the sum over the features. -/
theorem dot_apply (A : FVec Ideal S8x1500x1280 .f32) (B : FVec Ideal S5120x1280 .f32) (p : Fin 8) (q : Fin 1500) (o : Fin 5120) :
    Host.dotGeneral D none A B (ix3 p q o) = ∑ k : Fin 1280, A (ix3 p q k) * B (ix2 o k) := by
  show FloatOps.dotGeneral D none _ A B (ix3 p q o) = _
  rw [Ideal.dotGeneral_apply, ← Equiv.sum_comp (contrEquiv1 D 1280 rfl rfl).symm]
  refine Finset.sum_congr rfl fun c _ => ?_
  have c3 := contrEquiv1_symm_val D 1280 rfl rfl c
  have l3 : D.lhsIdx (ix3 p q o) ((contrEquiv1 D 1280 rfl rfl).symm c) = ix3 p q c := by
    funext ax; apply Fin.ext
    match ax with
    | ⟨0, _⟩ => simp [DotDims.lhsIdx, D, dot_S8x1500x1280_S5120x1280_S8x1500x5120_2_1_01_0_n_n]; rfl
    | ⟨1, _⟩ => simp [DotDims.lhsIdx, D, dot_S8x1500x1280_S5120x1280_S8x1500x5120_2_1_01_0_n_n]; rfl
    | ⟨2, _⟩ => simp [DotDims.lhsIdx, D, dot_S8x1500x1280_S5120x1280_S8x1500x5120_2_1_01_0_n_n]; exact c3
  have r3 : D.rhsIdx (ix3 p q o) ((contrEquiv1 D 1280 rfl rfl).symm c) = ix2 o c := by
    funext ax; apply Fin.ext
    match ax with
    | ⟨0, _⟩ => simp [DotDims.rhsIdx, D, dot_S8x1500x1280_S5120x1280_S8x1500x5120_2_1_01_0_n_n]; rfl
    | ⟨1, _⟩ => simp [DotDims.rhsIdx, D, dot_S8x1500x1280_S5120x1280_S8x1500x5120_2_1_01_0_n_n]; exact c3
  rw [l3, r3]

/-- The broadcast bias at (p, q, o) is the bias at o. -/
theorem bias_apply (b : FVec Ideal S5120 .f32) (p : Fin 8) (q : Fin 1500) (o : Fin 5120) : v64 b (ix3 p q o) = b (ix1 o) := by
  unfold v64 v63
  refine (broadcastInDim_apply _ _ _ (ix3 p q o) (ix3 (0 : Fin 1) (0 : Fin 1) o) ?_).trans ?_
  · intro a
    match a with
    | ⟨0, _⟩ => rfl
    | ⟨1, _⟩ => rfl
    | ⟨2, _⟩ => rfl
  · refine broadcastInDim_apply _ _ _ (ix3 (0 : Fin 1) (0 : Fin 1) o) (ix1 o) ?_
    intro a
    match a with
    | ⟨0, _⟩ => rfl

/-- The first result at (p, q, o). -/
theorem refOut_product (x : FVec Ideal S8x1500x1280 .f32) (w : FVec Ideal S5120x1280 .f32) (b : FVec Ideal S5120 .f32)
    (p : Fin 8) (q : Fin 1500) (o : Fin 5120) :
    refOut x w b (ix3 p q o) = (∑ k : Fin 1280, v29 x (ix3 p q k) * v60 w (ix2 o k)) + b (ix1 o) := by
  show v62 x w (ix3 p q o) + v64 b (ix3 p q o) = _
  rw [bias_apply]
  exact congrArg (· + _) (dot_apply (v29 x) (v60 w) p q o)

end Cert.ReferenceIdeal.RefValue

end
-- ==== Proof.RefOut.lean ====
/-
  The reference's first result is the specification's: its product of the quantized activations (read at row 1500·p + q
  of the flattened array) with the quantized weights, plus the bias, is the linear layer entry by entry.
-/
import proofs.«125756_j635655160006_1_alg».proof.Proof.RefProduct
import proofs.«125756_j635655160006_1_alg».proof.Proof.Spec

noncomputable section

open scoped BigOperators

namespace Cert.ReferenceIdeal.RefValue

open Idealize.ShloMosaic Idealize.ShloMosaic.ValueIdx
open Cert.ReferenceIdeal Cert.ReferenceIdeal.RefTerms

variable [Cert.ReferenceIdeal.Facts]

/-- From the two quantized operands read entry by entry, the first result is the specification's linear layer. -/
theorem refOut_eq_of
    (h29 : ∀ (x : FVec Ideal S8x1500x1280 .f32) (p : Fin 8) (q : Fin 1500) (k : Fin 1280),
      v29 x (ix3 p q k) = Cert.Quant.quant (Cert.Quant.flat x) (ix2 (⟨1500 * p.val + q.val, by omega⟩ : Fin 12000) k))
    (h60 : ∀ (w : FVec Ideal S5120x1280 .f32) (o : Fin 5120) (k : Fin 1280), v60 w (ix2 o k) = Cert.Quant.quant w (ix2 o k))
    (x : FVec Ideal S8x1500x1280 .f32) (w : FVec Ideal S5120x1280 .f32) (b : FVec Ideal S5120 .f32) :
    refOut x w b = Cert.Quant.out x w b := by
  funext i
  obtain ⟨p, q, o, rfl⟩ : ∃ (p : Fin 8) (q : Fin 1500) (o : Fin 5120), i = ix3 p q o := ⟨i 0, i 1, i 2, eq_ix3 i⟩
  rw [refOut_product]
  show _ = (∑ k : Fin 1280, Cert.Quant.quant (Cert.Quant.flat x) (ix2 (⟨1500 * p.val + q.val, _⟩ : Fin 12000) k) * Cert.Quant.quant w (ix2 (⟨o.val, _⟩ : Fin 5120) k)) + b (ix1 (⟨o.val, _⟩ : Fin 5120))
  exact congrArg (· + _) (Finset.sum_congr rfl fun k _ => by rw [h29, h60])

end Cert.ReferenceIdeal.RefValue

end
-- ==== Proof.Assembly.lean ====
/-
  The five claims from the two programs' values.  Both idealized programs end with the specification's two arrays —
  the linear layer of the quantized activations and weights, and the weights' scales — as functions of their arguments
  (for the kernel: the two regions' arrays through the two reshapes; for the reference: its operations read entry by
  entry), so from memories that agree on the arguments the results are equal.  The frames are the runs with the results
  dropped; the idealization's two rewrites are the sign-bit rule's statement at the two block shapes.
-/
import proofs.«125756_j635655160006_1_alg».proof.Defs
import proofs.«125756_j635655160006_1_alg».proof.Proof.Gen.Kernel.Frame
import proofs.«125756_j635655160006_1_alg».proof.Proof.Gen.KernelIdeal.Frame
import proofs.«125756_j635655160006_1_alg».proof.Proof.Gen.ReferenceIdeal
import proofs.«125756_j635655160006_1_alg».proof.Proof.Gen.Pre_finite_inputs
import proofs.«125756_j635655160006_1_alg».proof.Proof.KernelValue
import proofs.«125756_j635655160006_1_alg».proof.Proof.RefRunVal
import proofs.«125756_j635655160006_1_alg».proof.Proof.RefOut

noncomputable section

namespace Cert.Proof.Assembly

open Idealize.ShloMosaic Idealize.ShloMosaic.TcCoe Idealize.ShloMosaic.ValueIdx Idealize.SL.Sem

/-- What the two kernel bodies leave in their output blocks, as the specification's functions of the input blocks. -/
structure BodyFacts : Prop where
  quantW : ∀ x0 : Vec Ideal Cert.KernelIdeal.S512x1280 .f32, Cert.KernelIdeal.Gen.out0_1 (F := Ideal) x0 = Cert.Quant.quant x0
  scaleW : ∀ x0 : Vec Ideal Cert.KernelIdeal.S512x1280 .f32, Cert.KernelIdeal.Gen.out0_2 (F := Ideal) x0 = Cert.Quant.scales x0
  linear : ∀ (x0 : Vec Ideal Cert.KernelIdeal.S600x1280 .f32) (x1 : Vec Ideal Cert.KernelIdeal.S512x1280 .bf16) (x2 : Vec Ideal Cert.KernelIdeal.S512 .f32),
    Cert.KernelIdeal.Gen.out1_3 (F := Ideal) x0 x1 x2 = Cert.Quant.lin (Cert.Quant.quant x0) x1 x2

/-- What the reference's operations leave, read entry by entry, as the specification's functions. -/
structure RefFacts : Prop where
  acts : ∀ (x : FVec Ideal Cert.ReferenceIdeal.S8x1500x1280 .f32) (p : Fin 8) (q : Fin 1500) (k : Fin 1280),
    Cert.ReferenceIdeal.RefTerms.v29 x (ix3 p q k) = Cert.Quant.quant (Cert.Quant.flat x) (ix2 (⟨1500 * p.val + q.val, by omega⟩ : Fin 12000) k)
  weights : ∀ (w : FVec Ideal Cert.ReferenceIdeal.S5120x1280 .f32) (o : Fin 5120) (k : Fin 1280),
    Cert.ReferenceIdeal.RefTerms.v60 w (ix2 o k) = Cert.Quant.quant w (ix2 o k)
  scales : ∀ w : FVec Ideal Cert.ReferenceIdeal.S5120x1280 .f32, Cert.ReferenceIdeal.RefTerms.refScale w = Cert.Quant.scaleW w

/-- The idealized kernel's run with both results at the specification's arrays. -/
theorem kernel_run (hB : BodyFacts) (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v3)
        = Cert.Quant.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_v0_1)
        = Cert.Quant.scaleW (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run (Cert.KernelIdeal.defs (F := Ideal)) _ _).mono (fun r h c => by
      obtain ⟨h3, h01, h0, h1, h2⟩ := h c
      exact ⟨h3.trans (Cert.KernelIdeal.KernelValue.out_final m ρ hB.quantW hB.linear c),
        h01.trans (Cert.KernelIdeal.KernelValue.scale_final m ρ hB.scaleW c), h0, h1, h2⟩)
    (Cert.KernelIdeal.RunValue.run_boundary (F := Ideal) m ρ)

/-- The idealized reference's run with both results at the specification's arrays. -/
theorem reference_run (hR : RefFacts) (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v65)
        = Cert.Quant.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v61)
        = Cert.Quant.scaleW (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run (Cert.ReferenceIdeal.defs (F := Ideal)) _ _).mono (fun r h c => by
      obtain ⟨h65, h61, h0, h1, h2⟩ := h c
      exact ⟨h65.trans (Cert.ReferenceIdeal.RefValue.refOut_eq_of hR.acts hR.weights _ _ _), h61.trans (hR.scales _), h0, h1, h2⟩)
    (Cert.ReferenceIdeal.RefRun.run_terms m ρ)

theorem frame_k : Cert.frame_Kernel := fun m ρ _ => Cert.Kernel.Gen.frame m ρ
theorem frame_ki : Cert.frame_KernelIdeal := fun m ρ _ => Cert.KernelIdeal.Gen.frame m ρ
theorem frame_ri (hR : RefFacts) : Cert.frame_ReferenceIdeal := fun m ρ _ =>
  (θ_run (Cert.ReferenceIdeal.defs (F := Ideal)) _ _).mono (fun _ h c => (h c).2.2) (reference_run hR m ρ)

/-- The idealization's two rewrites, one per kernel, of the sign-bit read. -/
theorem preserves : Cert.preserves_Kernel_KernelIdeal :=
  ⟨IdealRules.sign_bit.statement Cert.KernelIdeal.S512x40x32 .f32, IdealRules.sign_bit.statement Cert.KernelIdeal.S600x40x32 .f32⟩

/-- Equal results from memories that agree on the arguments. -/
theorem algebraic (hB : BodyFacts) (hR : RefFacts) : Cert.algebraic_KernelIdeal_ReferenceIdeal := by
  intro m ρ m' ρ' _ hagree
  refine ⟨_, _, kernel_run hB m ρ, ?_⟩
  refine (θ_run (Cert.ReferenceIdeal.defs (F := Ideal)) _ _).mono (fun r h c => ?_) (reference_run hR m' ρ')
  obtain ⟨h65, h61, h0, h1, h2⟩ := h c
  obtain ⟨a0, a1, a2⟩ := hagree c
  refine ⟨h65.trans ?_, h61.trans ?_, h0, h1, h2⟩
  · rw [a0, a1, a2]
  · rw [a1]

/-- The claim, from the bodies' and the reference's values. -/
theorem claim_of (hB : BodyFacts) (hR : RefFacts) : Cert.Claim :=
  ⟨Cert.Kernel.Gen.facts, Cert.KernelIdeal.Gen.facts, Cert.ReferenceIdeal.Gen.facts, Cert.Pre_finite_inputs.Gen.facts,
    frame_k, frame_ki, frame_ri hR, preserves, algebraic hB hR⟩

end Cert.Proof.Assembly

end
-- ==== Proof.BodyLayout.lean ====
/-
  The layout operations of the two kernel bodies, each read at an index given by its coordinates, for any number of
  rows n.  A row of 1280 entries is seen as 40 groups of 32 and back: entry (r, g, e) of the grouped view is feature
  32 g + e of row r, and feature k of row r is entry (r, k / 32, k % 32).  The per-group column [n, 40] gains or loses a
  trailing unit axis without moving anything, and the column [n, 40, 1] broadcast along the lanes reads its one entry
  at every lane.  The lane maximum of a grouped array, taken from -∞, is the fold of max over the group's 32 entries.
-/
import Idealize.ShloMosaic.Lib.ValueLayout
import Idealize.ShloMosaic.PureOps.Ideal.Laws

namespace Cert.KernelIdeal.BodyValue

open Idealize.ShloMosaic Idealize.ShloMosaic.ValueIdx

variable {α : Type} {n : Nat}

/-- Rows of 1280 cut into 40 groups of 32: entry (r, g, e) is feature 32 g + e of row r. -/
theorem rows_to_groups_apply (x : (⟨2, ![n, 1280]⟩ : Shape).Idx → α)
    (h : (⟨2, ![n, 1280]⟩ : Shape).ShapeCasts ⟨3, ![n, 40, 32]⟩) (r : Fin n) (g : Fin 40) (e : Fin 32) :
    shapeCast ⟨3, ![n, 40, 32]⟩ x h (ix3 r g e) = x (ix2 r ⟨32 * g.val + e.val, by omega⟩) :=
  shapeCast_apply x h _ _ (by
    rw [Shape.rowMajor_val_two, Shape.rowMajor_val_three]
    show r.val * 1280 + (32 * g.val + e.val) = (r.val * 40 + g.val) * 32 + e.val
    omega)

/-- The groups laid back into rows: feature k of row r is entry (r, k / 32, k % 32). -/
theorem groups_to_rows_apply (y : (⟨3, ![n, 40, 32]⟩ : Shape).Idx → α)
    (h : (⟨3, ![n, 40, 32]⟩ : Shape).ShapeCasts ⟨2, ![n, 1280]⟩) (r : Fin n) (k : Fin 1280) :
    shapeCast ⟨2, ![n, 1280]⟩ y h (ix2 r k)
      = y (ix3 r (⟨k.val / 32, by omega⟩ : Fin 40) (⟨k.val % 32, Nat.mod_lt _ (by omega)⟩ : Fin 32)) :=
  shapeCast_apply y h _ _ (by
    rw [Shape.rowMajor_val_two, Shape.rowMajor_val_three]
    show (r.val * 40 + k.val / 32) * 32 + k.val % 32 = r.val * 1280 + k.val
    omega)

/-- The column of group values [n, 40] given a trailing unit axis: nothing moves. -/
theorem col_add_unit_apply (x : (⟨2, ![n, 40]⟩ : Shape).Idx → α)
    (h : (⟨2, ![n, 40]⟩ : Shape).ShapeCasts ⟨3, ![n, 40, 1]⟩) (r : Fin n) (g : Fin 40) (u : Fin 1) :
    shapeCast ⟨3, ![n, 40, 1]⟩ x h (ix3 r g u) = x (ix2 r g) :=
  shapeCast_apply x h _ _ (by
    have hu : u.val = 0 := by omega
    rw [Shape.rowMajor_val_two, Shape.rowMajor_val_three]
    show r.val * 40 + g.val = (r.val * 40 + g.val) * 1 + u.val
    omega)

/-- The trailing unit axis dropped again. -/
theorem col_drop_unit_apply (x : (⟨3, ![n, 40, 1]⟩ : Shape).Idx → α)
    (h : (⟨3, ![n, 40, 1]⟩ : Shape).ShapeCasts ⟨2, ![n, 40]⟩) (r : Fin n) (g : Fin 40) :
    shapeCast ⟨2, ![n, 40]⟩ x h (ix2 r g) = x (ix3 r g (0 : Fin 1)) :=
  shapeCast_apply x h _ _ (by
    rw [Shape.rowMajor_val_two, Shape.rowMajor_val_three]
    show (r.val * 40 + g.val) * 1 + 0 = r.val * 40 + g.val
    omega)

/-- The column [n, 40, 1] broadcast along the 32 lanes reads its one entry at every lane. -/
theorem col_broadcast_apply (x : (⟨3, ![n, 40, 1]⟩ : Shape).Idx → α)
    (h : (⟨3, ![n, 40, 1]⟩ : Shape).Broadcasts ⟨3, ![n, 40, 32]⟩) (r : Fin n) (g : Fin 40) (e : Fin 32) :
    broadcastTo ⟨3, ![n, 40, 32]⟩ x h (ix3 r g e) = x (ix3 r g (0 : Fin 1)) := by
  refine broadcastTo_apply x h (ix3 r g e) (ix3 r g (0 : Fin 1)) fun ax => ?_
  match ax with
  | ⟨0, _⟩ =>
    show r.val = if n = 1 then 0 else r.val
    split
    · have := r.isLt; omega
    · rfl
  | ⟨1, _⟩ => rfl
  | ⟨2, _⟩ => rfl

/-- The lane maximum of a grouped array from -∞: at (r, g) the fold of max over the group's 32 entries. -/
theorem group_max_apply (v : FVec Ideal ⟨3, ![n, 40, 32]⟩ .f32)
    (h : (⟨3, ![n, 40, 32]⟩ : Shape).Reduces [2] ⟨2, ![n, 40]⟩) (hφ : FKind.Formats .f32)
    (hacc : (0xFF800000#32 : BitVec 32) = FKind.maximumf.neutral .f32 hφ) (r : Fin n) (g : Fin 40) :
    multiReduction .maximumf [2] ⟨2, ![n, 40]⟩ v 0xFF800000#32 h hφ hacc (ix2 r g)
      = (Finset.univ : Finset (Fin 32)).fold max (Ideal.ofBits .f32 0xFF800000#32) (fun e => v (ix3 r g e)) := by
  refine (Ideal.multiReduction_maximumf_single v _ h hφ hacc (ix2 r g)).trans ?_
  refine congrArg (fun f : Fin 32 → EReal => (Finset.univ : Finset (Fin 32)).fold max (Ideal.ofBits .f32 0xFF800000#32) f) ?_
  funext e
  refine congrArg v (funext fun a => Fin.ext ?_)
  match a with
  | ⟨0, _⟩ => rfl
  | ⟨1, _⟩ => rfl
  | ⟨2, _⟩ => rfl

/-- The offsets of a whole-block rectangle of rank 2 are zero. -/
theorem zero_offsets2 : (![0, 0] : Fin 2 → Nat) = fun _ => 0 := funext fun a => by fin_cases a <;> rfl

/-- The offsets of a whole-block rectangle of rank 1 are zero. -/
theorem zero_offsets1 : (![0] : Fin 1 → Nat) = fun _ => 0 := funext fun a => by fin_cases a; rfl

end Cert.KernelIdeal.BodyValue
-- ==== Proof.Body0.lean ====
/-
  The first kernel body's two stored blocks, as functions of the block of weights it loads.

  The body cuts each row of 1280 weights into 40 groups of 32, takes each group's largest absolute value from -∞,
  divides it by 6 and floors it at 1e-12: the group's scale.  It divides every entry by its group's scale, walks the
  seven thresholds on the ratio's absolute value, multiplies the sign of the ratio by the level reached and by the
  scale, lays the groups back into rows and stores the result; the scales are stored as a [512, 40] block.  Read entry
  by entry these are the specification's quant and scales of the loaded block.
-/
import proofs.«125756_j635655160006_1_alg».proof.Proof.Gen.KernelIdeal.Frame
import proofs.«125756_j635655160006_1_alg».proof.Proof.Spec
import proofs.«125756_j635655160006_1_alg».proof.Proof.BodyLayout

noncomputable section

namespace Cert.KernelIdeal.BodyValue

open Idealize.ShloMosaic Idealize.ShloMosaic.ValueIdx Cert.Quant

/-- The weights' block seen in groups: entry (r, g, e) is feature 32 g + e of row r. -/
theorem k0_grouped_apply (x : Vec Ideal S512x1280 .f32) (r : Fin 512) (g : Fin 40) (e : Fin 32) :
    Gen.k0_pay3 (F := Ideal) x (ix3 r g e) = x (ix2 r ⟨32 * g.val + e.val, by omega⟩) := by
  unfold Gen.k0_pay3
  exact rows_to_groups_apply x _ r g e

/-- The body's column of scales at (r, g) is the scale of group g of row r. -/
theorem k0_scale_apply (x : Vec Ideal S512x1280 .f32) (r : Fin 512) (g : Fin 40) (u : Fin 1) :
    Gen.k0_pay4 (F := Ideal) x (ix3 r g u) = gscale (grp x r g) := by
  unfold Gen.k0_pay4 gscale
  refine congrArg (fun t : EReal => max (Ideal.div t (lit 0x40C00000#32)) (lit 0x2B8CBCCC#32)) ?_
  refine (col_add_unit_apply _ _ r g u).trans ?_
  refine (group_max_apply _ _ _ _ r g).trans ?_
  refine congrArg (fun f : Fin 32 → EReal => (Finset.univ : Finset (Fin 32)).fold max (lit 0xFF800000#32) f) ?_
  funext e
  exact congrArg eabs (k0_grouped_apply x r g e)

/-- The entries over their group's scale: at (r, g, e), feature 32 g + e of row r over the scale of group g. -/
theorem k0_ratio_apply (x : Vec Ideal S512x1280 .f32) (r : Fin 512) (g : Fin 40) (e : Fin 32) :
    Gen.k0_pay5 (F := Ideal) x (ix3 r g e)
      = Ideal.div (x (ix2 r ⟨32 * g.val + e.val, by omega⟩)) (gscale (grp x r g)) := by
  unfold Gen.k0_pay5
  exact congrArg₂ Ideal.div (k0_grouped_apply x r g e)
    ((col_broadcast_apply _ _ r g e).trans (k0_scale_apply x r g 0))

/-- The body's chain of threshold selects, closed by the last threshold, is the magnitude level of the ratio. -/
theorem k0_level_apply (x : Vec Ideal S512x1280 .f32) (j : S512x40x32.Idx) :
    Scalar.select (Gen.k0_pay8 (F := Ideal) x j) (lit 0x40C00000#32) (Gen.k0_pay7 (F := Ideal) x j)
      = level (eabs (Gen.k0_pay5 (F := Ideal) x j)) := rfl

/-- What the body stores, read at feature k of row r, over ANY values of the five arrays it takes: the sign term of the
    ratio, times the level (the last threshold's select over the seven before it), times the group's scale; all three
    read at entry (r, k / 32, k % 32), the scale at its one lane. -/
theorem k0_store_apply (v8 : FVec Ideal S512x40x1 .f32) (v10 v36 : FVec Ideal S512x40x32 .f32)
    (v38 : IVec S512x40x32 1) (c : Ideal .f32) (r : Fin 512) (k : Fin 1280) :
    Gen.k0_pay1 (F := Ideal) v8 v10 v36 v38 c (ix2 r k)
      = Scalar.select
            (FloatOps.cmpf .ogt (FloatOps.absf (v10 (ix3 r (⟨k.val / 32, by omega⟩ : Fin 40) (⟨k.val % 32, Nat.mod_lt _ (by omega)⟩ : Fin 32))))
              (Scalar.ofBits .f32 0x00000000#32))
            (Scalar.select
              (FloatOps.cmpf .olt (v10 (ix3 r (⟨k.val / 32, by omega⟩ : Fin 40) (⟨k.val % 32, Nat.mod_lt _ (by omega)⟩ : Fin 32)))
                (Scalar.ofBits .f32 0x00000000#32))
              (Scalar.ofBits .f32 0xBF800000#32) (Scalar.ofBits .f32 0x3F800000#32))
            (v10 (ix3 r (⟨k.val / 32, by omega⟩ : Fin 40) (⟨k.val % 32, Nat.mod_lt _ (by omega)⟩ : Fin 32)))
          * Scalar.select (v38 (ix3 r (⟨k.val / 32, by omega⟩ : Fin 40) (⟨k.val % 32, Nat.mod_lt _ (by omega)⟩ : Fin 32))) c
              (v36 (ix3 r (⟨k.val / 32, by omega⟩ : Fin 40) (⟨k.val % 32, Nat.mod_lt _ (by omega)⟩ : Fin 32)))
          * v8 (ix3 r (⟨k.val / 32, by omega⟩ : Fin 40) (0 : Fin 1)) := by
  unfold Gen.k0_pay1
  refine (truncf_apply (ψ := .bf16) (φ := .f32) _ Gen.bitsLt_bf16_f32 (ix2 r k)).trans ?_
  refine (groups_to_rows_apply _ _ r k).trans ?_
  exact congrArg (fun t : EReal => _ * t) (col_broadcast_apply v8 _ r _ _)

/-- The body's stored block, entry by entry, is the block quantized. -/
theorem k0_quant_apply (x : Vec Ideal S512x1280 .f32) (r : Fin 512) (k : Fin 1280) :
    Gen.k0_pay1 (F := Ideal) (Gen.k0_pay4 x) (Gen.k0_pay5 x) (Gen.k0_pay7 x) (Gen.k0_pay8 x)
        (Scalar.ofBits .f32 0x40C00000#32) (ix2 r k) = quant x (ix2 r k) := by
  refine (k0_store_apply _ _ _ _ _ r k).trans ?_
  rw [Ideal.jnp_sign_eq_sign_f32]
  refine (congrArg₂ (fun a b : EReal => Ideal.sign _ * a * b) (k0_level_apply x _) (k0_scale_apply x r _ 0)).trans ?_
  rw [k0_ratio_apply]
  have hk : (⟨32 * (k.val / 32) + k.val % 32, by omega⟩ : Fin 1280) = k := Fin.ext (by show 32 * (k.val / 32) + k.val % 32 = k.val; omega)
  rw [hk]
  rfl

/-- What the first body leaves in the quantized-weights block: the block of weights quantized. -/
theorem out0_1_eq (x0 : Vec Ideal S512x1280 .f32) : Gen.out0_1 (F := Ideal) x0 = Cert.Quant.quant x0 := by
  unfold Gen.out0_1
  rw [View.canon_unit_zero zero_offsets2]
  simp only [View.ld_unit_zero (S := S512x1280) zero_offsets2]
  funext i
  obtain ⟨r, k, rfl⟩ : ∃ (r : Fin 512) (k : Fin 1280), i = ix2 r k := ⟨i 0, i 1, eq_ix2 i⟩
  exact k0_quant_apply x0 r k

/-- What the first body leaves in the scales block: the scales of the block's groups. -/
theorem out0_2_eq (x0 : Vec Ideal S512x1280 .f32) : Gen.out0_2 (F := Ideal) x0 = Cert.Quant.scales x0 := by
  unfold Gen.out0_2
  rw [View.canon_unit_zero zero_offsets2]
  simp only [View.ld_unit_zero (S := S512x1280) zero_offsets2]
  funext i
  obtain ⟨r, g, rfl⟩ : ∃ (r : Fin 512) (g : Fin 40), i = ix2 r g := ⟨i 0, i 1, eq_ix2 i⟩
  unfold Gen.k0_pay2
  exact (col_drop_unit_apply _ _ r g).trans (k0_scale_apply x0 r g 0)

end Cert.KernelIdeal.BodyValue

end
-- ==== Proof.Body1.lean ====
/-
  The second kernel body's stored block, as a function of the blocks it loads: 600 rows of activations, 512 rows of
  quantized weights and 512 entries of the bias.

  The body quantizes the activations exactly as the weights were quantized — groups of 32 along each row, the group's
  scale its largest absolute value over 6 floored at 1e-12, each entry the sign of its ratio to the scale times the
  level the ratio's absolute value reaches times the scale —, contracts the result with the loaded weights over the
  1280 features into a zero accumulator, and adds the bias along the rows.  Read entry by entry this is the
  specification's lin of the quantized activations, the loaded weights and the bias.
-/
import proofs.«125756_j635655160006_1_alg».proof.Proof.Gen.KernelIdeal.Frame
import proofs.«125756_j635655160006_1_alg».proof.Proof.Spec
import proofs.«125756_j635655160006_1_alg».proof.Proof.BodyLayout

noncomputable section

namespace Cert.KernelIdeal.BodyValue

open Idealize.ShloMosaic Idealize.ShloMosaic.ValueIdx Cert.Quant

open scoped BigOperators

/-- The matmul's dimension record: activations [600, 1280] against weights [512, 1280], both contracted on axis 1. -/
abbrev dotXW : DotDims S600x1280 S512x1280 S600x512 := dot_S600x1280_S512x1280_S600x512_1_1_0_0_n_n

/-- The left operand's index at output (p, o) and contraction position q: row p … -/
theorem dotXW_lhs_0 (i : S600x512.Idx) (q : dotXW.contr.Idx) : (dotXW.lhsIdx i q 0).val = (i 0).val := by
  unfold DotDims.lhsIdx
  rw [dif_neg (show ¬(0 : Fin S600x1280.rank) ∈ dotXW.lhsBatch by decide),
    dif_pos (show (0 : Fin S600x1280.rank) ∈ dotXW.lhsNonContracting by decide)]
  rfl

/-- … and the contracted feature. -/
theorem dotXW_lhs_1 (i : S600x512.Idx) (q : dotXW.contr.Idx) : (dotXW.lhsIdx i q 1).val = (q ⟨0, by decide⟩).val :=
  dotXW.lhsIdx_val_of_single rfl i q

/-- The right operand's index: row o … -/
theorem dotXW_rhs_0 (i : S600x512.Idx) (q : dotXW.contr.Idx) : (dotXW.rhsIdx i q 0).val = (i 1).val := by
  unfold DotDims.rhsIdx
  rw [dif_neg (show ¬(0 : Fin S512x1280.rank) ∈ dotXW.rhsBatch by decide),
    dif_pos (show (0 : Fin S512x1280.rank) ∈ dotXW.rhsNonContracting by decide)]
  rfl

/-- … and the contracted feature. -/
theorem dotXW_rhs_1 (i : S600x512.Idx) (q : dotXW.contr.Idx) : (dotXW.rhsIdx i q 1).val = (q ⟨0, by decide⟩).val :=
  dotXW.rhsIdx_val_of_single rfl i q

/-- The product into the zero accumulator at (p, o): the sum over the 1280 features of left (p, k) times right (o, k). -/
theorem dotXW_apply (a : FVec Ideal S600x1280 .bf16) (b : FVec Ideal S512x1280 .bf16) (p : Fin 600) (o : Fin 512) :
    matmul dotXW none a b (constant (F := Ideal) S600x512 .f32 0x00000000#32) (ix2 p o)
      = ∑ k : Fin 1280, a (ix2 p k) * b (ix2 o k) := by
  refine (Ideal.matmul_constant_zero_apply dotXW none a b (ix2 p o)).trans ?_
  rw [← Equiv.sum_comp (contrEquiv1 dotXW 1280 rfl rfl).symm]
  refine Finset.sum_congr rfl fun k _ => ?_
  have hk := contrEquiv1_symm_val dotXW 1280 rfl rfl k
  have el : dotXW.lhsIdx (ix2 p o) ((contrEquiv1 dotXW 1280 rfl rfl).symm k) = ix2 p k := funext fun ax => Fin.ext (by
    match ax with
    | ⟨0, _⟩ => exact dotXW_lhs_0 _ _
    | ⟨1, _⟩ => exact (dotXW_lhs_1 _ _).trans hk)
  have er : dotXW.rhsIdx (ix2 p o) ((contrEquiv1 dotXW 1280 rfl rfl).symm k) = ix2 o k := funext fun ax => Fin.ext (by
    match ax with
    | ⟨0, _⟩ => exact dotXW_rhs_0 _ _
    | ⟨1, _⟩ => exact (dotXW_rhs_1 _ _).trans hk)
  rw [el, er]

/-- The activations' block seen in groups: entry (r, g, e) is feature 32 g + e of row r. -/
theorem k1_grouped_apply (x : Vec Ideal S600x1280 .f32) (r : Fin 600) (g : Fin 40) (e : Fin 32) :
    Gen.k1_pay2 (F := Ideal) x (ix3 r g e) = x (ix2 r ⟨32 * g.val + e.val, by omega⟩) := by
  unfold Gen.k1_pay2
  refine (rows_to_groups_apply _ _ r g e).trans ?_
  exact congrFun (shapeCast_self x _) _

/-- The body's column of scales at (r, g) is the scale of group g of row r. -/
theorem k1_scale_apply (x : Vec Ideal S600x1280 .f32) (r : Fin 600) (g : Fin 40) (u : Fin 1) :
    Gen.k1_pay3 (F := Ideal) x (ix3 r g u) = gscale (grp x r g) := by
  unfold Gen.k1_pay3 gscale
  refine congrArg (fun t : EReal => max (Ideal.div t (lit 0x40C00000#32)) (lit 0x2B8CBCCC#32)) ?_
  refine (col_add_unit_apply _ _ r g u).trans ?_
  refine (group_max_apply _ _ _ _ r g).trans ?_
  refine congrArg (fun f : Fin 32 → EReal => (Finset.univ : Finset (Fin 32)).fold max (lit 0xFF800000#32) f) ?_
  funext e
  exact congrArg eabs (k1_grouped_apply x r g e)

/-- The entries over their group's scale: at (r, g, e), feature 32 g + e of row r over the scale of group g. -/
theorem k1_ratio_apply (x : Vec Ideal S600x1280 .f32) (r : Fin 600) (g : Fin 40) (e : Fin 32) :
    Gen.k1_pay4 (F := Ideal) x (ix3 r g e)
      = Ideal.div (x (ix2 r ⟨32 * g.val + e.val, by omega⟩)) (gscale (grp x r g)) := by
  unfold Gen.k1_pay4
  exact congrArg₂ Ideal.div (k1_grouped_apply x r g e)
    ((col_broadcast_apply _ _ r g e).trans (k1_scale_apply x r g 0))

/-- The body's chain of threshold selects, closed by the comparison with the last threshold, is the magnitude level of
    the ratio. -/
theorem k1_level_apply (x : Vec Ideal S600x1280 .f32) (j : S600x40x32.Idx) :
    Scalar.select (FloatOps.cmpf .ogt (Gen.k1_pay5 (F := Ideal) x j) (Gen.k1_pay7 (F := Ideal) j)) (lit 0x40C00000#32)
        (Gen.k1_pay6 (F := Ideal) x j)
      = level (eabs (Gen.k1_pay4 (F := Ideal) x j)) := rfl

/-- One quantized activation as the second body forms it, over ANY values of the five arrays it takes: the sign term of
    the ratio, times the level (the last threshold's select over the seven before it), times the group's scale; all
    read at entry (p, k / 32, k % 32), the scale at its one lane. -/
def k1_entry (v9 : FVec Ideal S600x40x1 .f32) (v11 v12 v37 v38 : FVec Ideal S600x40x32 .f32) (p : Fin 600) (k : Fin 1280) : EReal :=
  Scalar.select
        (FloatOps.cmpf .ogt (FloatOps.absf (v11 (ix3 p (⟨k.val / 32, by omega⟩ : Fin 40) (⟨k.val % 32, Nat.mod_lt _ (by omega)⟩ : Fin 32))))
          (Scalar.ofBits .f32 0x00000000#32))
        (Scalar.select
          (FloatOps.cmpf .olt (v11 (ix3 p (⟨k.val / 32, by omega⟩ : Fin 40) (⟨k.val % 32, Nat.mod_lt _ (by omega)⟩ : Fin 32)))
            (Scalar.ofBits .f32 0x00000000#32))
          (Scalar.ofBits .f32 0xBF800000#32) (Scalar.ofBits .f32 0x3F800000#32))
        (v11 (ix3 p (⟨k.val / 32, by omega⟩ : Fin 40) (⟨k.val % 32, Nat.mod_lt _ (by omega)⟩ : Fin 32)))
      * Scalar.select
          (FloatOps.cmpf .ogt (v12 (ix3 p (⟨k.val / 32, by omega⟩ : Fin 40) (⟨k.val % 32, Nat.mod_lt _ (by omega)⟩ : Fin 32)))
            (v38 (ix3 p (⟨k.val / 32, by omega⟩ : Fin 40) (⟨k.val % 32, Nat.mod_lt _ (by omega)⟩ : Fin 32))))
          (Scalar.ofBits .f32 0x40C00000#32)
          (v37 (ix3 p (⟨k.val / 32, by omega⟩ : Fin 40) (⟨k.val % 32, Nat.mod_lt _ (by omega)⟩ : Fin 32)))
      * v9 (ix3 p (⟨k.val / 32, by omega⟩ : Fin 40) (0 : Fin 1))

/-- What the body stores at (p, o), over ANY values of the arrays it takes: the sum over the 1280 features of the
    quantized activation (p, k) times the loaded weight (o, k), plus the bias o. -/
theorem k1_linear_apply (v9 : FVec Ideal S600x40x1 .f32) (v11 v12 v37 v38 : FVec Ideal S600x40x32 .f32)
    (v57 : Vec Ideal S512x1280 .bf16) (v60 : Vec Ideal S512 .f32) (p : Fin 600) (o : Fin 512) :
    Gen.k1_pay1 (F := Ideal) v9 v11 v12 v37 v38 v57 v60 (ix2 p o)
      = (∑ k : Fin 1280, k1_entry v9 v11 v12 v37 v38 p k * v57 (ix2 o k)) + v60 (ix1 o) := by
  unfold Gen.k1_pay1
  refine (addf_apply _ _ (ix2 p o)).trans ?_
  refine congrArg₂ (fun a b : EReal => a + b) ?_ ?_
  · refine (dotXW_apply _ _ p o).trans ?_
    refine Finset.sum_congr rfl fun k _ => ?_
    refine congrArg₂ (fun a b : EReal => a * b) ?_ ?_
    · refine (truncf_apply (ψ := .bf16) (φ := .f32) _ Gen.bitsLt_bf16_f32 (ix2 p k)).trans ?_
      refine (groups_to_rows_apply _ _ p k).trans ?_
      exact congrArg (fun t : EReal => _ * t) (col_broadcast_apply v9 _ p _ _)
    · exact congrFun (shapeCast_self v57 _) (ix2 o k)
  · refine (broadcastTo_1b_ab_apply _ _ p o).trans ?_
    exact shapeCast_a_1a_apply v60 _ 0 o

/-- At the body's own scale, ratio, absolute value and level arrays, the quantized activation is the specification's. -/
theorem k1_entry_eq (x : Vec Ideal S600x1280 .f32) (p : Fin 600) (k : Fin 1280) :
    k1_entry (Gen.k1_pay3 x) (Gen.k1_pay4 x) (Gen.k1_pay5 x) (Gen.k1_pay6 x) (Gen.k1_pay7 (F := Ideal)) p k
      = quant x (ix2 p k) := by
  unfold k1_entry
  rw [Ideal.jnp_sign_eq_sign_f32]
  refine (congrArg₂ (fun a b : EReal => Ideal.sign _ * a * b) (k1_level_apply x _) (k1_scale_apply x p _ 0)).trans ?_
  rw [k1_ratio_apply]
  have hk : (⟨32 * (k.val / 32) + k.val % 32, by omega⟩ : Fin 1280) = k :=
    Fin.ext (by show 32 * (k.val / 32) + k.val % 32 = k.val; omega)
  rw [hk]
  rfl

/-- What the second body leaves in the output block: the linear layer of the block of activations quantized, against the
    loaded block of quantized weights and of the bias. -/
theorem out1_3_eq (x0 : Vec Ideal S600x1280 .f32) (x1 : Vec Ideal S512x1280 .bf16) (x2 : Vec Ideal S512 .f32) :
    Gen.out1_3 (F := Ideal) x0 x1 x2 = Cert.Quant.lin (Cert.Quant.quant x0) x1 x2 := by
  unfold Gen.out1_3
  rw [View.canon_unit_zero zero_offsets2]
  simp only [View.ld_unit_zero (S := S600x1280) zero_offsets2, View.ld_unit_zero (S := S512x1280) zero_offsets2,
    View.ld_unit_zero (S := S512) zero_offsets1]
  funext i
  obtain ⟨p, o, rfl⟩ : ∃ (p : Fin 600) (o : Fin 512), i = ix2 p o := ⟨i 0, i 1, eq_ix2 i⟩
  refine (k1_linear_apply _ _ _ _ _ x1 x2 p o).trans ?_
  show _ = (∑ k : Fin 1280, quant x0 (ix2 p k) * x1 (ix2 o k)) + x2 (ix1 o)
  refine congrArg (fun t : EReal => t + x2 (ix1 o)) ?_
  exact Finset.sum_congr rfl fun k _ => congrArg (fun t : EReal => t * x1 (ix2 o k)) (k1_entry_eq x0 p k)

end Cert.KernelIdeal.BodyValue

end
-- ==== Proof.RefScalar.lean ====
/-
  The magnitude level, counted and selected.

  The reference finds the level of a magnitude `a` by COUNTING: it compares `a` with the seven thresholds
  0.25 < 0.75 < 1.25 < 1.75 < 2.5 < 3.5 < 5, adds the seven comparison bits (each widened to 32 bits) from 0, adds 8 to a
  negative count (there is none), and reads the table 0, 0.5, 1, 1.5, 2, 3, 4, 6 at that count, clamped into 0 … 7.
  The specification walks the thresholds from the top and keeps the value of the first one exceeded.

  The two agree because the thresholds increase: a magnitude that exceeds one threshold exceeds every smaller one, so
  only eight of the 128 patterns of comparison bits occur — the first `n` bits set, the others clear, for `n` = 0 … 7 —
  and on each the count is `n` and the selected value is entry `n` of the table.  The thresholds' order is read off
  their float words, each evaluated once.
-/
import proofs.«125756_j635655160006_1_alg».proof.ReferenceIdeal
import proofs.«125756_j635655160006_1_alg».proof.Proof.Spec
import Idealize.ShloMosaic.PureOps.Reduce
import Idealize.ShloMosaic.PureOps.Ideal.Laws

noncomputable section

namespace Cert.ReferenceIdeal.RefValue

open Idealize.ShloMosaic Idealize.ShloMosaic.ValueIdx Cert.Quant Cert.ReferenceIdeal

/-! ## The thresholds' values and their order -/

theorem thr0 : lit 0x3E800000#32 = ((1/4 : ℝ) : EReal) := by
  simp [Ideal.ofBits, Ideal.ieee]; norm_cast; norm_num
theorem thr1 : lit 0x3F400000#32 = ((3/4 : ℝ) : EReal) := by
  simp [Ideal.ofBits, Ideal.ieee]; norm_cast; norm_num
theorem thr2 : lit 0x3FA00000#32 = ((5/4 : ℝ) : EReal) := by
  simp [Ideal.ofBits, Ideal.ieee]; norm_cast; norm_num
theorem thr3 : lit 0x3FE00000#32 = ((7/4 : ℝ) : EReal) := by
  simp [Ideal.ofBits, Ideal.ieee]; norm_cast; norm_num
theorem thr4 : lit 0x40200000#32 = ((5/2 : ℝ) : EReal) := by
  simp [Ideal.ofBits, Ideal.ieee]; norm_cast; norm_num
theorem thr5 : lit 0x40600000#32 = ((7/2 : ℝ) : EReal) := by
  simp [Ideal.ofBits, Ideal.ieee]; norm_cast; norm_num
theorem thr6 : lit 0x40A00000#32 = ((5 : ℝ) : EReal) := by
  simp [Ideal.ofBits, Ideal.ieee]; norm_cast; norm_num

theorem t01 : lit 0x3E800000#32 < lit 0x3F400000#32 := by
  rw [thr0, thr1]; exact EReal.coe_lt_coe_iff.2 (by norm_num)
theorem t12 : lit 0x3F400000#32 < lit 0x3FA00000#32 := by
  rw [thr1, thr2]; exact EReal.coe_lt_coe_iff.2 (by norm_num)
theorem t23 : lit 0x3FA00000#32 < lit 0x3FE00000#32 := by
  rw [thr2, thr3]; exact EReal.coe_lt_coe_iff.2 (by norm_num)
theorem t34 : lit 0x3FE00000#32 < lit 0x40200000#32 := by
  rw [thr3, thr4]; exact EReal.coe_lt_coe_iff.2 (by norm_num)
theorem t45 : lit 0x40200000#32 < lit 0x40600000#32 := by
  rw [thr4, thr5]; exact EReal.coe_lt_coe_iff.2 (by norm_num)
theorem t56 : lit 0x40600000#32 < lit 0x40A00000#32 := by
  rw [thr5, thr6]; exact EReal.coe_lt_coe_iff.2 (by norm_num)

/-! ## One comparison bit -/

/-- The bit of "`a` exceeds `t`" is set when it does … -/
theorem bit_pos {a t : EReal} (h : t < a) : Ideal.cmp .ogt a t = 1#1 := by simp [Ideal.cmp, h]
/-- … and clear when it does not. -/
theorem bit_neg {a t : EReal} (h : ¬ t < a) : Ideal.cmp .ogt a t = 0#1 := by simp [Ideal.cmp, h]

/-! ## The count and the wrap -/

/-- The count of the thresholds that `a` exceeds, as the reference forms it: the seven comparison bits, each widened to
    32 bits, added from 0. -/
def cnt (a : EReal) : BitVec 32 :=
  (Finset.univ : Finset (Fin 7)).fold IntOp.addi 0#32 fun k => (Ideal.cmp .ogt a (lit (lit0 k))).setWidth 32

/-- The wrap of a negative index: 8 is added to a count below 0. -/
def wrap (c : BitVec 32) : BitVec 32 := Scalar.select (IntOp.cmpi .slt c 0#32) (IntOp.addi c 8#32) c

/-- The count written out: the seven bits in the table's order. -/
theorem cnt_eq (a : EReal) : cnt a =
    IntOp.addi ((Ideal.cmp .ogt a (lit 0x3E800000#32)).setWidth 32)
    (IntOp.addi ((Ideal.cmp .ogt a (lit 0x3F400000#32)).setWidth 32)
    (IntOp.addi ((Ideal.cmp .ogt a (lit 0x3FA00000#32)).setWidth 32)
    (IntOp.addi ((Ideal.cmp .ogt a (lit 0x3FE00000#32)).setWidth 32)
    (IntOp.addi ((Ideal.cmp .ogt a (lit 0x40200000#32)).setWidth 32)
    (IntOp.addi ((Ideal.cmp .ogt a (lit 0x40600000#32)).setWidth 32)
    (IntOp.addi ((Ideal.cmp .ogt a (lit 0x40A00000#32)).setWidth 32) 0#32)))))) := rfl

/-- A count `n ≤ 7` is not negative: the wrap leaves it, and read as a signed integer it is `n`. -/
theorem wrap_small : ∀ n : Fin 8, (wrap (BitVec.ofNat 32 n.val)).toInt.toNat = n.val := by decide

/-- With the count known to be `n ≤ 7`, the table is read at entry `n`. -/
theorem pick (a : EReal) (n : Fin 8) (hc : cnt a = BitVec.ofNat 32 n.val) :
    lit (lit1 ⟨min (wrap (cnt a)).toInt.toNat 7, by omega⟩) = lit (lit1 n) := by
  have h : (⟨min (wrap (cnt a)).toInt.toNat 7, by omega⟩ : Fin 8) = n := by
    apply Fin.ext
    show min (wrap (cnt a)).toInt.toNat 7 = n.val
    rw [hc, wrap_small n]
    have := n.isLt
    omega
  rw [h]

/-! ## The level -/

/-- THE LEVEL, COUNTED, IS THE LEVEL, SELECTED: the table entry at the (wrapped, clamped) count of exceeded thresholds is
    the value of the last threshold exceeded.  By cases on the largest threshold that `a` exceeds: the smaller ones
    are exceeded by transitivity, the larger ones are not, so every bit is known, the count is a closed word and both
    sides are one entry of the table. -/
theorem level_count (a : EReal) :
    lit (lit1 ⟨min (wrap (cnt a)).toInt.toNat 7, by omega⟩) = level a := by
  unfold level
  by_cases h6 : lit 0x40A00000#32 < a
  · have h5 := lt_trans t56 h6
    have h4 := lt_trans t45 h5
    have h3 := lt_trans t34 h4
    have h2 := lt_trans t23 h3
    have h1 := lt_trans t12 h2
    have h0 := lt_trans t01 h1
    have hc : cnt a = BitVec.ofNat 32 (7 : Fin 8).val := by
      rw [cnt_eq, bit_pos h0, bit_pos h1, bit_pos h2, bit_pos h3, bit_pos h4, bit_pos h5, bit_pos h6]; decide
    rw [pick a 7 hc, bit_pos h6, select_one]; rfl
  · have n6 := h6
    by_cases h5 : lit 0x40600000#32 < a
    · have h4 := lt_trans t45 h5
      have h3 := lt_trans t34 h4
      have h2 := lt_trans t23 h3
      have h1 := lt_trans t12 h2
      have h0 := lt_trans t01 h1
      have hc : cnt a = BitVec.ofNat 32 (6 : Fin 8).val := by
        rw [cnt_eq, bit_pos h0, bit_pos h1, bit_pos h2, bit_pos h3, bit_pos h4, bit_pos h5, bit_neg n6]; decide
      rw [pick a 6 hc, bit_neg n6, select_zero, bit_pos h5, select_one]; rfl
    · have n5 := h5
      by_cases h4 : lit 0x40200000#32 < a
      · have h3 := lt_trans t34 h4
        have h2 := lt_trans t23 h3
        have h1 := lt_trans t12 h2
        have h0 := lt_trans t01 h1
        have hc : cnt a = BitVec.ofNat 32 (5 : Fin 8).val := by
          rw [cnt_eq, bit_pos h0, bit_pos h1, bit_pos h2, bit_pos h3, bit_pos h4, bit_neg n5, bit_neg n6]; decide
        rw [pick a 5 hc, bit_neg n6, select_zero, bit_neg n5, select_zero, bit_pos h4, select_one]; rfl
      · have n4 := h4
        by_cases h3 : lit 0x3FE00000#32 < a
        · have h2 := lt_trans t23 h3
          have h1 := lt_trans t12 h2
          have h0 := lt_trans t01 h1
          have hc : cnt a = BitVec.ofNat 32 (4 : Fin 8).val := by
            rw [cnt_eq, bit_pos h0, bit_pos h1, bit_pos h2, bit_pos h3, bit_neg n4, bit_neg n5, bit_neg n6]; decide
          rw [pick a 4 hc, bit_neg n6, select_zero, bit_neg n5, select_zero, bit_neg n4, select_zero, bit_pos h3, select_one]; rfl
        · have n3 := h3
          by_cases h2 : lit 0x3FA00000#32 < a
          · have h1 := lt_trans t12 h2
            have h0 := lt_trans t01 h1
            have hc : cnt a = BitVec.ofNat 32 (3 : Fin 8).val := by
              rw [cnt_eq, bit_pos h0, bit_pos h1, bit_pos h2, bit_neg n3, bit_neg n4, bit_neg n5, bit_neg n6]; decide
            rw [pick a 3 hc, bit_neg n6, select_zero, bit_neg n5, select_zero, bit_neg n4, select_zero, bit_neg n3, select_zero, bit_pos h2, select_one]; rfl
          · have n2 := h2
            by_cases h1 : lit 0x3F400000#32 < a
            · have h0 := lt_trans t01 h1
              have hc : cnt a = BitVec.ofNat 32 (2 : Fin 8).val := by
                rw [cnt_eq, bit_pos h0, bit_pos h1, bit_neg n2, bit_neg n3, bit_neg n4, bit_neg n5, bit_neg n6]; decide
              rw [pick a 2 hc, bit_neg n6, select_zero, bit_neg n5, select_zero, bit_neg n4, select_zero, bit_neg n3, select_zero, bit_neg n2, select_zero, bit_pos h1, select_one]; rfl
            · have n1 := h1
              by_cases h0 : lit 0x3E800000#32 < a
              · have hc : cnt a = BitVec.ofNat 32 (1 : Fin 8).val := by
                  rw [cnt_eq, bit_pos h0, bit_neg n1, bit_neg n2, bit_neg n3, bit_neg n4, bit_neg n5, bit_neg n6]; decide
                rw [pick a 1 hc, bit_neg n6, select_zero, bit_neg n5, select_zero, bit_neg n4, select_zero, bit_neg n3, select_zero, bit_neg n2, select_zero, bit_neg n1, select_zero, bit_pos h0, select_one]; rfl
              · have n0 := h0
                have hc : cnt a = BitVec.ofNat 32 (0 : Fin 8).val := by
                  rw [cnt_eq, bit_neg n0, bit_neg n1, bit_neg n2, bit_neg n3, bit_neg n4, bit_neg n5, bit_neg n6]; decide
                rw [pick a 0 hc, bit_neg n6, select_zero, bit_neg n5, select_zero, bit_neg n4, select_zero, bit_neg n3, select_zero, bit_neg n2, select_zero, bit_neg n1, select_zero, bit_neg n0, select_zero]; rfl

/-- With the count known to be `n ≤ 7`, an index equal to the clamped wrapped count is `n`. -/
theorem pick_eq (a : EReal) (n m : Fin 8) (hc : cnt a = BitVec.ofNat 32 n.val)
    (hm : m.val = min (wrap (cnt a)).toInt.toNat 7) : m = n := by
  apply Fin.ext
  rw [hm, hc, wrap_small n]
  have := n.isLt
  omega

/-- The same statement with the table's index a variable `m` known to equal the clamped wrapped count: the form to
    apply where the index is a compound term (the table is then never evaluated at it). -/
theorem level_at (a : EReal) (m : Fin 8) (hm : m.val = min (wrap (cnt a)).toInt.toNat 7) :
    lit (lit1 m) = level a := by
  unfold level
  by_cases h6 : lit 0x40A00000#32 < a
  · have h5 := lt_trans t56 h6
    have h4 := lt_trans t45 h5
    have h3 := lt_trans t34 h4
    have h2 := lt_trans t23 h3
    have h1 := lt_trans t12 h2
    have h0 := lt_trans t01 h1
    have hc : cnt a = BitVec.ofNat 32 (7 : Fin 8).val := by
      rw [cnt_eq, bit_pos h0, bit_pos h1, bit_pos h2, bit_pos h3, bit_pos h4, bit_pos h5, bit_pos h6]; decide
    rw [pick_eq a 7 m hc hm, bit_pos h6, select_one]; rfl
  · have n6 := h6
    by_cases h5 : lit 0x40600000#32 < a
    · have h4 := lt_trans t45 h5
      have h3 := lt_trans t34 h4
      have h2 := lt_trans t23 h3
      have h1 := lt_trans t12 h2
      have h0 := lt_trans t01 h1
      have hc : cnt a = BitVec.ofNat 32 (6 : Fin 8).val := by
        rw [cnt_eq, bit_pos h0, bit_pos h1, bit_pos h2, bit_pos h3, bit_pos h4, bit_pos h5, bit_neg n6]; decide
      rw [pick_eq a 6 m hc hm, bit_neg n6, select_zero, bit_pos h5, select_one]; rfl
    · have n5 := h5
      by_cases h4 : lit 0x40200000#32 < a
      · have h3 := lt_trans t34 h4
        have h2 := lt_trans t23 h3
        have h1 := lt_trans t12 h2
        have h0 := lt_trans t01 h1
        have hc : cnt a = BitVec.ofNat 32 (5 : Fin 8).val := by
          rw [cnt_eq, bit_pos h0, bit_pos h1, bit_pos h2, bit_pos h3, bit_pos h4, bit_neg n5, bit_neg n6]; decide
        rw [pick_eq a 5 m hc hm, bit_neg n6, select_zero, bit_neg n5, select_zero, bit_pos h4, select_one]; rfl
      · have n4 := h4
        by_cases h3 : lit 0x3FE00000#32 < a
        · have h2 := lt_trans t23 h3
          have h1 := lt_trans t12 h2
          have h0 := lt_trans t01 h1
          have hc : cnt a = BitVec.ofNat 32 (4 : Fin 8).val := by
            rw [cnt_eq, bit_pos h0, bit_pos h1, bit_pos h2, bit_pos h3, bit_neg n4, bit_neg n5, bit_neg n6]; decide
          rw [pick_eq a 4 m hc hm, bit_neg n6, select_zero, bit_neg n5, select_zero, bit_neg n4, select_zero, bit_pos h3, select_one]; rfl
        · have n3 := h3
          by_cases h2 : lit 0x3FA00000#32 < a
          · have h1 := lt_trans t12 h2
            have h0 := lt_trans t01 h1
            have hc : cnt a = BitVec.ofNat 32 (3 : Fin 8).val := by
              rw [cnt_eq, bit_pos h0, bit_pos h1, bit_pos h2, bit_neg n3, bit_neg n4, bit_neg n5, bit_neg n6]; decide
            rw [pick_eq a 3 m hc hm, bit_neg n6, select_zero, bit_neg n5, select_zero, bit_neg n4, select_zero, bit_neg n3, select_zero, bit_pos h2, select_one]; rfl
          · have n2 := h2
            by_cases h1 : lit 0x3F400000#32 < a
            · have h0 := lt_trans t01 h1
              have hc : cnt a = BitVec.ofNat 32 (2 : Fin 8).val := by
                rw [cnt_eq, bit_pos h0, bit_pos h1, bit_neg n2, bit_neg n3, bit_neg n4, bit_neg n5, bit_neg n6]; decide
              rw [pick_eq a 2 m hc hm, bit_neg n6, select_zero, bit_neg n5, select_zero, bit_neg n4, select_zero, bit_neg n3, select_zero, bit_neg n2, select_zero, bit_pos h1, select_one]; rfl
            · have n1 := h1
              by_cases h0 : lit 0x3E800000#32 < a
              · have hc : cnt a = BitVec.ofNat 32 (1 : Fin 8).val := by
                  rw [cnt_eq, bit_pos h0, bit_neg n1, bit_neg n2, bit_neg n3, bit_neg n4, bit_neg n5, bit_neg n6]; decide
                rw [pick_eq a 1 m hc hm, bit_neg n6, select_zero, bit_neg n5, select_zero, bit_neg n4, select_zero, bit_neg n3, select_zero, bit_neg n2, select_zero, bit_neg n1, select_zero, bit_pos h0, select_one]; rfl
              · have n0 := h0
                have hc : cnt a = BitVec.ofNat 32 (0 : Fin 8).val := by
                  rw [cnt_eq, bit_neg n0, bit_neg n1, bit_neg n2, bit_neg n3, bit_neg n4, bit_neg n5, bit_neg n6]; decide
                rw [pick_eq a 0 m hc hm, bit_neg n6, select_zero, bit_neg n5, select_zero, bit_neg n4, select_zero, bit_neg n3, select_zero, bit_neg n2, select_zero, bit_neg n1, select_zero, bit_neg n0, select_zero]; rfl

/-- … and with the index built from any word `c` known to be the wrapped count. -/
theorem level_of_index (c : BitVec 32) (a : EReal) (h : c = wrap (cnt a)) :
    lit (lit1 ⟨min c.toInt.toNat 7, by omega⟩) = level a :=
  level_at a _ (by rw [h])

/-! ## The two tables at an index -/

/-- The thresholds' array at index `i` holds the table's entry at `i`'s coordinate. -/
theorem lit0_rowMajor (i : S7.Idx) : lit0 (S7.rowMajor i) = lit0 ⟨(i 0).val, (i 0).isLt⟩ :=
  congrArg lit0 (Fin.ext (Shape.rowMajor_val_one i))

/-- The levels' array at index `i` holds the table's entry at `i`'s coordinate. -/
theorem lit1_rowMajor (i : S8.Idx) : lit1 (S8.rowMajor i) = lit1 ⟨(i 0).val, (i 0).isLt⟩ :=
  congrArg lit1 (Fin.ext (Shape.rowMajor_val_one i))

end Cert.ReferenceIdeal.RefValue

end
-- ==== Proof.RefWeights.lean ====
/-
  The reference's weight side, read entry by entry.

  The weights [5120, 1280] are reshaped to [5120, 40, 32]: entry (o, g, e) is feature 32·g + e of row o.  Every later
  array of the weight side is read at an index (o, g, e) — or at (o, g) for the group arrays, with a trailing 0 or a
  threshold number k where the array has a unit or a threshold axis — down to the weights themselves:
    · the group maximum is the fold of max, from -∞, over the 32 entries' absolute values;
    · the scale is that maximum over 6, floored at 1e-12: the specification's `gscale` of the group;
    · the scaled entry is the weight over its group's scale; its magnitude is compared with the seven thresholds, the bits
      are widened and added, the count is wrapped and clamped and the table of levels is read there: by the scalar lemma
      (`level_of_index`) that is the specification's `level` of the magnitude;
    · sign · level · scale is the specification's `qelem`, and reshaping back reads (o, k) at (o, k / 32, k % 32).
  Hence the quantized weights are `Cert.Quant.quant w` and the returned scales are `Cert.Quant.scaleW w`.
-/
import proofs.«125756_j635655160006_1_alg».proof.Proof.RefTerms
import proofs.«125756_j635655160006_1_alg».proof.Proof.RefScalar
import Idealize.ShloMosaic.Lib.Pipeline.Value
import Idealize.ShloMosaic.Lib.ValueLayout

noncomputable section
namespace Cert.ReferenceIdeal.RefValue
open Idealize.ShloMosaic Idealize.ShloMosaic.ValueIdx Cert.Quant
open Cert.ReferenceIdeal Cert.ReferenceIdeal.Facts₀ Cert.ReferenceIdeal.Facts Cert.ReferenceIdeal.RefTerms
variable [Cert.ReferenceIdeal.Facts]

theorem v31_apply (w : FVec Ideal S5120x1280 .f32) (o : Fin 5120) (g : Fin 40) (e : Fin 32) :
    v31 w (ix3 o g e) = w (ix2 o ⟨32 * g.val + e.val, by omega⟩) := by
  unfold v31
  refine shapeCast_apply _ _ _ _ ?_
  rw [Shape.rowMajor_val_two, Shape.rowMajor_val_three]
  show o.val * 1280 + (32 * g.val + e.val) = (o.val * 40 + g.val) * 32 + e.val
  omega

theorem red3 : S5120x40x32.Reduces [2] S5120x40 := by decide

theorem lift3 (o : Fin 5120) (g : Fin 40) (e : Fin 32) : red3.lift (ix2 o g) e = ix3 o g e := by
  funext c
  apply Fin.ext
  show red3.liftVal (ix2 o g) e.val c = _
  match c with
  | ⟨0, _⟩ => rfl
  | ⟨1, _⟩ => rfl
  | ⟨2, _⟩ => rfl

theorem v33_apply (w : FVec Ideal S5120x1280 .f32) (o : Fin 5120) (g : Fin 40) :
    v33 w (ix2 o g) = (Finset.univ : Finset (Fin 32)).fold max (lit 0xFF800000#32) (fun e => eabs (w (ix2 o ⟨32 * g.val + e.val, by omega⟩))) := by
  unfold v33
  show Host.reduce FloatOps.maximumf (v32 w) cst_6 reducesTo_S5120x40x32_S5120x40_d2 h_S_ (ix2 o g) = _
  rw [Host.reduce_eq_fold_single _ _ _ _ red3]
  show (Finset.univ : Finset (Fin 32)).fold max (lit 0xFF800000#32) (fun e => v32 w (red3.lift (ix2 o g) e)) = _
  have key : ∀ e : Fin 32, v32 w (red3.lift (ix2 o g) e) = eabs (w (ix2 o ⟨32 * g.val + e.val, by omega⟩)) := by
    intro e
    rw [lift3 o g e]
    show eabs (v31 w (ix3 o g e)) = _
    rw [v31_apply]
  exact Finset.fold_congr (fun e _ => key e)

theorem v34_apply (w : FVec Ideal S5120x1280 .f32) (o : Fin 5120) (g : Fin 40) (z : Fin 1) :
    v34 w (ix3 o g z) = v33 w (ix2 o g) := by
  unfold v34
  refine broadcastInDim_apply _ _ _ _ _ ?_
  intro a
  match a with
  | ⟨0, _⟩ => rfl
  | ⟨1, _⟩ => rfl

theorem v38_apply (w : FVec Ideal S5120x1280 .f32) (o : Fin 5120) (g : Fin 40) (z : Fin 1) :
    v38 w (ix3 o g z) = gscale (grp w o g) := by
  show max (Ideal.div (v34 w (ix3 o g z)) (lit 0x40C00000#32)) (lit 0x2B8CBCCC#32) = _
  rw [v34_apply, v33_apply]
  rfl

theorem v39_apply (w : FVec Ideal S5120x1280 .f32) (o : Fin 5120) (g : Fin 40) (e : Fin 32) :
    v39 w (ix3 o g e) = gscale (grp w o g) := by
  unfold v39
  refine (broadcastInDim_apply _ _ _ _ (ix3 o g (0 : Fin 1)) ?_).trans (v38_apply w o g 0)
  intro a
  match a with
  | ⟨0, _⟩ => rfl
  | ⟨1, _⟩ => rfl
  | ⟨2, _⟩ => rfl

theorem v58_apply (w : FVec Ideal S5120x1280 .f32) (o : Fin 5120) (g : Fin 40) (e : Fin 32) :
    v58 w (ix3 o g e) = gscale (grp w o g) := by
  unfold v58
  refine (broadcastInDim_apply _ _ _ _ (ix3 o g (0 : Fin 1)) ?_).trans (v38_apply w o g 0)
  intro a
  match a with
  | ⟨0, _⟩ => rfl
  | ⟨1, _⟩ => rfl
  | ⟨2, _⟩ => rfl

theorem v40_apply (w : FVec Ideal S5120x1280 .f32) (o : Fin 5120) (g : Fin 40) (e : Fin 32) :
    v40 w (ix3 o g e) = Ideal.div (w (ix2 o ⟨32 * g.val + e.val, by omega⟩)) (gscale (grp w o g)) := by
  show Ideal.div (v31 w (ix3 o g e)) (v39 w (ix3 o g e)) = _
  rw [v31_apply, v39_apply]

theorem v42_apply (w : FVec Ideal S5120x1280 .f32) (o : Fin 5120) (g : Fin 40) (e : Fin 32) (z : Fin 1) :
    v42 w (ix4 o g e z) = v41 w (ix3 o g e) := by
  unfold v42
  refine broadcastInDim_apply _ _ _ _ _ ?_
  intro a
  match a with
  | ⟨0, _⟩ => rfl
  | ⟨1, _⟩ => rfl
  | ⟨2, _⟩ => rfl

theorem v44_apply (w : FVec Ideal S5120x1280 .f32) (o : Fin 5120) (g : Fin 40) (e : Fin 32) (k : Fin 7) :
    v44 w (ix4 o g e k) = v41 w (ix3 o g e) := by
  unfold v44
  refine (broadcastInDim_apply _ _ _ _ (ix4 o g e (0 : Fin 1)) ?_).trans (v42_apply w o g e 0)
  intro a
  match a with
  | ⟨0, _⟩ => rfl
  | ⟨1, _⟩ => rfl
  | ⟨2, _⟩ => rfl
  | ⟨3, _⟩ => rfl

theorem cst_apply (k : Fin 7) : cst (ix1 k) = lit (lit0 k) := by
  show lit (lit0 (S7.rowMajor (ix1 k))) = _
  rw [lit0_rowMajor]

theorem cst_0_apply (n : Fin 8) : cst_0 (ix1 n) = lit (lit1 n) := by
  show lit (lit1 (S8.rowMajor (ix1 n))) = _
  rw [lit1_rowMajor]

theorem v43_apply (k : Fin 7) : v43 (ix4 (0 : Fin 1) (0 : Fin 1) (0 : Fin 1) k) = lit (lit0 k) := by
  unfold v43
  refine (broadcastInDim_apply _ _ _ _ (ix1 k) ?_).trans (cst_apply k)
  intro a
  match a with
  | ⟨0, _⟩ => rfl

theorem v45_apply (o : Fin 5120) (g : Fin 40) (e : Fin 32) (k : Fin 7) : v45 (ix4 o g e k) = lit (lit0 k) := by
  unfold v45
  refine (broadcastInDim_apply _ _ _ _ (ix4 (0 : Fin 1) (0 : Fin 1) (0 : Fin 1) k) ?_).trans (v43_apply k)
  intro a
  match a with
  | ⟨0, _⟩ => rfl
  | ⟨1, _⟩ => rfl
  | ⟨2, _⟩ => rfl
  | ⟨3, _⟩ => rfl

theorem red4 : S5120x40x32x7.Reduces [3] S5120x40x32 := by decide

theorem lift4 (o : Fin 5120) (g : Fin 40) (e : Fin 32) (k : Fin 7) : red4.lift (ix3 o g e) k = ix4 o g e k := by
  funext c
  apply Fin.ext
  show red4.liftVal (ix3 o g e) k.val c = _
  match c with
  | ⟨0, _⟩ => rfl
  | ⟨1, _⟩ => rfl
  | ⟨2, _⟩ => rfl
  | ⟨3, _⟩ => rfl

theorem v48_apply (w : FVec Ideal S5120x1280 .f32) (o : Fin 5120) (g : Fin 40) (e : Fin 32) :
    v48 w (ix3 o g e) = cnt (v41 w (ix3 o g e)) := by
  unfold v48
  show Host.reduce IntOp.addi (v47 w) c_9 reducesTo_S5120x40x32x7_S5120x40x32_d3 h_S_ (ix3 o g e) = _
  rw [Host.reduce_eq_fold_single _ _ _ _ red4]
  show (Finset.univ : Finset (Fin 7)).fold IntOp.addi 0#32 (fun k => v47 w (red4.lift (ix3 o g e) k)) = _
  have key : ∀ k : Fin 7, v47 w (red4.lift (ix3 o g e) k)
      = (Ideal.cmp .ogt (v41 w (ix3 o g e)) (lit (lit0 k))).setWidth 32 := by
    intro k
    rw [lift4 o g e k]
    show (Ideal.cmp .ogt (v44 w (ix4 o g e k)) (v45 (ix4 o g e k))).setWidth 32 = _
    rw [v44_apply, v45_apply]
  exact Finset.fold_congr (fun k _ => key k)

theorem v54_apply (w : FVec Ideal S5120x1280 .f32) (i : S5120x40x32.Idx) : v54 w i = wrap (v48 w i) := rfl

theorem v55_apply (w : FVec Ideal S5120x1280 .f32) (o : Fin 5120) (g : Fin 40) (e : Fin 32) (z : Fin 1) :
    v55 w (ix4 o g e z) = v54 w (ix3 o g e) := by
  unfold v55
  refine broadcastInDim_apply _ _ _ _ _ ?_
  intro a
  match a with
  | ⟨0, _⟩ => rfl
  | ⟨1, _⟩ => rfl
  | ⟨2, _⟩ => rfl

theorem gather3_apply {α : Type} (x : S8.Idx → α) (idx : IVec S5120x40x32x1 32) (o : Fin 5120) (g : Fin 40) (e : Fin 32) :
    Host.gather gather_S8_S5120x40x32x1_S5120x40x32_n_0_n_n_0_3_1 x idx (ix3 o g e)
      = x (ix1 ⟨min (idx (ix4 o g e (0 : Fin 1))).toInt.toNat 7, by omega⟩) := by
  unfold Host.gather
  congr 1
  funext a
  obtain rfl : a = 0 := Subsingleton.elim _ _
  refine Fin.ext ?_
  show gather_S8_S5120x40x32x1_S5120x40x32_n_0_n_n_0_3_1.start (ix3 o g e) idx 0
      + gather_S8_S5120x40x32x1_S5120x40x32_n_0_n_n_0_3_1.batchCoord (ix3 o g e) 0
      + gather_S8_S5120x40x32x1_S5120x40x32_n_0_n_n_0_3_1.offCoord (ix3 o g e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S8_S5120x40x32x1_S5120x40x32_n_0_n_n_0_3_1.startIndexMap from List.mem_singleton.mpr rfl)]
  have hsi : gather_S8_S5120x40x32x1_S5120x40x32_n_0_n_n_0_3_1.siIdx (ix3 o g e)
      ⟨List.idxOf (0 : Fin 1) gather_S8_S5120x40x32x1_S5120x40x32_n_0_n_n_0_3_1.startIndexMap,
        List.idxOf_lt_length_iff.2 (List.mem_singleton.mpr rfl)⟩ = ix4 o g e (0 : Fin 1) := by
    funext b; refine Fin.ext ?_
    match b with
    | ⟨0, _⟩ => rfl
    | ⟨1, _⟩ => rfl
    | ⟨2, _⟩ => rfl
    | ⟨3, _⟩ => rfl
  rw [hsi]
  rfl

theorem gather3_level (idx : IVec S5120x40x32x1 32) (o : Fin 5120) (g : Fin 40) (e : Fin 32) (a : EReal)
    (h : idx (ix4 o g e (0 : Fin 1)) = wrap (cnt a)) :
    Host.gather gather_S8_S5120x40x32x1_S5120x40x32_n_0_n_n_0_3_1 cst_0 idx (ix3 o g e) = level a := by
  rw [gather3_apply, cst_0_apply]
  exact level_of_index _ _ h

theorem v56_apply (w : FVec Ideal S5120x1280 .f32) (o : Fin 5120) (g : Fin 40) (e : Fin 32) :
    v56 w (ix3 o g e) = level (v41 w (ix3 o g e)) := by
  unfold v56
  show Host.gather gather_S8_S5120x40x32x1_S5120x40x32_n_0_n_n_0_3_1 cst_0 (v55 w) (ix3 o g e) = _
  have h : v55 w (ix4 o g e (0 : Fin 1)) = wrap (cnt (v41 w (ix3 o g e))) := by
    rw [v55_apply, v54_apply, v48_apply]
  exact gather3_level (v55 w) o g e _ h

theorem v59_apply (w : FVec Ideal S5120x1280 .f32) (o : Fin 5120) (g : Fin 40) (e : Fin 32) :
    v59 w (ix3 o g e) = qelem (w (ix2 o ⟨32 * g.val + e.val, by omega⟩)) (gscale (grp w o g)) := by
  show Ideal.sign (v40 w (ix3 o g e)) * v56 w (ix3 o g e) * v58 w (ix3 o g e) = _
  rw [v56_apply, v58_apply]
  show Ideal.sign (v40 w (ix3 o g e)) * level (eabs (v40 w (ix3 o g e))) * _ = _
  rw [v40_apply]
  rfl

theorem v60_eq (w : FVec Ideal S5120x1280 .f32) (o : Fin 5120) (k : Fin 1280) :
    RefTerms.v60 w (ix2 o k) = Cert.Quant.quant w (ix2 o k) := by
  unfold v60
  have hk : 32 * (k.val / 32) + k.val % 32 = k.val := Nat.div_add_mod k.val 32
  refine (shapeCast_apply _ _ _ (ix3 o (⟨k.val / 32, by omega⟩ : Fin 40) (⟨k.val % 32, Nat.mod_lt _ (by omega)⟩ : Fin 32)) ?_).trans ?_
  · rw [Shape.rowMajor_val_two, Shape.rowMajor_val_three]
    show (o.val * 40 + k.val / 32) * 32 + k.val % 32 = o.val * 1280 + k.val
    omega
  · rw [v59_apply]
    show qelem (w (ix2 o ⟨32 * (k.val / 32) + k.val % 32, _⟩)) _ = qelem (w (ix2 o k)) _
    congr 3
    exact Fin.ext hk

theorem refScale_eq (w : FVec Ideal S5120x1280 .f32) : RefTerms.refScale w = Cert.Quant.scaleW w := by
  funext j
  obtain ⟨o, g, rfl⟩ : ∃ (o : Fin 5120) (g : Fin 40), j = ix2 o g := ⟨j 0, j 1, eq_ix2 j⟩
  show v61 w (ix2 o g) = gscale (grp w o g)
  unfold v61
  refine (shapeCast_apply _ _ _ (ix3 o g (0 : Fin 1)) ?_).trans (v38_apply w o g 0)
  rw [Shape.rowMajor_val_two, Shape.rowMajor_val_three]
  show (o.val * 40 + g.val) * 1 + 0 = o.val * 40 + g.val
  omega

end Cert.ReferenceIdeal.RefValue
-- ==== Proof.RefActs.lean ====
/-
  The reference's quantized activations, entry by entry.

  The reference cuts the activations [8, 1500, 1280] into groups [8, 1500, 40, 32].  Read at one entry (p, q, g, e),
  its operations are: the entry x (p, q, 32 g + e); the group's largest absolute value, folded from -∞ over the 32
  entries of the group; that over 6, floored at 1e-12: the group's scale s; the quotient d = x / s, its sign and its
  absolute value a; the seven comparison bits of a with the thresholds, widened and added from 0: the count; the count
  wrapped (8 added when negative) and the table of levels read at it, clamped: by the scalar lemma, the level of a;
  and the product sign(d) · level(a) · s.  That is the specification's quantized entry of row 1500 p + q of the
  flattened array, whose group g of that row is the same 32 entries.
-/
import proofs.«125756_j635655160006_1_alg».proof.Proof.RefTerms
import proofs.«125756_j635655160006_1_alg».proof.Proof.Spec
import proofs.«125756_j635655160006_1_alg».proof.Proof.RefScalar
import Idealize.ShloMosaic.Lib.IdealHost
import Idealize.ShloMosaic.Lib.Pipeline.Value
import Idealize.ShloMosaic.PureOps.Reduce
import Idealize.ShloMosaic.PureOps.Ideal.Laws

noncomputable section

namespace Cert.ReferenceIdeal.RefValue.Acts

open Idealize.ShloMosaic Idealize.ShloMosaic.ValueIdx Cert.Quant Cert.ReferenceIdeal
open Cert.ReferenceIdeal.Facts₀ Cert.ReferenceIdeal.Facts

variable [Cert.ReferenceIdeal.Facts]

/-- The 32 entries of group `g` of row `(p, q)` of the activations. -/
def egrp (x : FVec Ideal S8x1500x1280 .f32) (p : Fin 8) (q : Fin 1500) (g : Fin 40) : Fin 32 → EReal :=
  fun e => x (ix3 p q ⟨32 * g.val + e.val, by omega⟩)

/-! ## The group's scale -/

theorem v0_at (x : FVec Ideal S8x1500x1280 .f32) (p : Fin 8) (q : Fin 1500) (g : Fin 40) (e : Fin 32) :
    RefTerms.v0 x (ix4 p q g e) = egrp x p q g e := by
  unfold RefTerms.v0 egrp
  exact shapeCast_apply x _ _ _ (by
    rw [Shape.rowMajor_val_three, Shape.rowMajor_val_four]
    show (p.val * 1500 + q.val) * 1280 + (32 * g.val + e.val) = ((p.val * 1500 + q.val) * 40 + g.val) * 32 + e.val
    omega)

theorem v1_at (x : FVec Ideal S8x1500x1280 .f32) (p : Fin 8) (q : Fin 1500) (g : Fin 40) (e : Fin 32) :
    RefTerms.v1 x (ix4 p q g e) = eabs (egrp x p q g e) := by
  unfold RefTerms.v1
  exact congrArg eabs (v0_at x p q g e)

theorem lift3 (hR : S8x1500x40x32.Reduces [3] S8x1500x40) (p : Fin 8) (q : Fin 1500) (g : Fin 40) (e : Fin 32) :
    hR.lift (ix3 p q g) e = ix4 p q g e := by
  funext c
  refine Fin.ext ?_
  match c with
  | ⟨0, _⟩ => rfl
  | ⟨1, _⟩ => rfl
  | ⟨2, _⟩ => rfl
  | ⟨3, _⟩ => rfl

theorem v2_at (x : FVec Ideal S8x1500x1280 .f32) (p : Fin 8) (q : Fin 1500) (g : Fin 40) :
    RefTerms.v2 x (ix3 p q g)
      = (Finset.univ : Finset (Fin 32)).fold max (lit 0xFF800000#32) (fun e => eabs (egrp x p q g e)) := by
  unfold RefTerms.v2
  have hR : S8x1500x40x32.Reduces [3] S8x1500x40 := by decide
  refine (Host.reduce_eq_fold_single FloatOps.maximumf (RefTerms.v1 x) RefTerms.cst_1
    reducesTo_S8x1500x40x32_S8x1500x40_d3 hR h_S_ (ix3 p q g)).trans ?_
  show (Finset.univ : Finset (Fin 32)).fold max (lit 0xFF800000#32) (RefTerms.v1 x ∘ hR.lift (ix3 p q g)) = _
  refine Finset.fold_congr (fun e _ => ?_)
  show RefTerms.v1 x (hR.lift (ix3 p q g) e) = _
  rw [lift3 hR p q g e]
  exact v1_at x p q g e

theorem v3_at (x : FVec Ideal S8x1500x1280 .f32) (p : Fin 8) (q : Fin 1500) (g : Fin 40) (u : Fin 1) :
    RefTerms.v3 x (ix4 p q g u) = RefTerms.v2 x (ix3 p q g) := by
  unfold RefTerms.v3
  exact broadcastInDim_apply _ _ _ _ (ix3 p q g) (fun a => match a with
    | ⟨0, _⟩ => rfl
    | ⟨1, _⟩ => rfl
    | ⟨2, _⟩ => rfl)

theorem v4_at (j : S8x1500x40x1.Idx) : RefTerms.v4 j = lit 0x40C00000#32 := by
  unfold RefTerms.v4
  exact broadcastInDim_scalar_apply _ _ _

theorem v6_at (j : S8x1500x40x1.Idx) : RefTerms.v6 j = lit 0x2B8CBCCC#32 := by
  unfold RefTerms.v6
  exact broadcastInDim_scalar_apply _ _ _

/-- The group's scale, as the reference computes it. -/
theorem v7_at (x : FVec Ideal S8x1500x1280 .f32) (p : Fin 8) (q : Fin 1500) (g : Fin 40) (u : Fin 1) :
    RefTerms.v7 x (ix4 p q g u) = gscale (egrp x p q g) := by
  unfold RefTerms.v7 gscale
  show max (RefTerms.v5 x (ix4 p q g u)) (RefTerms.v6 (ix4 p q g u)) = _
  rw [v6_at]
  unfold RefTerms.v5
  show max (Ideal.div (RefTerms.v3 x (ix4 p q g u)) (RefTerms.v4 (ix4 p q g u))) _ = _
  rw [v3_at, v4_at, v2_at]

theorem v8_at (x : FVec Ideal S8x1500x1280 .f32) (p : Fin 8) (q : Fin 1500) (g : Fin 40) (e : Fin 32) :
    RefTerms.v8 x (ix4 p q g e) = gscale (egrp x p q g) := by
  unfold RefTerms.v8
  refine (broadcastInDim_apply _ _ _ _ (ix4 p q g (0 : Fin 1)) (fun a => match a with
    | ⟨0, _⟩ => rfl
    | ⟨1, _⟩ => rfl
    | ⟨2, _⟩ => rfl
    | ⟨3, _⟩ => rfl)).trans ?_
  exact v7_at x p q g 0

theorem v27_at (x : FVec Ideal S8x1500x1280 .f32) (p : Fin 8) (q : Fin 1500) (g : Fin 40) (e : Fin 32) :
    RefTerms.v27 x (ix4 p q g e) = gscale (egrp x p q g) := by
  unfold RefTerms.v27
  refine (broadcastInDim_apply _ _ _ _ (ix4 p q g (0 : Fin 1)) (fun a => match a with
    | ⟨0, _⟩ => rfl
    | ⟨1, _⟩ => rfl
    | ⟨2, _⟩ => rfl
    | ⟨3, _⟩ => rfl)).trans ?_
  exact v7_at x p q g 0

/-! ## The quotient, its sign and its magnitude -/

theorem v9_at (x : FVec Ideal S8x1500x1280 .f32) (p : Fin 8) (q : Fin 1500) (g : Fin 40) (e : Fin 32) :
    RefTerms.v9 x (ix4 p q g e) = Ideal.div (egrp x p q g e) (gscale (egrp x p q g)) := by
  unfold RefTerms.v9
  show Ideal.div (RefTerms.v0 x (ix4 p q g e)) (RefTerms.v8 x (ix4 p q g e)) = _
  rw [v0_at, v8_at]

theorem v10_at (x : FVec Ideal S8x1500x1280 .f32) (p : Fin 8) (q : Fin 1500) (g : Fin 40) (e : Fin 32) :
    RefTerms.v10 x (ix4 p q g e) = eabs (Ideal.div (egrp x p q g e) (gscale (egrp x p q g))) := by
  unfold RefTerms.v10
  exact congrArg eabs (v9_at x p q g e)

theorem v18_at (x : FVec Ideal S8x1500x1280 .f32) (p : Fin 8) (q : Fin 1500) (g : Fin 40) (e : Fin 32) :
    RefTerms.v18 x (ix4 p q g e) = Ideal.sign (Ideal.div (egrp x p q g e) (gscale (egrp x p q g))) := by
  unfold RefTerms.v18
  exact congrArg Ideal.sign (v9_at x p q g e)

/-! ## The count of exceeded thresholds -/

theorem v13_at (x : FVec Ideal S8x1500x1280 .f32) (p : Fin 8) (q : Fin 1500) (g : Fin 40) (e : Fin 32) (t : Fin 7) :
    RefTerms.v13 x (ix5 p q g e t) = eabs (Ideal.div (egrp x p q g e) (gscale (egrp x p q g))) := by
  unfold RefTerms.v13
  refine (broadcastInDim_apply _ _ _ _ (ix5 p q g e (0 : Fin 1)) (fun a => match a with
    | ⟨0, _⟩ => rfl
    | ⟨1, _⟩ => rfl
    | ⟨2, _⟩ => rfl
    | ⟨3, _⟩ => rfl
    | ⟨4, _⟩ => rfl)).trans ?_
  unfold RefTerms.v11
  refine (broadcastInDim_apply _ _ _ _ (ix4 p q g e) (fun a => match a with
    | ⟨0, _⟩ => rfl
    | ⟨1, _⟩ => rfl
    | ⟨2, _⟩ => rfl
    | ⟨3, _⟩ => rfl)).trans ?_
  exact v10_at x p q g e

theorem v14_at (p : Fin 8) (q : Fin 1500) (g : Fin 40) (e : Fin 32) (t : Fin 7) :
    RefTerms.v14 (ix5 p q g e t) = lit (lit0 t) := by
  unfold RefTerms.v14
  refine (broadcastInDim_apply _ _ _ _ (ix5 (0 : Fin 1) (0 : Fin 1) (0 : Fin 1) (0 : Fin 1) t) (fun a => match a with
    | ⟨0, _⟩ => rfl
    | ⟨1, _⟩ => rfl
    | ⟨2, _⟩ => rfl
    | ⟨3, _⟩ => rfl
    | ⟨4, _⟩ => rfl)).trans ?_
  unfold RefTerms.v12
  refine (broadcastInDim_apply _ _ _ _ (ix1 t) (fun a => match a with
    | ⟨0, _⟩ => rfl)).trans ?_
  unfold RefTerms.cst
  show lit (lit0 (S7.rowMajor (ix1 t))) = _
  rw [lit0_rowMajor]

theorem lift5 (hR : S8x1500x40x32x7.Reduces [4] S8x1500x40x32) (p : Fin 8) (q : Fin 1500) (g : Fin 40) (e : Fin 32)
    (t : Fin 7) : hR.lift (ix4 p q g e) t = ix5 p q g e t := by
  funext c
  refine Fin.ext ?_
  match c with
  | ⟨0, _⟩ => rfl
  | ⟨1, _⟩ => rfl
  | ⟨2, _⟩ => rfl
  | ⟨3, _⟩ => rfl
  | ⟨4, _⟩ => rfl

theorem v16_at (x : FVec Ideal S8x1500x1280 .f32) (p : Fin 8) (q : Fin 1500) (g : Fin 40) (e : Fin 32) (t : Fin 7) :
    RefTerms.v16 x (ix5 p q g e t)
      = (Ideal.cmp .ogt (eabs (Ideal.div (egrp x p q g e) (gscale (egrp x p q g)))) (lit (lit0 t))).setWidth 32 := by
  unfold RefTerms.v16 RefTerms.v15
  show (Ideal.cmp .ogt (RefTerms.v13 x (ix5 p q g e t)) (RefTerms.v14 (ix5 p q g e t))).setWidth 32 = _
  rw [v13_at, v14_at]

theorem v17_at (x : FVec Ideal S8x1500x1280 .f32) (p : Fin 8) (q : Fin 1500) (g : Fin 40) (e : Fin 32) :
    RefTerms.v17 x (ix4 p q g e) = cnt (eabs (Ideal.div (egrp x p q g e) (gscale (egrp x p q g)))) := by
  unfold RefTerms.v17 cnt
  have hR : S8x1500x40x32x7.Reduces [4] S8x1500x40x32 := by decide
  refine (Host.reduce_eq_fold_single IntOp.addi (RefTerms.v16 x) RefTerms.c
    reducesTo_S8x1500x40x32x7_S8x1500x40x32_d4 hR h_S_ (ix4 p q g e)).trans ?_
  show (Finset.univ : Finset (Fin 7)).fold IntOp.addi 0#32 (RefTerms.v16 x ∘ hR.lift (ix4 p q g e)) = _
  refine Finset.fold_congr (fun t _ => ?_)
  show RefTerms.v16 x (hR.lift (ix4 p q g e) t) = _
  rw [lift5 hR p q g e t]
  exact v16_at x p q g e t

theorem v23_at (x : FVec Ideal S8x1500x1280 .f32) (p : Fin 8) (q : Fin 1500) (g : Fin 40) (e : Fin 32) :
    RefTerms.v23 x (ix4 p q g e) = wrap (cnt (eabs (Ideal.div (egrp x p q g e) (gscale (egrp x p q g))))) := by
  unfold RefTerms.v23 RefTerms.v20 RefTerms.v22 wrap
  show Scalar.select (IntOp.cmpi .slt (RefTerms.v17 x (ix4 p q g e)) (RefTerms.v19 (ix4 p q g e)))
      (IntOp.addi (RefTerms.v17 x (ix4 p q g e)) (RefTerms.v21 (ix4 p q g e))) (RefTerms.v17 x (ix4 p q g e)) = _
  have h19 : RefTerms.v19 (ix4 p q g e) = 0#32 := by
    unfold RefTerms.v19; exact broadcastInDim_scalar_apply _ _ _
  have h21 : RefTerms.v21 (ix4 p q g e) = 8#32 := by
    unfold RefTerms.v21; exact broadcastInDim_scalar_apply _ _ _
  rw [h19, h21, v17_at]

/-! ## The table of levels read at the count -/

/-- A start index read signed and clamped into 0 … 7. -/
def clamp8 (c : BitVec 32) : Fin 8 := ⟨min c.toInt.toNat 7, by omega⟩

/-- The gather of a table of 8 entries at an array of start indices [8, 1500, 40, 32, 1]: entry (p, q, g, e) is the
    table at the start index (p, q, g, e, 0), read signed and clamped into 0 … 7. -/
theorem gather4_apply (tbl : S8.Idx → EReal) (idx : IVec S8x1500x40x32x1 32) (p : Fin 8) (q : Fin 1500) (g : Fin 40)
    (e : Fin 32) :
    Host.gather gather_S8_S8x1500x40x32x1_S8x1500x40x32_n_0_n_n_0_4_1 tbl idx (ix4 p q g e)
      = tbl (ix1 (clamp8 (idx (ix5 p q g e (0 : Fin 1))))) := by
  unfold Host.gather
  refine congrArg tbl ?_
  funext a
  obtain rfl : a = 0 := Subsingleton.elim _ _
  refine Fin.ext ?_
  show gather_S8_S8x1500x40x32x1_S8x1500x40x32_n_0_n_n_0_4_1.start (ix4 p q g e) idx 0
      + gather_S8_S8x1500x40x32x1_S8x1500x40x32_n_0_n_n_0_4_1.batchCoord (ix4 p q g e) 0
      + gather_S8_S8x1500x40x32x1_S8x1500x40x32_n_0_n_n_0_4_1.offCoord (ix4 p q g e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S8_S8x1500x40x32x1_S8x1500x40x32_n_0_n_n_0_4_1.startIndexMap from
    List.mem_singleton.mpr rfl)]
  have hsi : gather_S8_S8x1500x40x32x1_S8x1500x40x32_n_0_n_n_0_4_1.siIdx (ix4 p q g e)
      ⟨List.idxOf (0 : Fin 1) gather_S8_S8x1500x40x32x1_S8x1500x40x32_n_0_n_n_0_4_1.startIndexMap,
        List.idxOf_lt_length_iff.2 (List.mem_singleton.mpr rfl)⟩ = ix5 p q g e (0 : Fin 1) := by
    funext b; refine Fin.ext ?_
    match b with
    | ⟨0, _⟩ => rfl
    | ⟨1, _⟩ => rfl
    | ⟨2, _⟩ => rfl
    | ⟨3, _⟩ => rfl
    | ⟨4, _⟩ => rfl
  rw [hsi]
  rfl

/-- The table of levels at a clamped start index. -/
theorem cst_0_at (c : BitVec 32) : RefTerms.cst_0 (ix1 (clamp8 c)) = lit (lit1 ⟨min c.toInt.toNat 7, by omega⟩) := by
  unfold RefTerms.cst_0
  show lit (lit1 (S8.rowMajor (ix1 (clamp8 c)))) = _
  rw [lit1_rowMajor]
  rfl

/-- The table of levels read at an index word that is the wrapped count: the level. -/
theorem level_of_word (c : BitVec 32) (a : EReal) (h : c = wrap (cnt a)) : lit (lit1 ⟨min c.toInt.toNat 7, by omega⟩) = level a :=
  level_of_index c a h

theorem v25_at (x : FVec Ideal S8x1500x1280 .f32) (p : Fin 8) (q : Fin 1500) (g : Fin 40) (e : Fin 32) :
    RefTerms.v25 x (ix4 p q g e) = level (eabs (Ideal.div (egrp x p q g e) (gscale (egrp x p q g)))) := by
  unfold RefTerms.v25
  refine (gather4_apply RefTerms.cst_0 (RefTerms.v24 x) p q g e).trans ?_
  have h24 : RefTerms.v24 x (ix5 p q g e (0 : Fin 1))
      = wrap (cnt (eabs (Ideal.div (egrp x p q g e) (gscale (egrp x p q g))))) := by
    unfold RefTerms.v24
    refine (broadcastInDim_apply _ _ _ _ (ix4 p q g e) (fun a => match a with
      | ⟨0, _⟩ => rfl
      | ⟨1, _⟩ => rfl
      | ⟨2, _⟩ => rfl
      | ⟨3, _⟩ => rfl)).trans ?_
    exact v23_at x p q g e
  generalize hc : RefTerms.v24 x (ix5 p q g e (0 : Fin 1)) = c
  rw [h24] at hc
  exact (cst_0_at c).trans (level_of_word c _ hc.symm)

/-! ## The quantized entry -/

theorem v28_at (x : FVec Ideal S8x1500x1280 .f32) (p : Fin 8) (q : Fin 1500) (g : Fin 40) (e : Fin 32) :
    RefTerms.v28 x (ix4 p q g e) = qelem (egrp x p q g e) (gscale (egrp x p q g)) := by
  unfold RefTerms.v28 RefTerms.v26 qelem
  show RefTerms.v18 x (ix4 p q g e) * RefTerms.v25 x (ix4 p q g e) * RefTerms.v27 x (ix4 p q g e) = _
  rw [v18_at, v25_at, v27_at]

/-- Row `1500 p + q` of the flattened activations is row `(p, q)`. -/
theorem flat_at (x : FVec Ideal S8x1500x1280 .f32) (p : Fin 8) (q : Fin 1500) (k : Fin 1280)
    (h : 1500 * p.val + q.val < 12000) :
    flat x (ix2 (⟨1500 * p.val + q.val, h⟩ : Fin 12000) k) = x (ix3 p q k) := by
  unfold flat
  have e0 : (1500 * p.val + q.val) / 1500 = p.val := by omega
  have e1 : (1500 * p.val + q.val) % 1500 = q.val := by omega
  refine congrArg x ?_
  funext d
  match d with
  | ⟨0, _⟩ => exact Fin.ext e0
  | ⟨1, _⟩ => exact Fin.ext e1
  | ⟨2, _⟩ => rfl

theorem grp_flat (x : FVec Ideal S8x1500x1280 .f32) (p : Fin 8) (q : Fin 1500) (g : Fin 40)
    (h : 1500 * p.val + q.val < 12000) :
    grp (flat x) (⟨1500 * p.val + q.val, h⟩ : Fin 12000) g = egrp x p q g := by
  funext e
  unfold grp egrp
  exact flat_at x p q _ h

/-- THE QUANTIZED ACTIVATIONS: entry (p, q, k) of the reference's quantized activations is the specification's
    quantized entry k of row 1500 p + q of the flattened array. -/
theorem v29_eq (x : FVec Ideal S8x1500x1280 .f32) (p : Fin 8) (q : Fin 1500) (k : Fin 1280) :
    RefTerms.v29 x (ix3 p q k)
      = quant (flat x) (ix2 (⟨1500 * p.val + q.val, by omega⟩ : Fin 12000) k) := by
  obtain ⟨g, e, hk⟩ : ∃ (g : Fin 40) (e : Fin 32), k = ⟨32 * g.val + e.val, by omega⟩ :=
    ⟨⟨k.val / 32, by omega⟩, ⟨k.val % 32, by omega⟩, Fin.ext (by show k.val = 32 * (k.val / 32) + k.val % 32; omega)⟩
  subst hk
  have h29 : RefTerms.v29 x (ix3 p q ⟨32 * g.val + e.val, by omega⟩) = RefTerms.v28 x (ix4 p q g e) := by
    unfold RefTerms.v29
    exact shapeCast_apply _ _ _ _ (by
      rw [Shape.rowMajor_val_four, Shape.rowMajor_val_three]
      show ((p.val * 1500 + q.val) * 40 + g.val) * 32 + e.val = (p.val * 1500 + q.val) * 1280 + (32 * g.val + e.val)
      omega)
  rw [h29, v28_at]
  unfold quant
  have hg : (⟨(32 * g.val + e.val) / 32, by omega⟩ : Fin 40) = g := Fin.ext (by show (32 * g.val + e.val) / 32 = g.val; omega)
  show _ = qelem (flat x (ix2 (⟨1500 * p.val + q.val, by omega⟩ : Fin 12000) ⟨32 * g.val + e.val, by omega⟩))
    (gscale (grp (flat x) (⟨1500 * p.val + q.val, by omega⟩ : Fin 12000) (⟨(32 * g.val + e.val) / 32, by omega⟩ : Fin 40)))
  rw [hg, flat_at, grp_flat]
  rfl

end Cert.ReferenceIdeal.RefValue.Acts

end
-- ==== Proof.lean ====
/-
  The certificate's claim.  A linear layer on block-quantized operands: each row of the activations [8·1500, 1280] and of
  the weights [5120, 1280] is cut into 40 groups of 32, a group is scaled by its largest absolute value over 6 (floored at
  1e-12), every entry is rounded in magnitude to the eight levels 0, 0.5, 1, 1.5, 2, 3, 4, 6 by seven increasing
  thresholds, multiplied by its sign and scaled back; the result is the product of the quantized activations with the
  transposed quantized weights plus the bias, beside the weights' scales.

  The kernel program does it in two launches (quantize the weights in blocks of 512 rows; quantize a block of 600 rows of
  activations on the fly and multiply it with a block of 512 quantized weight rows), the level found by a chain of
  selects up the thresholds; the reference quantizes whole arrays and finds the level by counting the thresholds exceeded
  and looking the count up in the table of levels.  On the extended reals both are the one specification of
  Proof/Spec.lean: the quantization is local in the rows (so blocks of rows quantize as the whole does), the chain and the
  counted lookup agree because the thresholds increase, the sign term of the kernel is the sign function, and the two
  products contract the same 1280 features.  No finiteness of the inputs is used.
-/
import proofs.«125756_j635655160006_1_alg».proof.Proof.Assembly
import proofs.«125756_j635655160006_1_alg».proof.Proof.Body0
import proofs.«125756_j635655160006_1_alg».proof.Proof.Body1
import proofs.«125756_j635655160006_1_alg».proof.Proof.RefWeights
import proofs.«125756_j635655160006_1_alg».proof.Proof.RefActs

noncomputable section

namespace Cert.Proof

theorem claim : Cert.Claim :=
  Assembly.claim_of
    ⟨Cert.KernelIdeal.BodyValue.out0_1_eq, Cert.KernelIdeal.BodyValue.out0_2_eq, Cert.KernelIdeal.BodyValue.out1_3_eq⟩
    ⟨Cert.ReferenceIdeal.RefValue.Acts.v29_eq, Cert.ReferenceIdeal.RefValue.v60_eq, Cert.ReferenceIdeal.RefValue.refScale_eq⟩

end Cert.Proof

end
